-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S128 : Shape := ⟨1, ![128]⟩
abbrev S100000x128 : Shape := ⟨2, ![100000, 128]⟩
abbrev S1 : Shape := ⟨1, ![1]⟩
abbrev S2x1600000 : Shape := ⟨2, ![2, 1600000]⟩
abbrev S224x256 : Shape := ⟨2, ![224, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S128 : S_.BroadcastsInDim S128 (![] : Fin 0 → Fin S128.rank)
  reducesTo_S128_S_d0 : S128.ReducesTo [0] S_
  bcast_S_S100000x128 : S_.BroadcastsInDim S100000x128 (![] : Fin 0 → Fin S100000x128.rank)
  reducesTo_S100000x128_S_d0_1 : S100000x128.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_
  bcast_S_S224x256 : S_.BroadcastsInDim S224x256 (![] : Fin 0 → Fin S224x256.rank)
  reducesTo_S224x256_S_d0_1 : S224x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S256x64 .f32) (main_arg8 : FVec F S64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S2x1600000 .f32) (main_arg5 : FVec F S224x256 .f32) (main_arg6 : FVec F S256 .f32) (main_arg7 : FVec F S256x64 .f32) (main_arg8 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S2x1600000 .f32 := Host.absf main_arg4
  let main_cst_6 : FVec F S_ .f32 := constant S_ .f32 0x7F800000#32
  let main_v20 : FVec F S2x1600000 .f32 := broadcastInDim S2x1600000 ![] bcast_S_S2x1600000 main_cst_6
  let main_v21 : IVec S2x1600000 1 := cmpf .olt main_v19 main_v20
  let main_c_7 : IVec S_ 1 := constantI S_ 1 1#1
  let main_v22 : IVec S_ 1 := (fun x v => Host.reduce IntOp.andi x v reducesTo_S2x1600000_S_d0_1 h_S_) main_v21 main_c_7
  let main_v23 : IVec S_ 1 := andi main_v18 main_v22
  let main_v24 : FVec F S224x256 .f32 := Host.absf main_arg5
  let main_cst_8 : FVec F S_ .f32 := constant S_ .f32 0x7F800000#32
  let main_v25 : FVec F S224x256 .f32 := broadcastInDim S224x256 ![] bcast_S_S224x256 main_cst_8
  let main_v26 : IVec S224x256 1 := cmpf .olt main_v24 main_v25
  let main_c_9 : IVec S_ 1 := constantI S_ 1 1#1
  let main_v27 : IVec S_ 1 := (fun x v => Host.reduce IntOp.andi x v reducesTo_S224x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S100000x32 .f32) (main_arg1 : FVec F S128 .f32) (main_arg2 : FVec F S100000x128 .f32) (main_arg3 : FVec F S1 .f32) (main_arg4 : FVec F S2x1600000 .f32) (main_arg5 : FVec F S224x256 .f32) (main_arg6 : FVec F S256 .f32) (main_arg7 : FVec F S256x64 .f32) (main_arg8 : FVec F S64 .f32) (main_arg9 : IVec S2x1600000 32) (main_arg10 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_v13 main_v16
-- ==== Kernel.lean ====
abbrev S100000x32 : Shape := ⟨2, ![100000, 32]⟩
abbrev S128 : Shape := ⟨1, ![128]⟩
abbrev S100000x128 : Shape := ⟨2, ![100000, 128]⟩
abbrev S1 : Shape := ⟨1, ![1]⟩
abbrev S2x1600000 : Shape := ⟨2, ![2, 1600000]⟩
abbrev S224x256 : Shape := ⟨2, ![224, 256]⟩
abbrev S256 : Shape := ⟨1, ![256]⟩
abbrev S256x64 : Shape := ⟨2, ![256, 64]⟩
abbrev S64 : Shape := ⟨1, ![64]⟩
abbrev S_ : Shape := ⟨0, ![]⟩
abbrev S128x32 : Shape := ⟨2, ![128, 32]⟩
abbrev S10000x128 : Shape := ⟨2, ![10000, 128]⟩
abbrev S10000x32 : Shape := ⟨2, ![10000, 32]⟩
abbrev S128x1 : Shape := ⟨2, ![128, 1]⟩
abbrev S10000 : Shape := ⟨1, ![10000]⟩
abbrev S10000x1 : Shape := ⟨2, ![10000, 1]⟩
abbrev S1x1600000 : Shape := ⟨2, ![1, 1600000]⟩
abbrev S1600000 : Shape := ⟨1, ![1600000]⟩
abbrev S1600000x1 : Shape := ⟨2, ![1600000, 1]⟩
abbrev S1600000x32 : Shape := ⟨2, ![1600000, 32]⟩
abbrev S100000x64 : Shape := ⟨2, ![100000, 64]⟩
abbrev S1600000x64 : Shape := ⟨2, ![1600000, 64]⟩
abbrev S100000x224 : Shape := ⟨2, ![100000, 224]⟩
abbrev S1x256 : Shape := ⟨2, ![1, 256]⟩
abbrev S1x64 : Shape := ⟨2, ![1, 64]⟩
abbrev S5000x224 : Shape := ⟨2, ![5000, 224]⟩
abbrev S5000x64 : Shape := ⟨2, ![5000, 64]⟩
abbrev S5000x256 : Shape := ⟨2, ![5000, 256]⟩

abbrev nBuf : Space → Nat
  | .hbm => 126
  | .vmem => 19
  | .smem => 0
  | _ => 0

abbrev bufTy : (tb : Table) → Fin (tcTables nBuf tb) → BufTy
  | .hbm, ⟨0, _⟩ => ⟨S100000x32, .f32⟩
  | .hbm, ⟨1, _⟩ => ⟨S128, .f32⟩
  | .hbm, ⟨2, _⟩ => ⟨S100000x128, .f32⟩
  | .hbm, ⟨3, _⟩ => ⟨S1, .f32⟩
  | .hbm, ⟨4, _⟩ => ⟨S2x1600000, .f32⟩
  | .hbm, ⟨5, _⟩ => ⟨S224x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S2x1600000, .i32⟩
  | .hbm, ⟨10, _⟩ => ⟨S2x1600000, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128x32, .f32⟩
  | .hbm, ⟨28, _⟩ => ⟨S128x1, .f32⟩
  | .hbm, ⟨29, _⟩ => ⟨S128x32, .f32⟩
  | .hbm, ⟨30, _⟩ => ⟨S128x32, .f32⟩
  | .hbm, ⟨31, _⟩ => ⟨S100000x32, .f32⟩
  | .hbm, ⟨32, _⟩ => ⟨S1x1600000, .f32⟩
  | .hbm, ⟨33, _⟩ => ⟨S1600000, .f32⟩
  | .hbm, ⟨34, _⟩ => ⟨S1600000x1, .f32⟩
  | .hbm, ⟨35, _⟩ => ⟨S1x1600000, .i32⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x32, .f32⟩
  | .hbm, ⟨46, _⟩ => ⟨S1600000x32, .f32⟩
  | .hbm, ⟨47, _⟩ => ⟨S1600000x32, .f32⟩
  | .hbm, ⟨48, _⟩ => ⟨S1x1600000, .i32⟩
  | .hbm, ⟨49, _⟩ => ⟨S1600000, .i32⟩
  | .hbm, ⟨50, _⟩ => ⟨S_, .f32⟩
  | .hbm, ⟨51, _⟩ => ⟨S100000x32, .f32⟩
  | .hbm, ⟨52, _⟩ => ⟨S1600000x1, .i32⟩
  | .hbm, ⟨53, _⟩ => ⟨S100000x32, .f32⟩
  | .hbm, ⟨54, _⟩ => ⟨S1x1600000, .f32⟩
  | .hbm, ⟨55, _⟩ => ⟨S1600000, .f32⟩
  | .hbm, ⟨56, _⟩ => ⟨S1600000x1, .f32⟩
  | .hbm, ⟨57, _⟩ => ⟨S1x1600000, .i32⟩
  | .hbm, ⟨58, _⟩ => ⟨S1600000, .i32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x32, .f32⟩
  | .hbm, ⟨68, _⟩ => ⟨S1600000x32, .f32⟩
  | .hbm, ⟨69, _⟩ => ⟨S1600000x32, .f32⟩
  | .hbm, ⟨70, _⟩ => ⟨S1x1600000, .i32⟩
  | .hbm, ⟨71, _⟩ => ⟨S1600000, .i32⟩
  | .hbm, ⟨72, _⟩ => ⟨S_, .f32⟩
  | .hbm, ⟨73, _⟩ => ⟨S100000x32, .f32⟩
  | .hbm, ⟨74, _⟩ => ⟨S1600000x1, .i32⟩
  | .hbm, ⟨75, _⟩ => ⟨S100000x32, .f32⟩
  | .hbm, ⟨76, _⟩ => ⟨S100000x64, .f32⟩
  | .hbm, ⟨77, _⟩ => ⟨S1x1600000, .f32⟩
  | .hbm, ⟨78, _⟩ => ⟨S1600000, .f32⟩
  | .hbm, ⟨79, _⟩ => ⟨S1600000x1, .f32⟩
  | .hbm, ⟨80, _⟩ => ⟨S1x1600000, .i32⟩
  | .hbm, ⟨81, _⟩ => ⟨S1600000, .i32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S1600000x64, .f32⟩
  | .hbm, ⟨92, _⟩ => ⟨S1600000x64, .f32⟩
  | .hbm, ⟨93, _⟩ => ⟨S1x1600000, .i32⟩
  | .hbm, ⟨94, _⟩ => ⟨S1600000, .i32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S1x1600000, .f32⟩
  | .hbm, ⟨100, _⟩ => ⟨S1600000, .f32⟩
  | .hbm, ⟨101, _⟩ => ⟨S1600000x1, .f32⟩
  | .hbm, ⟨102, _⟩ => ⟨S1x1600000, .i32⟩
  | .hbm, ⟨103, _⟩ => ⟨S1600000, .i32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x64, .f32⟩
  | .hbm, ⟨113, _⟩ => ⟨S1600000x64, .f32⟩
  | .hbm, ⟨114, _⟩ => ⟨S1600000x64, .f32⟩
  | .hbm, ⟨115, _⟩ => ⟨S1x1600000, .i32⟩
  | .hbm, ⟨116, _⟩ => ⟨S1600000, .i32⟩
  | .hbm, ⟨117, _⟩ => ⟨S_, .f32⟩
  | .hbm, ⟨118, _⟩ => ⟨S100000x64, .f32⟩
  | .hbm, ⟨119, _⟩ => ⟨S1600000x1, .i32⟩
  | .hbm, ⟨120, _⟩ => ⟨S100000x64, .f32⟩
  | .hbm, ⟨121, _⟩ => ⟨S100000x128, .f32⟩
  | .hbm, ⟨122, _⟩ => ⟨S100000x224, .f32⟩
  | .hbm, ⟨123, _⟩ => ⟨S1x256, .f32⟩
  | .hbm, ⟨124, _⟩ => ⟨S1x64, .f32⟩
  | .hbm, ⟨125, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x32, .f32⟩
  | .local _ .vmem, ⟨3, _⟩ => ⟨S10000x32, .f32⟩
  | .local _ .vmem, ⟨4, _⟩ => ⟨S128x32, .f32⟩
  | .local _ .vmem, ⟨5, _⟩ => ⟨S128x32, .f32⟩
  | .local _ .vmem, ⟨6, _⟩ => ⟨S10000x128, .f32⟩
  | .local _ .vmem, ⟨7, _⟩ => ⟨S10000x128, .f32⟩
  | .local _ .vmem, ⟨8, _⟩ => ⟨S128x32, .f32⟩
  | .local _ .vmem, ⟨9, _⟩ => ⟨S10000x32, .f32⟩
  | .local _ .vmem, ⟨10, _⟩ => ⟨S10000x32, .f32⟩
  | .local _ .vmem, ⟨11, _⟩ => ⟨S5000x224, .f32⟩
  | .local _ .vmem, ⟨12, _⟩ => ⟨S5000x224, .f32⟩
  | .local _ .vmem, ⟨13, _⟩ => ⟨S224x256, .f32⟩
  | .local _ .vmem, ⟨14, _⟩ => ⟨S1x256, .f32⟩
  | .local _ .vmem, ⟨15, _⟩ => ⟨S256x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_1 : Ref sig .tc := ⟨.hbm, 59, rfl⟩
abbrev main_v35 : Ref sig .tc := ⟨.hbm, 60, rfl⟩
abbrev main_v36 : Ref sig .tc := ⟨.hbm, 61, rfl⟩
abbrev main_c_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_4 : Ref sig .tc := ⟨.hbm, 82, rfl⟩
abbrev main_v55 : Ref sig .tc := ⟨.hbm, 83, rfl⟩
abbrev main_v56 : Ref sig .tc := ⟨.hbm, 84, rfl⟩
abbrev main_c_5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_7 : Ref sig .tc := ⟨.hbm, 104, rfl⟩
abbrev main_v74 : Ref sig .tc := ⟨.hbm, 105, rfl⟩
abbrev main_v75 : Ref sig .tc := ⟨.hbm, 106, rfl⟩
abbrev main_c_8 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_9 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x224 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S224x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S1_S_ : S1.ShapeCasts S_
  bcast_S_S128 : S_.BroadcastsInDim S128 (![] : Fin 0 → Fin S128.rank)
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  reduces_S10000x32_S10000 : S10000x32.Reduces [1] S10000
  shapeCasts_S10000_S10000x1 : S10000.ShapeCasts S10000x1
  broadcasts_S10000x1_S10000x32 : S10000x1.Broadcasts S10000x32
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S2x1600000_S1x1600000_1_0 : S2x1600000.Slices ![1, 0] S1x1600000
  concatenates_S100000x32_S100000x32_S100000x64_d1 : Shape.Concatenates [S100000x32, S100000x32] S100000x64 1
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  concatenates_S100000x32_S100000x64_S100000x128_S100000x224_d1 : Shape.Concatenates [S100000x32, S100000x64, S100000x128] S100000x224 1
  shapeCasts_S256_S1x256 : S256.ShapeCasts S1x256
  shapeCasts_S64_S1x64 : S64.ShapeCasts S1x64
  inb_S5000x224_S5000x224_0_0 : ∀ a, (![0, 0] : Fin 2 → Nat) a + S5000x224.size a ≤ S5000x224.size a
  h_S5000x224 : 0 < S5000x224.numel
  shapeCasts_S5000x224_S5000x224 : S5000x224.ShapeCasts S5000x224
  inb_S224x256_S224x256_0_0 : ∀ a, (![0, 0] : Fin 2 → Nat) a + S224x256.size a ≤ S224x256.size a
  h_S224x256 : 0 < S224x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S10000x128_S10000x32_S128x32_0_0_1_1_n_n_wf : DotDims.WF S10000x128 S10000x32 S128x32 [0] [0] [1] [1] [] []
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x224_S224x256_S5000x256_1_0_0_1_n_n_wf : DotDims.WF S5000x224 S224x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x224.size a ≤ S100000x224.size a
  hwx2_0 : ∀ i : grid2.Coords, EltTy.bits .f32 = 32 ∨ (Rect.block (s := S100000x224) S5000x224.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S224x256.size a ≤ S224x256.size a
  hwx2_1 : ∀ i : grid2.Coords, EltTy.bits .f32 = 32 ∨ (Rect.block (s := S224x256) S224x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def dot_S10000x128_S10000x32_S128x32_0_0_1_1_n_n : DotDims S10000x128 S10000x32 S128x32 where
  lhsContracting := [0]
  rhsContracting := [0]
  lhsNonContracting := [1]
  rhsNonContracting := [1]
  lhsBatch := []
  rhsBatch := []
  wf := dot_S10000x128_S10000x32_S128x32_0_0_1_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x224_S224x256_S5000x256_1_0_0_1_n_n : DotDims S5000x224 S224x256 S5000x256 where
  lhsContracting := [1]
  rhsContracting := [0]
  lhsNonContracting := [0]
  rhsNonContracting := [1]
  lhsBatch := []
  rhsBatch := []
  wf := dot_S5000x224_S224x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v89) S5000x224.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S224x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v92) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S128 : Shape := ⟨1, ![128]⟩
abbrev S100000x128 : Shape := ⟨2, ![100000, 128]⟩
abbrev S1 : Shape := ⟨1, ![1]⟩
abbrev S2x1600000 : Shape := ⟨2, ![2, 1600000]⟩
abbrev S224x256 : Shape := ⟨2, ![224, 256]⟩
abbrev S256 : Shape := ⟨1, ![256]⟩
abbrev S256x64 : Shape := ⟨2, ![256, 64]⟩
abbrev S64 : Shape := ⟨1, ![64]⟩
abbrev S_ : Shape := ⟨0, ![]⟩
abbrev S128x100000 : Shape := ⟨2, ![128, 100000]⟩
abbrev S128x32 : Shape := ⟨2, ![128, 32]⟩
abbrev S128x1 : Shape := ⟨2, ![128, 1]⟩
abbrev S100000 : Shape := ⟨1, ![100000]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x32 : Shape := ⟨2, ![1600000, 32]⟩
abbrev S100000x64 : Shape := ⟨2, ![100000, 64]⟩
abbrev S1600000x64 : Shape := ⟨2, ![1600000, 64]⟩
abbrev S100000x224 : Shape := ⟨2, ![100000, 224]⟩
abbrev S100000x256 : Shape := ⟨2, ![100000, 256]⟩
abbrev S1x256 : Shape := ⟨2, ![1, 256]⟩
abbrev S1x64 : Shape := ⟨2, ![1, 64]⟩

abbrev nBuf : Space → Nat
  | .hbm => 145
  | .vmem => 0
  | .smem => 0
  | _ => 0

abbrev hbmTy0_0 (i : Nat) : BufTy := match i % 128 with
  | 0 => ⟨S100000x32, .f32⟩
  | 1 => ⟨S128, .f32⟩
  | 2 => ⟨S100000x128, .f32⟩
  | 3 => ⟨S1, .f32⟩
  | 4 => ⟨S2x1600000, .f32⟩
  | 5 => ⟨S224x256, .f32⟩
  | 6 => ⟨S256, .f32⟩
  | 7 => ⟨S256x64, .f32⟩
  | 8 => ⟨S64, .f32⟩
  | 9 => ⟨S2x1600000, .i32⟩
  | 10 => ⟨S2x1600000, .i32⟩
  | 11 => ⟨S_, .f32⟩
  | 12 => ⟨S_, .f32⟩
  | 13 => ⟨S_, .f32⟩
  | 14 => ⟨S_, .f32⟩
  | 15 => ⟨S_, .i1⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S128x100000, .f32⟩
  | 24 => ⟨S128x32, .f32⟩
  | 25 => ⟨S_, .f32⟩
  | 26 => ⟨S128, .f32⟩
  | 27 => ⟨S128, .f32⟩
  | 28 => ⟨S128, .f32⟩
  | 29 => ⟨S128x1, .f32⟩
  | 30 => ⟨S128x32, .f32⟩
  | 31 => ⟨S128x32, .f32⟩
  | 32 => ⟨S100000x32, .f32⟩
  | 33 => ⟨S100000x32, .f32⟩
  | 34 => ⟨S_, .f32⟩
  | 35 => ⟨S100000, .f32⟩
  | 36 => ⟨S100000x1, .f32⟩
  | 37 => ⟨S100000x1, .f32⟩
  | 38 => ⟨S_, .f32⟩
  | 39 => ⟨S100000x1, .f32⟩
  | 40 => ⟨S100000x1, .f32⟩
  | 41 => ⟨S100000x32, .f32⟩
  | 42 => ⟨S100000x32, .f32⟩
  | 43 => ⟨S1x1600000, .i32⟩
  | 44 => ⟨S1600000, .i32⟩
  | 45 => ⟨S1x1600000, .i32⟩
  | 46 => ⟨S1600000, .i32⟩
  | 47 => ⟨S1x1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S1x1600000, .i32⟩
  | 66 => ⟨S1600000, .i32⟩
  | 67 => ⟨S1x1600000, .i32⟩
  | 68 => ⟨S1600000, .i32⟩
  | 69 => ⟨S1x1600000, .f32⟩
  | 70 => ⟨S1600000, .f32⟩
  | 71 => ⟨S1600000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x32, .f32⟩
  | 81 => ⟨S1600000x32, .f32⟩
  | 82 => ⟨S1600000x32, .f32⟩
  | 83 => ⟨S_, .f32⟩
  | 84 => ⟨S100000x32, .f32⟩
  | 85 => ⟨S1600000x1, .i32⟩
  | 86 => ⟨S100000x32, .f32⟩
  | 87 => ⟨S100000x64, .f32⟩
  | 88 => ⟨S1x1600000, .i32⟩
  | 89 => ⟨S1600000, .i32⟩
  | 90 => ⟨S1x1600000, .i32⟩
  | 91 => ⟨S1600000, .i32⟩
  | 92 => ⟨S1x1600000, .f32⟩
  | 93 => ⟨S1600000, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S1x1600000, .i32⟩
  | 111 => ⟨S1600000, .i32⟩
  | 112 => ⟨S1x1600000, .i32⟩
  | 113 => ⟨S1600000, .i32⟩
  | 114 => ⟨S1x1600000, .f32⟩
  | 115 => ⟨S1600000, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x64, .f32⟩
  | 127 => ⟨S1600000x64, .f32⟩
  | _ => ⟨S100000x32, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S100000x128, .f32⟩
  | 5 => ⟨S100000x224, .f32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x64, .f32⟩
  | 14 => ⟨S1x64, .f32⟩
  | 15 => ⟨S100000x64, .f32⟩
  | 16 => ⟨S100000x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c : Ref sig .tc := ⟨.hbm, 50, rfl⟩
abbrev main_v24 : Ref sig .tc := ⟨.hbm, 51, rfl⟩
abbrev main_v25 : Ref sig .tc := ⟨.hbm, 52, rfl⟩
abbrev main_c_0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_1 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_2 : Ref sig .tc := ⟨.hbm, 72, rfl⟩
abbrev main_v43 : Ref sig .tc := ⟨.hbm, 73, rfl⟩
abbrev main_v44 : Ref sig .tc := ⟨.hbm, 74, rfl⟩
abbrev main_c_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_4 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_5 : Ref sig .tc := ⟨.hbm, 95, rfl⟩
abbrev main_v63 : Ref sig .tc := ⟨.hbm, 96, rfl⟩
abbrev main_v64 : Ref sig .tc := ⟨.hbm, 97, rfl⟩
abbrev main_c_6 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_7 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_8 : Ref sig .tc := ⟨.hbm, 117, rfl⟩
abbrev main_v82 : Ref sig .tc := ⟨.hbm, 118, rfl⟩
abbrev main_v83 : Ref sig .tc := ⟨.hbm, 119, rfl⟩
abbrev main_c_9 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_10 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call2_cst : Ref sig .tc := ⟨.hbm, 138, rfl⟩
abbrev main_call2_v0 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]

class Facts₀ : Prop where
  shapeCasts_S1_S_ : S1.ShapeCasts S_
  transposes_S100000x128_S128x100000_1_0 : S100000x128.Transposes [1, 0] S128x100000
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S2x1600000_S1x1600000_1_0 : S2x1600000.Slices ![1, 0] S1x1600000
  concatenates_S100000x32_S100000x32_S100000x64_d1 : Shape.Concatenates [S100000x32, S100000x32] S100000x64 1
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  concatenates_S100000x32_S100000x64_S100000x128_S100000x224_d1 : Shape.Concatenates [S100000x32, S100000x64, S100000x128] S100000x224 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S128x100000_S100000x32_S128x32_1_0_0_1_n_n_wf : DotDims.WF S128x100000 S100000x32 S128x32 [1] [0] [0] [1] [] []
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x224_S224x256_S100000x256_1_0_0_1_n_n_wf : DotDims.WF S100000x224 S224x256 S100000x256 [1] [0] [0] [1] [] []
  dot_S100000x256_S256x64_S100000x64_1_0_0_1_n_n_wf : DotDims.WF S100000x256 S256x64 S100000x64 [1] [0] [0] [1] [] []

variable [Facts₀]

def dot_S128x100000_S100000x32_S128x32_1_0_0_1_n_n : DotDims S128x100000 S100000x32 S128x32 where
  lhsContracting := [1]
  rhsContracting := [0]
  lhsNonContracting := [0]
  rhsNonContracting := [1]
  lhsBatch := []
  rhsBatch := []
  wf := dot_S128x100000_S100000x32_S128x32_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x224_S224x256_S100000x256_1_0_0_1_n_n : DotDims S100000x224 S224x256 S100000x256 where
  lhsContracting := [1]
  rhsContracting := [0]
  lhsNonContracting := [0]
  rhsNonContracting := [1]
  lhsBatch := []
  rhsBatch := []
  wf := dot_S100000x224_S224x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.HostKeeps.lean ====
/-
  The host stretches of @main between its three kernel regions, as far as the buffers are concerned.

  A straight line of host operations allocates nothing and writes only its operations' result buffers.  So any
  buffer that is none of those holds after the line what it held before, whatever contents the line is entered
  with.  For each of the five stretches this file lists the result buffers in order, proves that statement for an
  arbitrary reference outside the list, and specialises it to the eleven argument buffers of @main, none of which
  any stretch writes.  Everything is stated for an arbitrary float instance.
-/
import proofs.«145947_j31421980738206_1_alg».proof.Proof.Gen.KernelIdeal.Launch

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal.Gen

variable {F : FTy → Type} [FloatOps F]

/-! ## No stretch allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## What each stretch writes -/

/-- Every operation of the named line writes one buffer, and that buffer is in the list the goal names: the line's
    operations are taken one by one, each one's result buffer found in the list by comparing references. -/
local macro "writes_within " ops:ident : tactic => `(tactic| (
  simp only [$ops:ident, List.Forall, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))))

/-- The result buffers of `hostOps0`, in the order of its operations. -/
abbrev written0 : List (Ref sig .tc) :=
  [ main_v0 ]

/-- The result buffers of `hostOps0_1`, in the order of its operations. -/
abbrev written0_1 : List (Ref sig .tc) :=
  [ main_call0_cst, main_call0_v0, main_call0_v1, main_call0_v2, main_call0_v3, main_call0_v4, main_call0_v5,
    main_call0_v6, main_call0_v7, main_call0_v8, main_v1 ]

/-- The result buffers of `hostOps0_2`, in the order of its operations. -/
abbrev written0_2 : List (Ref sig .tc) :=
  [ main_v2, main_v3, main_v4, main_v5 ]

/-- The result buffers of `hostOps1`, in the order of its operations. -/
abbrev written1 : List (Ref sig .tc) :=
  [ main_v7, main_v8, main_v9 ]

/-- The result buffers of `hostOps2`, in the order of its operations. -/
abbrev written2 : List (Ref sig .tc) :=
  [ main_v11, main_v12, main_v13, main_v14, main_v15, main_c, main_v16, main_v17, main_c_0, main_v18,
    main_v19, main_v20, main_v21, main_v22, main_v23, main_v24, main_v25, main_v26, main_cst, main_v27,
    main_v28, main_v29, main_v30, main_v31, main_v32, main_v33, main_v34, main_c_1, main_v35, main_v36,
    main_c_2, main_v37, main_v38, main_v39, main_v40, main_v41, main_v42, main_v43, main_v44, main_v45,
    main_cst_3, main_v46, main_v47, main_v48, main_v49, main_v50, main_v51, main_v52, main_v53, main_v54,
    main_c_4, main_v55, main_v56, main_c_5, main_v57, main_v58, main_v59, main_v60, main_v61, main_v62,
    main_v63, main_v64, main_v65, main_cst_6, main_v66, main_v67, main_v68, main_v69, main_v70, main_v71,
    main_v72, main_v73, main_c_7, main_v74, main_v75, main_c_8, main_v76, main_v77, main_v78, main_v79,
    main_v80, main_v81, main_v82, main_v83, main_v84, main_cst_9, main_v85, main_v86, main_v87, main_v88,
    main_v89, main_v90, main_v91 ]

/-! ## A buffer a stretch does not write keeps its contents -/

theorem keeps_hostOps0_of_not_written (U : Valuation τ sig (Elt F)) (r : Ref sig .tc) (hr : r ∉ written0) :
    StableHlo.after (hostOps0 : List (HloOp τ sig (Elt F))) U (Proc.devRef .tc r) = U (Proc.devRef .tc r) :=
  StableHlo.after_of_writes_sub (W := written0) _ _ (by writes_within hostOps0) hr

theorem keeps_hostOps0_1_of_not_written (U : Valuation τ sig (Elt F)) (r : Ref sig .tc) (hr : r ∉ written0_1) :
    StableHlo.after (hostOps0_1 : List (HloOp τ sig (Elt F))) U (Proc.devRef .tc r) = U (Proc.devRef .tc r) :=
  StableHlo.after_of_writes_sub (W := written0_1) _ _ (by writes_within hostOps0_1) hr

theorem keeps_hostOps0_2_of_not_written (U : Valuation τ sig (Elt F)) (r : Ref sig .tc) (hr : r ∉ written0_2) :
    StableHlo.after (hostOps0_2 : List (HloOp τ sig (Elt F))) U (Proc.devRef .tc r) = U (Proc.devRef .tc r) :=
  StableHlo.after_of_writes_sub (W := written0_2) _ _ (by writes_within hostOps0_2) hr

theorem keeps_hostOps1_of_not_written (U : Valuation τ sig (Elt F)) (r : Ref sig .tc) (hr : r ∉ written1) :
    StableHlo.after (hostOps1 : List (HloOp τ sig (Elt F))) U (Proc.devRef .tc r) = U (Proc.devRef .tc r) :=
  StableHlo.after_of_writes_sub (W := written1) _ _ (by writes_within hostOps1) hr

theorem keeps_hostOps2_of_not_written (U : Valuation τ sig (Elt F)) (r : Ref sig .tc) (hr : r ∉ written2) :
    StableHlo.after (hostOps2 : List (HloOp τ sig (Elt F))) U (Proc.devRef .tc r) = U (Proc.devRef .tc r) :=
  StableHlo.after_of_writes_sub (W := written2) _ _ (by writes_within hostOps2) hr

/-! ## The arguments of @main pass through every stretch -/

/-- The eleven argument buffers of @main. -/
abbrev argRefs : Finset (Ref sig .tc) :=
  {main_arg0, main_arg1, main_arg2, main_arg3, main_arg4, main_arg5, main_arg6, main_arg7, main_arg8, main_arg9, main_arg10}

/-- No stretch writes an argument. -/
theorem args_not_written : ∀ b ∈ argRefs, b ∉ written0 ∧ b ∉ written0_1 ∧ b ∉ written0_2 ∧ b ∉ written1 ∧ b ∉ written2 := by
  decide

theorem keeps_hostOps0 (U : Valuation τ sig (Elt F)) (b : Ref sig .tc) (hb : b ∈ argRefs) :
    StableHlo.after (hostOps0 : List (HloOp τ sig (Elt F))) U (Proc.devRef .tc b) = U (Proc.devRef .tc b) :=
  keeps_hostOps0_of_not_written U b (args_not_written b hb).1

theorem keeps_hostOps0_1 (U : Valuation τ sig (Elt F)) (b : Ref sig .tc) (hb : b ∈ argRefs) :
    StableHlo.after (hostOps0_1 : List (HloOp τ sig (Elt F))) U (Proc.devRef .tc b) = U (Proc.devRef .tc b) :=
  keeps_hostOps0_1_of_not_written U b (args_not_written b hb).2.1

theorem keeps_hostOps0_2 (U : Valuation τ sig (Elt F)) (b : Ref sig .tc) (hb : b ∈ argRefs) :
    StableHlo.after (hostOps0_2 : List (HloOp τ sig (Elt F))) U (Proc.devRef .tc b) = U (Proc.devRef .tc b) :=
  keeps_hostOps0_2_of_not_written U b (args_not_written b hb).2.2.1

theorem keeps_hostOps1 (U : Valuation τ sig (Elt F)) (b : Ref sig .tc) (hb : b ∈ argRefs) :
    StableHlo.after (hostOps1 : List (HloOp τ sig (Elt F))) U (Proc.devRef .tc b) = U (Proc.devRef .tc b) :=
  keeps_hostOps1_of_not_written U b (args_not_written b hb).2.2.2.1

theorem keeps_hostOps2 (U : Valuation τ sig (Elt F)) (b : Ref sig .tc) (hb : b ∈ argRefs) :
    StableHlo.after (hostOps2 : List (HloOp τ sig (Elt F))) U (Proc.devRef .tc b) = U (Proc.devRef .tc b) :=
  keeps_hostOps2_of_not_written U b (args_not_written b hb).2.2.2.2

/-- The argument buffers of @main by number. -/
abbrev argRef : Fin 11 → Ref sig .tc :=
  ![main_arg0, main_arg1, main_arg2, main_arg3, main_arg4, main_arg5, main_arg6, main_arg7, main_arg8, main_arg9, main_arg10]

theorem argRef_mem : ∀ K : Fin 11, argRef K ∈ argRefs := by decide

theorem keeps_hostOps0_argRef (U : Valuation τ sig (Elt F)) (K : Fin 11) :
    StableHlo.after (hostOps0 : List (HloOp τ sig (Elt F))) U (Proc.devRef .tc (argRef K)) = U (Proc.devRef .tc (argRef K)) :=
  keeps_hostOps0 U _ (argRef_mem K)

theorem keeps_hostOps0_1_argRef (U : Valuation τ sig (Elt F)) (K : Fin 11) :
    StableHlo.after (hostOps0_1 : List (HloOp τ sig (Elt F))) U (Proc.devRef .tc (argRef K)) = U (Proc.devRef .tc (argRef K)) :=
  keeps_hostOps0_1 U _ (argRef_mem K)

theorem keeps_hostOps0_2_argRef (U : Valuation τ sig (Elt F)) (K : Fin 11) :
    StableHlo.after (hostOps0_2 : List (HloOp τ sig (Elt F))) U (Proc.devRef .tc (argRef K)) = U (Proc.devRef .tc (argRef K)) :=
  keeps_hostOps0_2 U _ (argRef_mem K)

theorem keeps_hostOps1_argRef (U : Valuation τ sig (Elt F)) (K : Fin 11) :
    StableHlo.after (hostOps1 : List (HloOp τ sig (Elt F))) U (Proc.devRef .tc (argRef K)) = U (Proc.devRef .tc (argRef K)) :=
  keeps_hostOps1 U _ (argRef_mem K)

theorem keeps_hostOps2_argRef (U : Valuation τ sig (Elt F)) (K : Fin 11) :
    StableHlo.after (hostOps2 : List (HloOp τ sig (Elt F))) U (Proc.devRef .tc (argRef K)) = U (Proc.devRef .tc (argRef K)) :=
  keeps_hostOps2 U _ (argRef_mem K)

end Cert.KernelIdeal.Hand

end
-- ==== Proof.Run.lean ====
/-
  The run of @main from the launch to the return, over the three regions and the host stretches between them.
  The buffer contents at every boundary are a fold from the launch memory: a host stretch applies its operations,
  a region leaves its arrays at what its write-backs fold to and every other buffer as it found it. Stated over
  ANY proof data of the three pipelines meeting the interface below (arrays read off the entry contents, full
  shares, nothing owed, the body obligation, the invariant entered from and returned to the scoped rest and the
  generator register), so that this module is independent of what each kernel body computes.
-/
import proofs.«145947_j31421980738206_1_alg».proof.Proof.Gen.KernelIdeal.Launch
import proofs.«145947_j31421980738206_1_alg».proof.Proof.Gen.KernelIdeal.Skeleton
import proofs.«145947_j31421980738206_1_alg».proof.Proof.Gen.KernelIdeal.Points
import proofs.«145947_j31421980738206_1_alg».proof.Proof.HostKeeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents at a boundary, read at its references. -/
abbrev VT (F : FTy → Type) [FloatOps F] := (c : Dev nD) → (b : Ref sig .tc) → Buf (Elt F) ((c : Thread nD τ).loc b)

/-- What the run needs of the three pipelines' proof data, each stated at ANY entry contents `V`: the arrays read off
    `V`, full shares, nothing owed, the default bound on recorded waits, the body obligation, and the invariant entered
    from and returned to the scoped rest with the generator register. -/
structure Iface (F : FTy → Type) [FloatOps F] where
  dat0 : VT F → (c : Dev nD) → Dat τ (Elt F) Unit ℕ (UR sig nD τ) ℕ cfg0 c
  dat1 : VT F → (c : Dev nD) → Dat τ (Elt F) Unit ℕ (UR sig nD τ) ℕ cfg1 c
  dat2 : VT F → (c : Dev nD) → Dat τ (Elt F) Unit ℕ (UR sig nD τ) ℕ cfg2 c
  hA0 : ∀ (V : VT F) (c : Dev nD) (w : Fin cfg0.W), (dat0 V c).A w = V c (Pipeline.arrRef spec0 w)
  hA1 : ∀ (V : VT F) (c : Dev nD) (w : Fin cfg1.W), (dat1 V c).A w = V c (Pipeline.arrRef spec1 w)
  hA2 : ∀ (V : VT F) (c : Dev nD) (w : Fin cfg2.W), (dat2 V c).A w = V c (Pipeline.arrRef spec2 w)
  hq0 : ∀ (V : VT F) (c : Dev nD) (w : Fin cfg0.W), (dat0 V c).q w = fullShare
  hq1 : ∀ (V : VT F) (c : Dev nD) (w : Fin cfg1.W), (dat1 V c).q w = fullShare
  hq2 : ∀ (V : VT F) (c : Dev nD) (w : Fin cfg2.W), (dat2 V c).q w = fullShare
  howed0 : ∀ (V : VT F) (c : Dev nD) t, (dat0 V c).owed t = 0
  howed1 : ∀ (V : VT F) (c : Dev nD) t, (dat1 V c).owed t = 0
  howed2 : ∀ (V : VT F) (c : Dev nD) t, (dat2 V c).owed t = 0
  hrec0 : ∀ (V : VT F) (c : Dev nD) t, (dat0 V c).recorded t = Set.univ
  hrec1 : ∀ (V : VT F) (c : Dev nD) t, (dat1 V c).recorded t = Set.univ
  hrec2 : ∀ (V : VT F) (c : Dev nD) t, (dat2 V c).recorded t = Set.univ
  hbody0 : ∀ (V : VT F) (c : Dev nD), BodyObligation (dat0 V c) (defs₀ (F := F)) Variants.none () Set.univ
  hbody1 : ∀ (V : VT F) (c : Dev nD), BodyObligation (dat1 V c) (defs₀ (F := F)) Variants.none () Set.univ
  hbody2 : ∀ (V : VT F) (c : Dev nD), BodyObligation (dat2 V c) (defs₀ (F := F)) Variants.none () Set.univ
  hin0 : ∀ (V : VT F) (c : Dev nD), (Pipeline.ΦA spec0 c : sProp (MT nD τ sig Unit (Elt F) ℕ (UR sig nD τ) ℕ)) ⊢ (dat0 V c).Φ 0
  hin1 : ∀ (V : VT F) (c : Dev nD), (Pipeline.ΦA spec1 c : sProp (MT nD τ sig Unit (Elt F) ℕ (UR sig nD τ) ℕ)) ⊢ (dat1 V c).Φ 0
  hin2 : ∀ (V : VT F) (c : Dev nD), (Pipeline.ΦA spec2 c : sProp (MT nD τ sig Unit (Elt F) ℕ (UR sig nD τ) ℕ)) ⊢ (dat2 V c).Φ 0
  hout0 : ∀ (V : VT F) (c : Dev nD), (dat0 V c).Φ (Fin.last cfg0.N) ⊢ (Pipeline.ΦA spec0 c : sProp (MT nD τ sig Unit (Elt F) ℕ (UR sig nD τ) ℕ))
  hout1 : ∀ (V : VT F) (c : Dev nD), (dat1 V c).Φ (Fin.last cfg1.N) ⊢ (Pipeline.ΦA spec1 c : sProp (MT nD τ sig Unit (Elt F) ℕ (UR sig nD τ) ℕ))
  hout2 : ∀ (V : VT F) (c : Dev nD), (dat2 V c).Φ (Fin.last cfg2.N) ⊢ (Pipeline.ΦA spec2 c : sProp (MT nD τ sig Unit (Elt F) ℕ (UR sig nD τ) ℕ))

section Run

variable (H : Iface F) (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape of tau. -/
abbrev Wa : Dev nD → Valuation τ sig (Elt F) := fun c => StableHlo.after hostOps0 (W0 m ρ c)
/-- After softplus. -/
abbrev Wb : Dev nD → Valuation τ sig (Elt F) := fun c => StableHlo.after hostOps0_1 (Wa m ρ c)
/-- After the scale vector: region 0's entry. -/
abbrev W1 : Dev nD → Valuation τ sig (Elt F) := fun c => StableHlo.after hostOps0_2 (Wb m ρ c)
abbrev V1 : VT F := fun c b => W1 m ρ c b
/-- At region 0's exit. -/
def W2 (c : Dev nD) : Valuation τ sig (Elt F) :=
  Pipeline.withArrays spec0 c (W1 m ρ c) fun w => (H.dat0 (V1 m ρ) c).arrAt w cfg0.N
abbrev V2 : VT F := fun c b => W2 H m ρ c b
/-- After the scaling of the coefficients: region 1's entry. -/
abbrev W3 : Dev nD → Valuation τ sig (Elt F) := fun c => StableHlo.after hostOps1 (W2 H m ρ c)
abbrev V3 : VT F := fun c b => W3 H m ρ c b
/-- At region 1's exit. -/
def W4 (c : Dev nD) : Valuation τ sig (Elt F) :=
  Pipeline.withArrays spec1 c (W3 H m ρ c) fun w => (H.dat1 (V3 H m ρ) c).arrAt w cfg1.N
abbrev V4 : VT F := fun c b => W4 H m ρ c b
/-- After the message passing: region 2's entry. -/
abbrev W5 : Dev nD → Valuation τ sig (Elt F) := fun c => StableHlo.after hostOps2 (W4 H m ρ c)
abbrev V5 : VT F := fun c b => W5 H m ρ c b
/-- At region 2's exit: the return. -/
def W6 (c : Dev nD) : Valuation τ sig (Elt F) :=
  Pipeline.withArrays spec2 c (W5 H m ρ c) fun w => (H.dat2 (V5 H m ρ) c).arrAt w cfg2.N
abbrev V6 : VT F := fun c b => W6 H m ρ c b

theorem W2_arr (c : Dev nD) (w : Fin cfg0.W) :
    W2 H m ρ c (Proc.devRef .tc (Pipeline.arrRef spec0 w)) = (H.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H m ρ c (Proc.devRef .tc b) = W1 m ρ c (Proc.devRef .tc b) := by
  unfold W2; exact Pipeline.withArrays_of_ne spec0 c _ _ b hb
theorem W4_arr (c : Dev nD) (w : Fin cfg1.W) :
    W4 H m ρ c (Proc.devRef .tc (Pipeline.arrRef spec1 w)) = (H.dat1 (V3 H m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H m ρ c (Proc.devRef .tc b) = W3 H m ρ c (Proc.devRef .tc b) := by
  unfold W4; exact Pipeline.withArrays_of_ne spec1 c _ _ b hb
theorem W6_arr (c : Dev nD) (w : Fin cfg2.W) :
    W6 H m ρ c (Proc.devRef .tc (Pipeline.arrRef spec2 w)) = (H.dat2 (V5 H m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 H m ρ c (Proc.devRef .tc b) = W5 H m ρ c (Proc.devRef .tc b) := by
  unfold W6; exact Pipeline.withArrays_of_ne spec2 c _ _ b hb

theorem hF0 (c : Dev nD) (w : Fin cfg0.W) : (H.dat0 (V1 m ρ) c).arrAt w cfg0.N = V2 H m ρ c (Pipeline.arrRef spec0 w) :=
  (W2_arr H m ρ c w).symm
theorem hrest0 (c : Dev nD) : ∀ b, b ∉ Finset.univ.image (Pipeline.arrRef spec0) → V2 H m ρ c b = V1 m ρ c b :=
  fun b hb => W2_of_ne H m ρ c b fun w e => hb (Finset.mem_image.mpr ⟨w, Finset.mem_univ _, e⟩)
theorem hF1 (c : Dev nD) (w : Fin cfg1.W) : (H.dat1 (V3 H m ρ) c).arrAt w cfg1.N = V4 H m ρ c (Pipeline.arrRef spec1 w) :=
  (W4_arr H m ρ c w).symm
theorem hrest1 (c : Dev nD) : ∀ b, b ∉ Finset.univ.image (Pipeline.arrRef spec1) → V4 H m ρ c b = V3 H m ρ c b :=
  fun b hb => W4_of_ne H m ρ c b fun w e => hb (Finset.mem_image.mpr ⟨w, Finset.mem_univ _, e⟩)
theorem hF2 (c : Dev nD) (w : Fin cfg2.W) : (H.dat2 (V5 H m ρ) c).arrAt w cfg2.N = V6 H m ρ c (Pipeline.arrRef spec2 w) :=
  (W6_arr H m ρ c w).symm
theorem hrest2 (c : Dev nD) : ∀ b, b ∉ Finset.univ.image (Pipeline.arrRef spec2) → V6 H m ρ c b = V5 H m ρ c b :=
  fun b hb => W6_of_ne H m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents (a literal match on the pipeline's index). -/
def pdats : (p : Fin 3) → (c : Dev nD) → Dat τ (Elt F) Unit ℕ (UR sig nD τ) ℕ (Pipeline.pin (pcfgs (F := F)) adm p) c
  | ⟨0, _⟩ => fun c => H.dat0 (V1 m ρ) c
  | ⟨1, _⟩ => fun c => H.dat1 (V3 H m ρ) c
  | ⟨2, _⟩ => fun c => H.dat2 (V5 H m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 H m ρ c) ∗ ∃ r, prngReg c r)

/-! ## The regions as segments -/

set_option backward.isDefEq.respectTransparency.types false in
/-- Region 0 as a segment: entered with every unscoped buffer at the contents before it, left with the region's
    arrays at what its write-backs leave and every other buffer as entered; the generator register passes through
    the region's invariant; nothing is owed; the kernel has no semaphore of its own. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.hbody0 (V1 m ρ) c).loose
  hwaits := Pipeline.hwaits_of_owed_zero _ _ _ _ L lv 0 fun c t => H.howed0 (V1 m ρ) c t
  pre c := iprop(StableHlo.held (c : Thread nD τ) (Pipeline.ucRefs τ sig) (W1 m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.hq0 (V1 m ρ) c w) (V1 m ρ c) fun w => H.hA0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 0 c).owed 0 = 0 from H.howed0 (V1 m ρ) c 0]
      icases HO with ⟨%W, HO⟩; iexists W; isplitr
      · ipureintro
        exact fun x _ => Or.inl (show x ∈ (pdats H m ρ 0 c).recorded 0 from by
          rw [show (pdats H m ρ 0 c).recorded 0 = Set.univ from H.hrec0 (V1 m ρ) c 0]; trivial)
      iexact HO
    isplitl [Hp]; · iexact Hp
    iexact Hrest
  hin c := by
    refine BIBase.Entails.trans ?_ (H.hin0 (V1 m ρ) c)
    unfold Pipeline.ΦA
    iintro ⟨Hp, -, Hr⟩
    isplitl [Hr]; · iexact Hr
    iexact Hp
  hout c := by
    rw [Pipeline.ownSems0_none]
    refine BIBase.Entails.trans (H.hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.hq0 (V1 m ρ) c w)
      (V1 m ρ c) (V2 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 0 c).owed (Fin.last _) = 0 from H.howed0 (V1 m ρ) c _]
    icases HO with ⟨%W, -, HO⟩; iexists W; iexact HO

set_option backward.isDefEq.respectTransparency.types false in
/-- Region 1 as a segment: entered with every unscoped buffer at the contents before it, left with the region's
    arrays at what its write-backs leave and every other buffer as entered; the generator register passes through
    the region's invariant; nothing is owed; the kernel has no semaphore of its own. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.hbody1 (V3 H m ρ) c).loose
  hwaits := Pipeline.hwaits_of_owed_zero _ _ _ _ L lv 1 fun c t => H.howed1 (V3 H m ρ) c t
  pre c := iprop(StableHlo.held (c : Thread nD τ) (Pipeline.ucRefs τ sig) (W3 H m ρ c) ∗ R c)
  post c := iprop(StableHlo.held (c : Thread nD τ) (Pipeline.ucRefs τ sig) (W4 H m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.hq1 (V3 H m ρ) c w) (V3 H m ρ c) fun w => H.hA1 (V3 H m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 1 c).owed 0 = 0 from H.howed1 (V3 H m ρ) c 0]
      icases HO with ⟨%W, HO⟩; iexists W; isplitr
      · ipureintro
        exact fun x _ => Or.inl (show x ∈ (pdats H m ρ 1 c).recorded 0 from by
          rw [show (pdats H m ρ 1 c).recorded 0 = Set.univ from H.hrec1 (V3 H m ρ) c 0]; trivial)
      iexact HO
    isplitl [Hp]; · iexact Hp
    iexact Hrest
  hin c := by
    refine BIBase.Entails.trans ?_ (H.hin1 (V3 H m ρ) c)
    unfold Pipeline.ΦA
    iintro ⟨Hp, -, Hr⟩
    isplitl [Hr]; · iexact Hr
    iexact Hp
  hout c := by
    rw [Pipeline.ownSems0_none]
    refine BIBase.Entails.trans (H.hout1 (V3 H m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.hq1 (V3 H m ρ) c w)
      (V3 H m ρ c) (V4 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 1 c).owed (Fin.last _) = 0 from H.howed1 (V3 H m ρ) c _]
    icases HO with ⟨%W, -, HO⟩; iexists W; iexact HO

set_option backward.isDefEq.respectTransparency.types false in
/-- Region 2 as a segment: entered with every unscoped buffer at the contents before it, left with the region's
    arrays at what its write-backs leave and every other buffer as entered; the generator register passes through
    the region's invariant; nothing is owed; the kernel has no semaphore of its own. -/
def reg2 : Pipeline.RegionSeg (pcfgs (F := F)) adm (pdats H m ρ) () defs₀ 𝒱₀ L lv 2 where
  win := launch2.win.to₀
  block_pos := launch2.block_pos
  stage_whole := launch2.stage_whole
  K := PEmpty
  osem k := k.elim
  ho := Pipeline.OwnSemFacts.none _
  hbody c := (H.hbody2 (V5 H m ρ) c).loose
  hwaits := Pipeline.hwaits_of_owed_zero _ _ _ _ L lv 2 fun c t => H.howed2 (V5 H m ρ) c t
  pre c := iprop(StableHlo.held (c : Thread nD τ) (Pipeline.ucRefs τ sig) (W5 H m ρ c) ∗ R c)
  post c := iprop(Tₙ H m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 H m ρ c)
  hentry c := by
    rw [Pipeline.ownSems0_none]
    have hsplit := Pipeline.arrays_of_unscopedBufs (p := 2) (pcfgs (F := F)) adm (pdats H m ρ) launch2.win launch2.arr_whole c
      ((pdats H m ρ 2 c).share_full fun w => H.hq2 (V5 H m ρ) c w) (V5 H m ρ c) fun w => H.hA2 (V5 H m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 2 c).owed 0 = 0 from H.howed2 (V5 H m ρ) c 0]
      icases HO with ⟨%W, HO⟩; iexists W; isplitr
      · ipureintro
        exact fun x _ => Or.inl (show x ∈ (pdats H m ρ 2 c).recorded 0 from by
          rw [show (pdats H m ρ 2 c).recorded 0 = Set.univ from H.hrec2 (V5 H m ρ) c 0]; trivial)
      iexact HO
    isplitl [Hp]; · iexact Hp
    iexact Hrest
  hin c := by
    refine BIBase.Entails.trans ?_ (H.hin2 (V5 H m ρ) c)
    unfold Pipeline.ΦA
    iintro ⟨Hp, -, Hr⟩
    isplitl [Hr]; · iexact Hr
    iexact Hp
  hout c := by
    rw [Pipeline.ownSems0_none]
    refine BIBase.Entails.trans (H.hout2 (V5 H m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H m ρ) ((pdats H m ρ 2 c).share_full fun w => H.hq2 (V5 H m ρ) c w)
      (V5 H m ρ c) (V6 H m ρ c) ((pdats H m ρ 2 c).arrAt · cfg2.N) (hF2 H m ρ c) (hrest2 H m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats H m ρ 2 c).owed (Fin.last _) = 0 from H.howed2 (V5 H m ρ) c _]
    icases HO with ⟨%W, -, HO⟩; iexists W; iexact HO

/-! ## The arguments end as launched -/

/-- Region 0 reads the node features and the eigenvectors through input windows and writes neither. -/
theorem kept0 (c : Dev nD) (K : Fin 11) :
    W2 H m ρ c (Proc.devRef .tc (argRef K)) = W1 m ρ c (Proc.devRef .tc (argRef K)) := by
  fin_cases K
  · exact (W2_arr H m ρ c 1).trans (((H.dat0 (V1 m ρ) c).arrAt_in 1 rfl _).trans (H.hA0 (V1 m ρ) c 1))
  · exact W2_of_ne H m ρ c main_arg1 (by decide)
  · exact (W2_arr H m ρ c 0).trans (((H.dat0 (V1 m ρ) c).arrAt_in 0 rfl _).trans (H.hA0 (V1 m ρ) c 0))
  · exact W2_of_ne H m ρ c main_arg3 (by decide)
  · exact W2_of_ne H m ρ c main_arg4 (by decide)
  · exact W2_of_ne H m ρ c main_arg5 (by decide)
  · exact W2_of_ne H m ρ c main_arg6 (by decide)
  · exact W2_of_ne H m ρ c main_arg7 (by decide)
  · exact W2_of_ne H m ρ c main_arg8 (by decide)
  · exact W2_of_ne H m ρ c main_arg9 (by decide)
  · exact W2_of_ne H m ρ c main_arg10 (by decide)

/-- Region 1 reads the eigenvectors through an input window and writes no argument. -/
theorem kept1 (c : Dev nD) (K : Fin 11) :
    W4 H m ρ c (Proc.devRef .tc (argRef K)) = W3 H m ρ c (Proc.devRef .tc (argRef K)) := by
  fin_cases K
  · exact W4_of_ne H m ρ c main_arg0 (by decide)
  · exact W4_of_ne H m ρ c main_arg1 (by decide)
  · exact (W4_arr H m ρ c 0).trans (((H.dat1 (V3 H m ρ) c).arrAt_in 0 rfl _).trans (H.hA1 (V3 H m ρ) c 0))
  · exact W4_of_ne H m ρ c main_arg3 (by decide)
  · exact W4_of_ne H m ρ c main_arg4 (by decide)
  · exact W4_of_ne H m ρ c main_arg5 (by decide)
  · exact W4_of_ne H m ρ c main_arg6 (by decide)
  · exact W4_of_ne H m ρ c main_arg7 (by decide)
  · exact W4_of_ne H m ρ c main_arg8 (by decide)
  · exact W4_of_ne H m ρ c main_arg9 (by decide)
  · exact W4_of_ne H m ρ c main_arg10 (by decide)

/-- Region 2 reads the two weight matrices through input windows and writes no argument. -/
theorem kept2 (c : Dev nD) (K : Fin 11) :
    W6 H m ρ c (Proc.devRef .tc (argRef K)) = W5 H m ρ c (Proc.devRef .tc (argRef K)) := by
  fin_cases K
  · exact W6_of_ne H m ρ c main_arg0 (by decide)
  · exact W6_of_ne H m ρ c main_arg1 (by decide)
  · exact W6_of_ne H m ρ c main_arg2 (by decide)
  · exact W6_of_ne H m ρ c main_arg3 (by decide)
  · exact W6_of_ne H m ρ c main_arg4 (by decide)
  · exact (W6_arr H m ρ c 1).trans (((H.dat2 (V5 H m ρ) c).arrAt_in 1 rfl _).trans (H.hA2 (V5 H m ρ) c 1))
  · exact W6_of_ne H m ρ c main_arg6 (by decide)
  · exact (W6_arr H m ρ c 3).trans (((H.dat2 (V5 H m ρ) c).arrAt_in 3 rfl _).trans (H.hA2 (V5 H m ρ) c 3))
  · exact W6_of_ne H m ρ c main_arg8 (by decide)
  · exact W6_of_ne H m ρ c main_arg9 (by decide)
  · exact W6_of_ne H m ρ c main_arg10 (by decide)

/-- No host operation and no region writes an argument: the fold at an argument's buffer walks back to the launch
    memory. -/
theorem W6_arg (c : Dev nD) (K : Fin 11) :
    W6 H m ρ c (Proc.devRef .tc (argRef K)) = m ((c : Thread nD τ).loc (argRef K)) :=
  calc W6 H m ρ c (Proc.devRef .tc (argRef K))
    _ = W5 H m ρ c (Proc.devRef .tc (argRef K)) := kept2 H m ρ c K
    _ = W4 H m ρ c (Proc.devRef .tc (argRef K)) := keeps_hostOps2_argRef _ K
    _ = W3 H m ρ c (Proc.devRef .tc (argRef K)) := kept1 H m ρ c K
    _ = W2 H m ρ c (Proc.devRef .tc (argRef K)) := keeps_hostOps1_argRef _ K
    _ = W1 m ρ c (Proc.devRef .tc (argRef K)) := kept0 H m ρ c K
    _ = Wb m ρ c (Proc.devRef .tc (argRef K)) := keeps_hostOps0_2_argRef _ K
    _ = Wa m ρ c (Proc.devRef .tc (argRef K)) := keeps_hostOps0_1_argRef _ K
    _ = W0 m ρ c (Proc.devRef .tc (argRef K)) := keeps_hostOps0_argRef _ K
    _ = m ((c : Thread nD τ).loc (argRef K)) := rfl

/-- The arguments at region 0's entry are the launch's. -/
theorem W1_arg (c : Dev nD) (K : Fin 11) :
    W1 m ρ c (Proc.devRef .tc (argRef K)) = m ((c : Thread nD τ).loc (argRef K)) :=
  calc W1 m ρ c (Proc.devRef .tc (argRef K))
    _ = Wb m ρ c (Proc.devRef .tc (argRef K)) := keeps_hostOps0_2_argRef _ K
    _ = Wa m ρ c (Proc.devRef .tc (argRef K)) := keeps_hostOps0_1_argRef _ K
    _ = W0 m ρ c (Proc.devRef .tc (argRef K)) := keeps_hostOps0_argRef _ K
    _ = m ((c : Thread nD τ).loc (argRef K)) := rfl

/-- The arguments at region 1's entry are the launch's. -/
theorem W3_arg (c : Dev nD) (K : Fin 11) :
    W3 H m ρ c (Proc.devRef .tc (argRef K)) = m ((c : Thread nD τ).loc (argRef K)) :=
  calc W3 H m ρ c (Proc.devRef .tc (argRef K))
    _ = W2 H m ρ c (Proc.devRef .tc (argRef K)) := keeps_hostOps1_argRef _ K
    _ = W1 m ρ c (Proc.devRef .tc (argRef K)) := kept0 H m ρ c K
    _ = m ((c : Thread nD τ).loc (argRef K)) := W1_arg m ρ c K

/-- The arguments at region 2's entry are the launch's. -/
theorem W5_arg (c : Dev nD) (K : Fin 11) :
    W5 H m ρ c (Proc.devRef .tc (argRef K)) = m ((c : Thread nD τ).loc (argRef K)) :=
  calc W5 H m ρ c (Proc.devRef .tc (argRef K))
    _ = W4 H m ρ c (Proc.devRef .tc (argRef K)) := keeps_hostOps2_argRef _ K
    _ = W3 H m ρ c (Proc.devRef .tc (argRef K)) := kept1 H m ρ c K
    _ = m ((c : Thread nD τ).loc (argRef K)) := W3_arg H m ρ c K

/-! ## @main as segments, and the launch -/

/-- @main's eight segments in order: a host segment per stretch from its boundary's contents, a region per
    pallas_call. -/
abbrev segs : List (Pipeline.Seg (pcfgs (F := F)) adm (pdats H m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 H m ρ),
    .host (hseg hostOps1 hostOps1_sub hostOps1_fresh (W2 H m ρ)),
    .region (reg1 H m ρ),
    .host (hseg hostOps2 hostOps2_sub hostOps2_fresh (W4 H m ρ)),
    .region (reg2 H m ρ) ]

/-- @main is the run of the segments. -/
theorem main_run (c : Dev nD) : main (F := F) c = Pipeline.Seg.run
    (segs H m ρ) :=
  (main_chain c).trans (by chain_rfl)

set_option backward.isDefEq.respectTransparency.types false in
/-- At the compiled mesh, from any memory with zero counters, every weakly fair execution of @main on the TensorCores
    terminates, nothing faulting; the result buffer ends at the last boundary's contents and every argument array as
    launched. -/
theorem run_all : θ_run defs (onTc (τ := τ) (main (F := F))) ⟨m, fun _ => 0, ρ⟩ (fun r => ∀ c : Dev nD,
      r.2.mem ((c.tc : Thread nD τ).loc main_v92) = W6 H m ρ c (Proc.devRef .tc main_v92)
      ∧ ∀ K : Fin 11, r.2.mem ((c.tc : Thread nD τ).loc (argRef K)) = m ((c.tc : Thread nD τ).loc (argRef K))) :=
  Pipeline.θ_run_regions_kit (pcfgs (F := F)) adm (pdats H m ρ) () cellOf_inj emb₁ defs₀ 𝒱₀ L lv m ρ main
    (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 H m ρ c) s')
      isplitl [Hh] <;> iassumption)
    (hQ := fun s h c =>
      ⟨h c _ (mem_uc main_v92 (by decide)),
       fun K => (h c _ (mem_uc (argRef K) (by revert K; decide))).trans
         (W6_arg H m ρ c K)⟩)

include H in
/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 0, (h c).2 1, (h c).2 2, (h c).2 3, (h c).2 4, (h c).2 5, (h c).2 6,
    (h c).2 7, (h c).2 8, (h c).2 9, (h c).2 10⟩) (run_all H m ρ)

end Run

end Cert.KernelIdeal.Hand

end
-- ==== Proof.Region0.lean ====
/-
  Region 0 of @main: the spectral reduction, a grid of ten points over the row tiles of the eigenvector
  array and of the signal. The body keeps a running [128,32] accumulator in a scratch buffer that lives
  across the grid: at the first point the accumulator is reset to the zero block, at every point the
  product (tile of eigenvectors)ᵀ · (tile of the signal) is added to it, and the accumulator is copied into
  the output window's one staging buffer, which is written back after the last point. This module states
  that body at a parameter `V` (the TensorCore's buffer contents when the region is entered): the two
  control cases of the body as separation-logic triples, the running accumulator `acc0` by recursion on
  the point, the region's invariant (the scratch holds `acc0` of the point before), and the body
  obligation of the pipeline rule. Everything is generic in the float instance.
-/
import proofs.«145947_j31421980738206_1_alg».proof.Proof.Gen.KernelIdeal.Launch
import proofs.«145947_j31421980738206_1_alg».proof.Proof.Gen.KernelIdeal.Skeleton
import proofs.«145947_j31421980738206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's conditional -/

/-- The condition of the body's conditional (reset the accumulator), from the grid coordinate: the chain of
    scalar comparisons the body computes from the coordinate. -/
abbrev cond0 (i : grid0.Coords) : Prop :=
  (Scalar.cmpi .ne (Scalar.extui (Scalar.cmpi .eq (BitVec.ofNat 32 (i 0).val) 0#32)) 0#32) = 1#1

/-- It holds at the first point and at no other: decided over the ten points. -/
theorem hcond0 : ∀ t : Fin cfg0.N, cond0 (grid0.coords t) ↔ t.val = 0 :=
  (by decide +kernel : ∀ t : Fin grid0.N, cond0 (grid0.coords t) ↔ t.val = 0)

/-! ## The whole-buffer rectangle -/

/-- The offsets of every access of the body: zero on both axes. -/
theorem zero_off : (![0, 0] : Fin 2 → Nat) = fun _ => 0 := funext fun a => by fin_cases a <;> rfl

/-- One store through the whole [128,32] rectangle covers the buffer. -/
theorem cover_whole (p : Vec F S128x32 .f32) (L : List (View.Piece (Elt F) S128x32 .f32)) (y : S128x32.Idx) :
    ∃ pc ∈ ((⟨Rect.unit (s := S128x32) ![0, 0] S128x32.size inb_S128x32_S128x32_0_0, p⟩ : View.Piece (Elt F) S128x32 .f32) :: L),
      y ∈ pc.1.set :=
  ⟨_, List.mem_cons_self, View.mem_set_unit_zero zero_off inb_S128x32_S128x32_0_0 y⟩

/-! ## The body's two triples -/

set_option maxHeartbeats 1000000 in
/-- A LATER POINT (the conditional not taken). On whole memrefs — the two input tiles at `x0`, `x1`, the output's
    staging buffer at anything, the scratch at `s` — the body runs to the continuation holding the inputs as they
    were and both the scratch and the output's buffer at `k0_pay2 x0 x1 s`: the accumulator plus the tiles' product. -/
theorem sound_kernel0_B (c : Dev nD) (E : Set ℕ) (i : grid0.Coords)
    (arg1 : Memref sig .tc .vmem S10000x128 .f32) (harg1 : arg1.IsWhole)
    (arg2 : Memref sig .tc .vmem S10000x32 .f32) (harg2 : arg2.IsWhole)
    (arg3 : Memref sig .tc .vmem S128x32 .f32) (harg3 : arg3.IsWhole)
    (arg4 : Memref sig .tc .vmem S128x32 .f32) (harg4 : arg4.IsWhole)
    (hc : ¬cond0 i)
    (x0 : Vec F S10000x128 .f32) (x1 : Vec F S10000x32 .f32) (s : Vec F S128x32 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k0_pay2 x0 x1 s) ∗ owns (c : Thread nD τ) arg4 fullShare (k0_pay2 x0 x1 s)) -∗ K ⟨⟩))
      ⊢ wp frame (wpE (defs₀ (F := F)) Variants.none c none) E (cc0__spectral_reduce_kernel i arg1 harg1 arg2 harg2 arg3 harg3 arg4 harg4) K := by
  simp only [cc0__spectral_reduce_kernel_eq_skeleton]; unfold cc0__spectral_reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _ []), View.canon_unit_zero zero_off]
    sl_unfold_words
    rw [View.readCov_unit_zero (S := S128x32) _ zero_off]
    simp only [View.readAt_eq_ld, View.ld_unit_zero (S := S10000x128) zero_off, View.ld_unit_zero (S := S10000x32) zero_off,
      View.ld_unit_zero (S := S128x32) zero_off]
  · iexists _; isplitr
    swap; · iexact H3
    ipureintro
    sl_unfold_words
    rw [View.read_writes_eq_canon _ _ _ (cover_whole _ []), View.canon_unit_zero zero_off]
    simp only [View.readAt_eq_ld, View.ld_unit_zero (S := S10000x128) zero_off, View.ld_unit_zero (S := S10000x32) zero_off,
      View.ld_unit_zero (S := S128x32) zero_off]

set_option maxHeartbeats 1000000 in
/-- THE FIRST POINT (the conditional taken). The scratch may hold anything: the body first stores the zero block
    `k0_pay1` into it, and then runs as at a later point from that accumulator. -/
theorem sound_kernel0_A (c : Dev nD) (E : Set ℕ) (i : grid0.Coords)
    (arg1 : Memref sig .tc .vmem S10000x128 .f32) (harg1 : arg1.IsWhole)
    (arg2 : Memref sig .tc .vmem S10000x32 .f32) (harg2 : arg2.IsWhole)
    (arg3 : Memref sig .tc .vmem S128x32 .f32) (harg3 : arg3.IsWhole)
    (arg4 : Memref sig .tc .vmem S128x32 .f32) (harg4 : arg4.IsWhole)
    (hc : cond0 i)
    (x0 : Vec F S10000x128 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay2 x0 x1 (k0_pay1 (F := F)))
            ∗ owns (c : Thread nD τ) arg4 fullShare (k0_pay2 x0 x1 (k0_pay1 (F := F)))) -∗ K ⟨⟩))
      ⊢ wp frame (wpE (defs₀ (F := F)) Variants.none c none) E (cc0__spectral_reduce_kernel i arg1 harg1 arg2 harg2 arg3 harg3 arg4 harg4) K := by
  simp only [cc0__spectral_reduce_kernel_eq_skeleton]; unfold cc0__spectral_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _ []), View.canon_unit_zero zero_off]
    sl_unfold_words
    rw [View.readCov_eq_canon_ld _ _ _ (cover_whole _ _), View.canon_cons_unit_zero (S := S128x32) zero_off,
      View.ld_unit_zero (S := S128x32) zero_off, View.readCov_unit_zero (S := S128x32) _ zero_off]
    simp only [View.readAt_eq_ld, View.ld_unit_zero (S := S10000x128) zero_off, View.ld_unit_zero (S := S10000x32) zero_off]
  · iexists _; isplitr
    swap; · iexact H3
    ipureintro
    sl_unfold_words
    rw [View.read_writes_eq_canon _ _ _ (cover_whole _ _), View.canon_cons_unit_zero (S := S128x32) zero_off,
      View.readCov_unit_zero (S := S128x32) _ zero_off]
    simp only [View.readAt_eq_ld, View.ld_unit_zero (S := S10000x128) zero_off, View.ld_unit_zero (S := S10000x32) zero_off]

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eigenvector window's current staging buffer holds its row tile at every point, for any proof data whose
    array is `V`'s and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the signal's window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running accumulator -/

/-- THE ACCUMULATION. What the scratch (and the output window's staging buffer) holds after the body at point `n`:
    at the first point the zero block plus the first tiles' product, afterwards what the point before left plus this
    point's tiles' product — the body's payload `k0_pay2` over the two tiles and the accumulator it finds. -/
def acc0 (c : Dev nD) : (n : ℕ) → n < cfg0.N → Vec F S128x32 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (acc0 c n (Nat.lt_of_succ_lt hn))

/-- `acc0` at the first point. -/
theorem acc0_first (c : Dev nD) (t : Fin cfg0.N) (h : t.val = 0) :
    acc0 V c t.val t.isLt = k0_pay2 (iblk0 V c 0 t) (iblk0 V c 1 t) (k0_pay1 (F := F)) := by
  obtain ⟨n, hn⟩ := t
  cases n with
  | zero => rfl
  | succ n => exact absurd h (Nat.succ_ne_zero n)

/-- `acc0` at a later point, over what the point before left. -/
theorem acc0_later (c : Dev nD) (t : Fin cfg0.N) (h : t.val ≠ 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd rfl h
  | succ n => rfl

/-! ## The region's invariant -/

/-- The scratch operand: a whole scoped buffer of the kernel's own, passed beside the windows. -/
abbrev scM0 : Memref sig .tc .vmem S128x32 .f32 := Memref.whole cc0_scratch0

/-- A scoped buffer of the core, whole, at some contents. -/
abbrev someAt (c : Dev nD) (b : Ref sig .tc) : sProp 𝕄 :=
  iprop(∃ f : Buf (Elt F) ((c : Thread nD τ).loc b), ((c : Thread nD τ).loc b) ↦{fullShare} f)

/-- The core's scoped buffers that are neither a staging buffer of this region nor its scratch — the staging
    buffers of the two later regions —, each at some contents: the body never touches them. -/
def rest0 (c : Dev nD) : sProp 𝕄 :=
  iprop(someAt (F := F) c cc1_stg0_0 ∗ someAt (F := F) c cc1_stg0_1 ∗ someAt (F := F) c cc1_stg1_0 ∗ someAt (F := F) c cc1_stg2_0
    ∗ someAt (F := F) c cc1_stg2_1 ∗ someAt (F := F) c cc2_stg0_0 ∗ someAt (F := F) c cc2_stg0_1 ∗ someAt (F := F) c cc2_stg1_0
    ∗ someAt (F := F) c cc2_stg2_0 ∗ someAt (F := F) c cc2_stg3_0 ∗ someAt (F := F) c cc2_stg4_0 ∗ someAt (F := F) c cc2_stg5_0
    ∗ someAt (F := F) c cc2_stg5_1)

/-- What the launch hands the region: the scratch at some contents, the other scoped buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; unfold rest0; simp only [scM0, owns_whole]; try rfl

/-- The invariant before position `n`: before the first point what the launch hands over; afterwards the same with
    the scratch at the running accumulator of the point before. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its tile and the output's at the running accumulator; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. At the first point the invariant hands the scratch at anything and the reset case applies;
    at a later point it hands the scratch at the accumulator the point before left and the accumulating case applies.
    Either way the scratch goes back into the invariant at this point's accumulator, which is also what the output's
    staging buffer holds. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases hz : t.val = 0
  · rw [PhiS0_castSucc V c t, PhiS0_zero V c _ _ hz, PhiA0_eq, acc0_first V c t hz]
    iintro ⟨⟨⟨HS, HR⟩, Hg⟩, Ho, ⟨%d0, H0⟩, ⟨%d1, H1⟩, ⟨%d2, H2⟩⟩
    iapply (sound_kernel0_A c Set.univ (grid0.coords t) _ _ _ _ _ _ _ _ ((hcond0 t).mpr hz) (iblk0 V c 0 t) (iblk0 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · rw [PhiS0_castSucc V c t, PhiS0_pos V c _ _ hz, acc0_later V c t hz]
    iintro ⟨⟨⟨HS, HR⟩, Hg⟩, Ho, ⟨%d0, H0⟩, ⟨%d1, H1⟩, ⟨%d2, H2⟩⟩
    iapply (sound_kernel0_B c Set.univ (grid0.coords t) _ _ _ _ _ _ _ _ (fun h => hz ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives that back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitr [Hg]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand
end
-- ==== Proof.Region1.lean ====
/- Region 1 of @main (the pallas_call of `cc1__spectral_broadcast_kernel`, pipeline 1, a grid of 10 points), at a
   PARAMETER `V`: the TensorCore's buffer contents when the region is entered.

   At grid point `t` the body reads two whole staging buffers — window 0's, a block of 10000 rows of the
   [100000,128] eigenvector array, and window 1's, the whole [128,32] coefficient array, whose block index never
   moves — and overwrites window 2's staging buffer, 10000 rows of the [100000,32] result, with ONE store of the
   whole block.  The stored value is the skeleton's payload `k1_pay1` of the two loads: the product of the row
   block with the coefficients, each row divided by the larger of its Euclidean norm and a literal.  So what the body
   leaves in the output buffer is a closed function `out1_2` of the two input blocks, whatever the buffer held
   before (the body also loads the output buffer before the store; the loaded value is never used).

   Everything here is generic in the float instance `F`. -/
import proofs.«145947_j31421980738206_1_alg».proof.Proof.Gen.KernelIdeal.Launch
import proofs.«145947_j31421980738206_1_alg».proof.Proof.Gen.KernelIdeal.Skeleton
import proofs.«145947_j31421980738206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current staging buffer holds its block at every point although it is fetched at the first point
    only: its block index never moves, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its staging buffer -/

abbrev r1_0 : Rect S10000x128 := Rect.unit (s := S10000x128) ![0, 0] S10000x128.size inb_S10000x128_S10000x128_0_0
abbrev r1_1 : Rect S128x32 := Rect.unit (s := S128x32) ![0, 0] S128x32.size inb_S128x32_S128x32_0_0
abbrev r1_2 : Rect S10000x32 := Rect.unit (s := S10000x32) ![0, 0] S10000x32.size inb_S10000x32_S10000x32_0_0

/-! ## What the body leaves in the output window's buffer -/

/-- Window 2's staging buffer after the body, from the two input blocks: its one store, of the payload of the two
    loads, through the whole buffer. -/
def out1_2 (x0 : Vec F S10000x128 .f32) (x1 : Vec F S128x32 .f32) : Vec F S10000x32 .f32 :=
  View.canon [⟨r1_2, k1_pay1 (View.ld x0 r1_0) (View.ld x1 r1_1)⟩]

/-- The one store is through the whole buffer, so it covers it. -/
theorem cover1_2 (p0 : Vec F S10000x32 .f32) (y : S10000x32.Idx) :
    ∃ pc ∈ ([⟨r1_2, p0⟩] : List (View.Piece (Elt F) S10000x32 .f32)), y ∈ pc.1.set :=
  View.cover_of_tiled [⟨r1_2, p0⟩] S10000x32.size (by rfl) y

/-! ## The body's triple -/

set_option maxHeartbeats 1000000 in
/-- The kernel body on whole staging memrefs, the inputs' at read contents `x0`, `x1` and the output's at anything,
    runs to the continuation holding the inputs' as they were and the output's at `out1_2 x0 x1`. -/
theorem sound_kernel1 (c : Dev nD) (E : Set ℕ) (i : grid1.Coords) (arg1 : Memref sig .tc .vmem S10000x128 .f32) (harg1 : arg1.IsWhole)
    (arg2 : Memref sig .tc .vmem S128x32 .f32) (harg2 : arg2.IsWhole) (arg3 : Memref sig .tc .vmem S10000x32 .f32) (harg3 : arg3.IsWhole)
    (x0 : Vec F S10000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__spectral_broadcast_kernel i arg1 harg1 arg2 harg2 arg3 harg3) K := by
  simp only [cc1__spectral_broadcast_kernel_eq_skeleton]; unfold cc1__spectral_broadcast_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at `out1_2` of the two input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant is the same at every point: entering and leaving the region cost nothing. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
import proofs.«145947_j31421980738206_1_alg».proof.Proof.Gen.KernelIdeal.Launch
import proofs.«145947_j31421980738206_1_alg».proof.Proof.Gen.KernelIdeal.Skeleton
import proofs.«145947_j31421980738206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third region: a two-layer perceptron applied to row tiles

The region walks twenty row tiles of a feature matrix with 100000 rows and 224 columns. At each tile it
holds the tile's 5000 rows, both weight matrices and both bias rows, and leaves in the output tile
`relu (tile · W₁ + b₁) · W₂ + b₂`. Only the feature tile and the output tile change from one tile to the
next; the weights and biases have one block each, which is the whole array.

Everything here is stated at an arbitrary assignment `V` of contents to the buffers at the moment the
region is entered, and at an arbitrary float instance. The file gives, for that `V`: each operand's block at
a tile (`iblk2`), the output tile as a function of the five input blocks (`out2_5`), the statement that the
body run on buffers holding those blocks leaves exactly that (`sound_kernel2`), and the resulting
per-tile obligation of the pipeline (`body_obligation2`).
-/

-- a rectangle with 5000 rows: checking that one store tiles it recurses once per row
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## Blocks -/

/-- Operand `w`'s block at tile `t`: the part of its array, as the region finds it, that the tile's index
    map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input whose array is `V`'s and whose block the body leaves in place is found, at every tile, holding
that tile's block: either it was just fetched, or its block index has not moved since the tile before. This
covers the feature tiles (fetched at every tile) and the weights and biases (fetched once) alike. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes -/

abbrev r2_0 : Rect S5000x224 := Rect.unit (s := S5000x224) ![0, 0] S5000x224.size inb_S5000x224_S5000x224_0_0
abbrev r2_1 : Rect S224x256 := Rect.unit (s := S224x256) ![0, 0] S224x256.size inb_S224x256_S224x256_0_0
abbrev r2_2 : Rect S1x256 := Rect.unit (s := S1x256) ![0, 0] S1x256.size inb_S1x256_S1x256_0_0
abbrev r2_3 : Rect S256x64 := Rect.unit (s := S256x64) ![0, 0] S256x64.size inb_S256x64_S256x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-- The output tile after the body, as a function of the five input blocks: one store of the whole tile,
    whose value is the perceptron applied to what the five loads return. -/
def out2_5 (x0 : Vec F S5000x224 .f32) (x1 : Vec F S224x256 .f32) (x2 : Vec F S1x256 .f32) (x3 : Vec F S256x64 .f32) (x4 : Vec F S1x64 .f32) : Vec F S5000x64 .f32 :=
  View.canon [⟨r2_5, k2_pay1 (View.ld x0 r2_0) (View.ld x1 r2_1) (View.ld x2 r2_2) (View.ld x3 r2_3) (View.ld x4 r2_4)⟩]

/-- That one store covers the output tile. -/
theorem cover2_5 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

/-! ## The body on buffers holding the blocks -/

set_option maxHeartbeats 1000000 in
/-- Run on six whole buffers, the five inputs holding `x0 … x4` and the output holding anything, the body ends
    with the inputs unchanged and the output at `out2_5 x0 … x4`. (The body also loads the output tile before
    storing into it; the loaded value is not used.) -/
theorem sound_kernel2 (c : Dev nD) (E : Set ℕ) (i : grid2.Coords) (arg1 : Memref sig .tc .vmem S5000x224 .f32) (harg1 : arg1.IsWhole) (arg2 : Memref sig .tc .vmem S224x256 .f32) (harg2 : arg2.IsWhole) (arg3 : Memref sig .tc .vmem S1x256 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x224 .f32) (x1 : Vec F S224x256 .f32) (x2 : Vec F S1x256 .f32) (x3 : Vec F S256x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The data the pipeline's soundness theorem is instantiated at: each operand's array is `V`'s; after the
    body at tile `t` every input buffer still holds its block and the output buffer holds `out2_5` of the five
    input blocks; the invariant carried from tile to tile is the region's untouched remainder; nothing is owed;
    every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The data's arrays are the contents at entry. -/
theorem A_eq2 (c : Dev nD) (w : Fin cfg2.W) : (dat2 V c).A w = V c (Pipeline.arrRef spec2 w) := by
  dsimp only [dat2]

/-! What the body leaves, operand by operand. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-! Every input buffer holds its block when the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- The carried invariant is the region's untouched remainder, on the way in -/
theorem hin2 (c : Dev nD) : Pipeline.ΦA spec2 c ⊢ (dat2 V c).Φ 0 := by
  rw [show (dat2 V c).Φ 0 = Pipeline.ΦA spec2 c from rfl]

/-- and on the way out. -/
theorem hout2 (c : Dev nD) : (dat2 V c).Φ (Fin.last cfg2.N) ⊢ Pipeline.ΦA spec2 c := by
  rw [show (dat2 V c).Φ (Fin.last cfg2.N) = Pipeline.ΦA spec2 c from rfl]

/-! ## The obligation at a tile -/

/-- What the body is handed at tile `t`: the invariant, what is owed, and the six current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the input buffers hold their blocks, so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Frames.lean ====
/-
  The three pipelines' proof data — the spectral reduction with its accumulator carried across grid points, the
  row-normalised spectral broadcast, and the fused two-layer projection — meet the interface the run of @main is
  stated over; hence the frame of the whole program.
-/
import proofs.«145947_j31421980738206_1_alg».proof.Proof.Run
import proofs.«145947_j31421980738206_1_alg».proof.Proof.Region0
import proofs.«145947_j31421980738206_1_alg».proof.Proof.Region1
import proofs.«145947_j31421980738206_1_alg».proof.Proof.Region2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-- The proof data of the three pipelines, at any entry contents, as the run takes them. -/
def iface : Iface F where
  dat0 := Cert.KernelIdeal.Hand.dat0
  dat1 := Cert.KernelIdeal.Hand.dat1
  dat2 := Cert.KernelIdeal.Hand.dat2
  hA0 := A_eq0
  hA1 := A_eq1
  hA2 := A_eq2
  hq0 := fun _ _ _ => rfl
  hq1 := fun _ _ _ => rfl
  hq2 := fun _ _ _ => rfl
  howed0 := fun _ _ _ => rfl
  howed1 := fun _ _ _ => rfl
  howed2 := fun _ _ _ => rfl
  hrec0 := fun _ _ _ => rfl
  hrec1 := fun _ _ _ => rfl
  hrec2 := fun _ _ _ => rfl
  hbody0 := body_obligation0
  hbody1 := body_obligation1
  hbody2 := body_obligation2
  hin0 := hin0
  hin1 := hin1
  hin2 := hin2
  hout0 := hout0
  hout1 := hout1
  hout2 := hout2

end Cert.KernelIdeal.Hand

end
-- ==== Proof.KHostKeeps.lean ====
/-
  The host stretches of @main between its three kernel regions, as far as the buffers are concerned.

  A straight line of host operations allocates nothing and writes only its operations' result buffers.  So any
  buffer that is none of those holds after the line what it held before, whatever contents the line is entered
  with.  For each of the five stretches this file lists the result buffers in order, proves that statement for an
  arbitrary reference outside the list, and specialises it to the eleven argument buffers of @main, none of which
  any stretch writes.  Everything is stated for an arbitrary float instance.
-/
import proofs.«145947_j31421980738206_1_alg».proof.Proof.Gen.Kernel.Launch

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel.Gen

variable {F : FTy → Type} [FloatOps F]

/-! ## No stretch allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## What each stretch writes -/

/-- Every operation of the named line writes one buffer, and that buffer is in the list the goal names: the line's
    operations are taken one by one, each one's result buffer found in the list by comparing references. -/
local macro "writes_within " ops:ident : tactic => `(tactic| (
  simp only [$ops:ident, List.Forall, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))))

/-- The result buffers of `hostOps0`, in the order of its operations. -/
abbrev written0 : List (Ref sig .tc) :=
  [ main_v0 ]

/-- The result buffers of `hostOps0_1`, in the order of its operations. -/
abbrev written0_1 : List (Ref sig .tc) :=
  [ main_call0_cst, main_call0_v0, main_call0_v1, main_call0_v2, main_call0_v3, main_call0_v4, main_call0_v5,
    main_call0_v6, main_call0_v7, main_call0_v8, main_v1 ]

/-- The result buffers of `hostOps0_2`, in the order of its operations. -/
abbrev written0_2 : List (Ref sig .tc) :=
  [ main_v2, main_v3, main_v4, main_v5 ]

/-- The result buffers of `hostOps1`, in the order of its operations. -/
abbrev written1 : List (Ref sig .tc) :=
  [ main_v7, main_v8, main_v9 ]

/-- The result buffers of `hostOps2`, in the order of its operations. -/
abbrev written2 : List (Ref sig .tc) :=
  [ main_v11, main_v12, main_v13, main_v14, main_v15, main_c, main_v16, main_v17, main_c_0, main_v18,
    main_v19, main_v20, main_v21, main_v22, main_v23, main_v24, main_v25, main_v26, main_cst, main_v27,
    main_v28, main_v29, main_v30, main_v31, main_v32, main_v33, main_v34, main_c_1, main_v35, main_v36,
    main_c_2, main_v37, main_v38, main_v39, main_v40, main_v41, main_v42, main_v43, main_v44, main_v45,
    main_cst_3, main_v46, main_v47, main_v48, main_v49, main_v50, main_v51, main_v52, main_v53, main_v54,
    main_c_4, main_v55, main_v56, main_c_5, main_v57, main_v58, main_v59, main_v60, main_v61, main_v62,
    main_v63, main_v64, main_v65, main_cst_6, main_v66, main_v67, main_v68, main_v69, main_v70, main_v71,
    main_v72, main_v73, main_c_7, main_v74, main_v75, main_c_8, main_v76, main_v77, main_v78, main_v79,
    main_v80, main_v81, main_v82, main_v83, main_v84, main_cst_9, main_v85, main_v86, main_v87, main_v88,
    main_v89, main_v90, main_v91 ]

/-! ## A buffer a stretch does not write keeps its contents -/

theorem keeps_hostOps0_of_not_written (U : Valuation τ sig (Elt F)) (r : Ref sig .tc) (hr : r ∉ written0) :
    StableHlo.after (hostOps0 : List (HloOp τ sig (Elt F))) U (Proc.devRef .tc r) = U (Proc.devRef .tc r) :=
  StableHlo.after_of_writes_sub (W := written0) _ _ (by writes_within hostOps0) hr

theorem keeps_hostOps0_1_of_not_written (U : Valuation τ sig (Elt F)) (r : Ref sig .tc) (hr : r ∉ written0_1) :
    StableHlo.after (hostOps0_1 : List (HloOp τ sig (Elt F))) U (Proc.devRef .tc r) = U (Proc.devRef .tc r) :=
  StableHlo.after_of_writes_sub (W := written0_1) _ _ (by writes_within hostOps0_1) hr

theorem keeps_hostOps0_2_of_not_written (U : Valuation τ sig (Elt F)) (r : Ref sig .tc) (hr : r ∉ written0_2) :
    StableHlo.after (hostOps0_2 : List (HloOp τ sig (Elt F))) U (Proc.devRef .tc r) = U (Proc.devRef .tc r) :=
  StableHlo.after_of_writes_sub (W := written0_2) _ _ (by writes_within hostOps0_2) hr

theorem keeps_hostOps1_of_not_written (U : Valuation τ sig (Elt F)) (r : Ref sig .tc) (hr : r ∉ written1) :
    StableHlo.after (hostOps1 : List (HloOp τ sig (Elt F))) U (Proc.devRef .tc r) = U (Proc.devRef .tc r) :=
  StableHlo.after_of_writes_sub (W := written1) _ _ (by writes_within hostOps1) hr

theorem keeps_hostOps2_of_not_written (U : Valuation τ sig (Elt F)) (r : Ref sig .tc) (hr : r ∉ written2) :
    StableHlo.after (hostOps2 : List (HloOp τ sig (Elt F))) U (Proc.devRef .tc r) = U (Proc.devRef .tc r) :=
  StableHlo.after_of_writes_sub (W := written2) _ _ (by writes_within hostOps2) hr

/-! ## The arguments of @main pass through every stretch -/

/-- The eleven argument buffers of @main. -/
abbrev argRefs : Finset (Ref sig .tc) :=
  {main_arg0, main_arg1, main_arg2, main_arg3, main_arg4, main_arg5, main_arg6, main_arg7, main_arg8, main_arg9, main_arg10}

/-- No stretch writes an argument. -/
theorem args_not_written : ∀ b ∈ argRefs, b ∉ written0 ∧ b ∉ written0_1 ∧ b ∉ written0_2 ∧ b ∉ written1 ∧ b ∉ written2 := by
  decide

theorem keeps_hostOps0 (U : Valuation τ sig (Elt F)) (b : Ref sig .tc) (hb : b ∈ argRefs) :
    StableHlo.after (hostOps0 : List (HloOp τ sig (Elt F))) U (Proc.devRef .tc b) = U (Proc.devRef .tc b) :=
  keeps_hostOps0_of_not_written U b (args_not_written b hb).1

theorem keeps_hostOps0_1 (U : Valuation τ sig (Elt F)) (b : Ref sig .tc) (hb : b ∈ argRefs) :
    StableHlo.after (hostOps0_1 : List (HloOp τ sig (Elt F))) U (Proc.devRef .tc b) = U (Proc.devRef .tc b) :=
  keeps_hostOps0_1_of_not_written U b (args_not_written b hb).2.1

theorem keeps_hostOps0_2 (U : Valuation τ sig (Elt F)) (b : Ref sig .tc) (hb : b ∈ argRefs) :
    StableHlo.after (hostOps0_2 : List (HloOp τ sig (Elt F))) U (Proc.devRef .tc b) = U (Proc.devRef .tc b) :=
  keeps_hostOps0_2_of_not_written U b (args_not_written b hb).2.2.1

theorem keeps_hostOps1 (U : Valuation τ sig (Elt F)) (b : Ref sig .tc) (hb : b ∈ argRefs) :
    StableHlo.after (hostOps1 : List (HloOp τ sig (Elt F))) U (Proc.devRef .tc b) = U (Proc.devRef .tc b) :=
  keeps_hostOps1_of_not_written U b (args_not_written b hb).2.2.2.1

theorem keeps_hostOps2 (U : Valuation τ sig (Elt F)) (b : Ref sig .tc) (hb : b ∈ argRefs) :
    StableHlo.after (hostOps2 : List (HloOp τ sig (Elt F))) U (Proc.devRef .tc b) = U (Proc.devRef .tc b) :=
  keeps_hostOps2_of_not_written U b (args_not_written b hb).2.2.2.2

/-- The argument buffers of @main by number. -/
abbrev argRef : Fin 11 → Ref sig .tc :=
  ![main_arg0, main_arg1, main_arg2, main_arg3, main_arg4, main_arg5, main_arg6, main_arg7, main_arg8, main_arg9, main_arg10]

theorem argRef_mem : ∀ K : Fin 11, argRef K ∈ argRefs := by decide

theorem keeps_hostOps0_argRef (U : Valuation τ sig (Elt F)) (K : Fin 11) :
    StableHlo.after (hostOps0 : List (HloOp τ sig (Elt F))) U (Proc.devRef .tc (argRef K)) = U (Proc.devRef .tc (argRef K)) :=
  keeps_hostOps0 U _ (argRef_mem K)

theorem keeps_hostOps0_1_argRef (U : Valuation τ sig (Elt F)) (K : Fin 11) :
    StableHlo.after (hostOps0_1 : List (HloOp τ sig (Elt F))) U (Proc.devRef .tc (argRef K)) = U (Proc.devRef .tc (argRef K)) :=
  keeps_hostOps0_1 U _ (argRef_mem K)

theorem keeps_hostOps0_2_argRef (U : Valuation τ sig (Elt F)) (K : Fin 11) :
    StableHlo.after (hostOps0_2 : List (HloOp τ sig (Elt F))) U (Proc.devRef .tc (argRef K)) = U (Proc.devRef .tc (argRef K)) :=
  keeps_hostOps0_2 U _ (argRef_mem K)

theorem keeps_hostOps1_argRef (U : Valuation τ sig (Elt F)) (K : Fin 11) :
    StableHlo.after (hostOps1 : List (HloOp τ sig (Elt F))) U (Proc.devRef .tc (argRef K)) = U (Proc.devRef .tc (argRef K)) :=
  keeps_hostOps1 U _ (argRef_mem K)

theorem keeps_hostOps2_argRef (U : Valuation τ sig (Elt F)) (K : Fin 11) :
    StableHlo.after (hostOps2 : List (HloOp τ sig (Elt F))) U (Proc.devRef .tc (argRef K)) = U (Proc.devRef .tc (argRef K)) :=
  keeps_hostOps2 U _ (argRef_mem K)

end Cert.Kernel.Hand

end
-- ==== Proof.KRun.lean ====
/-
  The run of @main from the launch to the return, over the three regions and the host stretches between them.
  The buffer contents at every boundary are a fold from the launch memory: a host stretch applies its operations,
  a region leaves its arrays at what its write-backs fold to and every other buffer as it found it. Stated over
  ANY proof data of the three pipelines meeting the interface below (arrays read off the entry contents, full
  shares, nothing owed, the body obligation, the invariant entered from and returned to the scoped rest and the
  generator register), so that this module is independent of what each kernel body computes.
-/
import proofs.«145947_j31421980738206_1_alg».proof.Proof.Gen.Kernel.Launch
import proofs.«145947_j31421980738206_1_alg».proof.Proof.Gen.Kernel.Skeleton
import proofs.«145947_j31421980738206_1_alg».proof.Proof.Gen.Kernel.Points
import proofs.«145947_j31421980738206_1_alg».proof.Proof.KHostKeeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents at a boundary, read at its references. -/
abbrev VT (F : FTy → Type) [FloatOps F] := (c : Dev nD) → (b : Ref sig .tc) → Buf (Elt F) ((c : Thread nD τ).loc b)

/-- What the run needs of the three pipelines' proof data, each stated at ANY entry contents `V`: the arrays read off
    `V`, full shares, nothing owed, the default bound on recorded waits, the body obligation, and the invariant entered
    from and returned to the scoped rest with the generator register. -/
structure Iface (F : FTy → Type) [FloatOps F] where
  dat0 : VT F → (c : Dev nD) → Dat τ (Elt F) Unit ℕ (UR sig nD τ) ℕ cfg0 c
  dat1 : VT F → (c : Dev nD) → Dat τ (Elt F) Unit ℕ (UR sig nD τ) ℕ cfg1 c
  dat2 : VT F → (c : Dev nD) → Dat τ (Elt F) Unit ℕ (UR sig nD τ) ℕ cfg2 c
  hA0 : ∀ (V : VT F) (c : Dev nD) (w : Fin cfg0.W), (dat0 V c).A w = V c (Pipeline.arrRef spec0 w)
  hA1 : ∀ (V : VT F) (c : Dev nD) (w : Fin cfg1.W), (dat1 V c).A w = V c (Pipeline.arrRef spec1 w)
  hA2 : ∀ (V : VT F) (c : Dev nD) (w : Fin cfg2.W), (dat2 V c).A w = V c (Pipeline.arrRef spec2 w)
  hq0 : ∀ (V : VT F) (c : Dev nD) (w : Fin cfg0.W), (dat0 V c).q w = fullShare
  hq1 : ∀ (V : VT F) (c : Dev nD) (w : Fin cfg1.W), (dat1 V c).q w = fullShare
  hq2 : ∀ (V : VT F) (c : Dev nD) (w : Fin cfg2.W), (dat2 V c).q w = fullShare
  howed0 : ∀ (V : VT F) (c : Dev nD) t, (dat0 V c).owed t = 0
  howed1 : ∀ (V : VT F) (c : Dev nD) t, (dat1 V c).owed t = 0
  howed2 : ∀ (V : VT F) (c : Dev nD) t, (dat2 V c).owed t = 0
  hrec0 : ∀ (V : VT F) (c : Dev nD) t, (dat0 V c).recorded t = Set.univ
  hrec1 : ∀ (V : VT F) (c : Dev nD) t, (dat1 V c).recorded t = Set.univ
  hrec2 : ∀ (V : VT F) (c : Dev nD) t, (dat2 V c).recorded t = Set.univ
  hbody0 : ∀ (V : VT F) (c : Dev nD), BodyObligation (dat0 V c) (defs₀ (F := F)) Variants.none () Set.univ
  hbody1 : ∀ (V : VT F) (c : Dev nD), BodyObligation (dat1 V c) (defs₀ (F := F)) Variants.none () Set.univ
  hbody2 : ∀ (V : VT F) (c : Dev nD), BodyObligation (dat2 V c) (defs₀ (F := F)) Variants.none () Set.univ
  hin0 : ∀ (V : VT F) (c : Dev nD), (Pipeline.ΦA spec0 c : sProp (MT nD τ sig Unit (Elt F) ℕ (UR sig nD τ) ℕ)) ⊢ (dat0 V c).Φ 0
  hin1 : ∀ (V : VT F) (c : Dev nD), (Pipeline.ΦA spec1 c : sProp (MT nD τ sig Unit (Elt F) ℕ (UR sig nD τ) ℕ)) ⊢ (dat1 V c).Φ 0
  hin2 : ∀ (V : VT F) (c : Dev nD), (Pipeline.ΦA spec2 c : sProp (MT nD τ sig Unit (Elt F) ℕ (UR sig nD τ) ℕ)) ⊢ (dat2 V c).Φ 0
  hout0 : ∀ (V : VT F) (c : Dev nD), (dat0 V c).Φ (Fin.last cfg0.N) ⊢ (Pipeline.ΦA spec0 c : sProp (MT nD τ sig Unit (Elt F) ℕ (UR sig nD τ) ℕ))
  hout1 : ∀ (V : VT F) (c : Dev nD), (dat1 V c).Φ (Fin.last cfg1.N) ⊢ (Pipeline.ΦA spec1 c : sProp (MT nD τ sig Unit (Elt F) ℕ (UR sig nD τ) ℕ))
  hout2 : ∀ (V : VT F) (c : Dev nD), (dat2 V c).Φ (Fin.last cfg2.N) ⊢ (Pipeline.ΦA spec2 c : sProp (MT nD τ sig Unit (Elt F) ℕ (UR sig nD τ) ℕ))

section Run

variable (H : Iface F) (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape of tau. -/
abbrev Wa : Dev nD → Valuation τ sig (Elt F) := fun c => StableHlo.after hostOps0 (W0 m ρ c)
/-- After softplus. -/
abbrev Wb : Dev nD → Valuation τ sig (Elt F) := fun c => StableHlo.after hostOps0_1 (Wa m ρ c)
/-- After the scale vector: region 0's entry. -/
abbrev W1 : Dev nD → Valuation τ sig (Elt F) := fun c => StableHlo.after hostOps0_2 (Wb m ρ c)
abbrev V1 : VT F := fun c b => W1 m ρ c b
/-- At region 0's exit. -/
def W2 (c : Dev nD) : Valuation τ sig (Elt F) :=
  Pipeline.withArrays spec0 c (W1 m ρ c) fun w => (H.dat0 (V1 m ρ) c).arrAt w cfg0.N
abbrev V2 : VT F := fun c b => W2 H m ρ c b
/-- After the scaling of the coefficients: region 1's entry. -/
abbrev W3 : Dev nD → Valuation τ sig (Elt F) := fun c => StableHlo.after hostOps1 (W2 H m ρ c)
abbrev V3 : VT F := fun c b => W3 H m ρ c b
/-- At region 1's exit. -/
def W4 (c : Dev nD) : Valuation τ sig (Elt F) :=
  Pipeline.withArrays spec1 c (W3 H m ρ c) fun w => (H.dat1 (V3 H m ρ) c).arrAt w cfg1.N
abbrev V4 : VT F := fun c b => W4 H m ρ c b
/-- After the message passing: region 2's entry. -/
abbrev W5 : Dev nD → Valuation τ sig (Elt F) := fun c => StableHlo.after hostOps2 (W4 H m ρ c)
abbrev V5 : VT F := fun c b => W5 H m ρ c b
/-- At region 2's exit: the return. -/
def W6 (c : Dev nD) : Valuation τ sig (Elt F) :=
  Pipeline.withArrays spec2 c (W5 H m ρ c) fun w => (H.dat2 (V5 H m ρ) c).arrAt w cfg2.N
abbrev V6 : VT F := fun c b => W6 H m ρ c b

theorem W2_arr (c : Dev nD) (w : Fin cfg0.W) :
    W2 H m ρ c (Proc.devRef .tc (Pipeline.arrRef spec0 w)) = (H.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H m ρ c (Proc.devRef .tc b) = W1 m ρ c (Proc.devRef .tc b) := by
  unfold W2; exact Pipeline.withArrays_of_ne spec0 c _ _ b hb
theorem W4_arr (c : Dev nD) (w : Fin cfg1.W) :
    W4 H m ρ c (Proc.devRef .tc (Pipeline.arrRef spec1 w)) = (H.dat1 (V3 H m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H m ρ c (Proc.devRef .tc b) = W3 H m ρ c (Proc.devRef .tc b) := by
  unfold W4; exact Pipeline.withArrays_of_ne spec1 c _ _ b hb
theorem W6_arr (c : Dev nD) (w : Fin cfg2.W) :
    W6 H m ρ c (Proc.devRef .tc (Pipeline.arrRef spec2 w)) = (H.dat2 (V5 H m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 H m ρ c (Proc.devRef .tc b) = W5 H m ρ c (Proc.devRef .tc b) := by
  unfold W6; exact Pipeline.withArrays_of_ne spec2 c _ _ b hb

theorem hF0 (c : Dev nD) (w : Fin cfg0.W) : (H.dat0 (V1 m ρ) c).arrAt w cfg0.N = V2 H m ρ c (Pipeline.arrRef spec0 w) :=
  (W2_arr H m ρ c w).symm
theorem hrest0 (c : Dev nD) : ∀ b, b ∉ Finset.univ.image (Pipeline.arrRef spec0) → V2 H m ρ c b = V1 m ρ c b :=
  fun b hb => W2_of_ne H m ρ c b fun w e => hb (Finset.mem_image.mpr ⟨w, Finset.mem_univ _, e⟩)
theorem hF1 (c : Dev nD) (w : Fin cfg1.W) : (H.dat1 (V3 H m ρ) c).arrAt w cfg1.N = V4 H m ρ c (Pipeline.arrRef spec1 w) :=
  (W4_arr H m ρ c w).symm
theorem hrest1 (c : Dev nD) : ∀ b, b ∉ Finset.univ.image (Pipeline.arrRef spec1) → V4 H m ρ c b = V3 H m ρ c b :=
  fun b hb => W4_of_ne H m ρ c b fun w e => hb (Finset.mem_image.mpr ⟨w, Finset.mem_univ _, e⟩)
theorem hF2 (c : Dev nD) (w : Fin cfg2.W) : (H.dat2 (V5 H m ρ) c).arrAt w cfg2.N = V6 H m ρ c (Pipeline.arrRef spec2 w) :=
  (W6_arr H m ρ c w).symm
theorem hrest2 (c : Dev nD) : ∀ b, b ∉ Finset.univ.image (Pipeline.arrRef spec2) → V6 H m ρ c b = V5 H m ρ c b :=
  fun b hb => W6_of_ne H m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents (a literal match on the pipeline's index). -/
def pdats : (p : Fin 3) → (c : Dev nD) → Dat τ (Elt F) Unit ℕ (UR sig nD τ) ℕ (Pipeline.pin (pcfgs (F := F)) adm p) c
  | ⟨0, _⟩ => fun c => H.dat0 (V1 m ρ) c
  | ⟨1, _⟩ => fun c => H.dat1 (V3 H m ρ) c
  | ⟨2, _⟩ => fun c => H.dat2 (V5 H m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 H m ρ c) ∗ ∃ r, prngReg c r)

/-! ## The regions as segments -/

set_option backward.isDefEq.respectTransparency.types false in
/-- Region 0 as a segment: entered with every unscoped buffer at the contents before it, left with the region's
    arrays at what its write-backs leave and every other buffer as entered; the generator register passes through
    the region's invariant; nothing is owed; the kernel has no semaphore of its own. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.hbody0 (V1 m ρ) c).loose
  hwaits := Pipeline.hwaits_of_owed_zero _ _ _ _ L lv 0 fun c t => H.howed0 (V1 m ρ) c t
  pre c := iprop(StableHlo.held (c : Thread nD τ) (Pipeline.ucRefs τ sig) (W1 m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.hq0 (V1 m ρ) c w) (V1 m ρ c) fun w => H.hA0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 0 c).owed 0 = 0 from H.howed0 (V1 m ρ) c 0]
      icases HO with ⟨%W, HO⟩; iexists W; isplitr
      · ipureintro
        exact fun x _ => Or.inl (show x ∈ (pdats H m ρ 0 c).recorded 0 from by
          rw [show (pdats H m ρ 0 c).recorded 0 = Set.univ from H.hrec0 (V1 m ρ) c 0]; trivial)
      iexact HO
    isplitl [Hp]; · iexact Hp
    iexact Hrest
  hin c := by
    refine BIBase.Entails.trans ?_ (H.hin0 (V1 m ρ) c)
    unfold Pipeline.ΦA
    iintro ⟨Hp, -, Hr⟩
    isplitl [Hr]; · iexact Hr
    iexact Hp
  hout c := by
    rw [Pipeline.ownSems0_none]
    refine BIBase.Entails.trans (H.hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.hq0 (V1 m ρ) c w)
      (V1 m ρ c) (V2 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 0 c).owed (Fin.last _) = 0 from H.howed0 (V1 m ρ) c _]
    icases HO with ⟨%W, -, HO⟩; iexists W; iexact HO

set_option backward.isDefEq.respectTransparency.types false in
/-- Region 1 as a segment: entered with every unscoped buffer at the contents before it, left with the region's
    arrays at what its write-backs leave and every other buffer as entered; the generator register passes through
    the region's invariant; nothing is owed; the kernel has no semaphore of its own. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.hbody1 (V3 H m ρ) c).loose
  hwaits := Pipeline.hwaits_of_owed_zero _ _ _ _ L lv 1 fun c t => H.howed1 (V3 H m ρ) c t
  pre c := iprop(StableHlo.held (c : Thread nD τ) (Pipeline.ucRefs τ sig) (W3 H m ρ c) ∗ R c)
  post c := iprop(StableHlo.held (c : Thread nD τ) (Pipeline.ucRefs τ sig) (W4 H m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.hq1 (V3 H m ρ) c w) (V3 H m ρ c) fun w => H.hA1 (V3 H m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 1 c).owed 0 = 0 from H.howed1 (V3 H m ρ) c 0]
      icases HO with ⟨%W, HO⟩; iexists W; isplitr
      · ipureintro
        exact fun x _ => Or.inl (show x ∈ (pdats H m ρ 1 c).recorded 0 from by
          rw [show (pdats H m ρ 1 c).recorded 0 = Set.univ from H.hrec1 (V3 H m ρ) c 0]; trivial)
      iexact HO
    isplitl [Hp]; · iexact Hp
    iexact Hrest
  hin c := by
    refine BIBase.Entails.trans ?_ (H.hin1 (V3 H m ρ) c)
    unfold Pipeline.ΦA
    iintro ⟨Hp, -, Hr⟩
    isplitl [Hr]; · iexact Hr
    iexact Hp
  hout c := by
    rw [Pipeline.ownSems0_none]
    refine BIBase.Entails.trans (H.hout1 (V3 H m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.hq1 (V3 H m ρ) c w)
      (V3 H m ρ c) (V4 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 1 c).owed (Fin.last _) = 0 from H.howed1 (V3 H m ρ) c _]
    icases HO with ⟨%W, -, HO⟩; iexists W; iexact HO

set_option backward.isDefEq.respectTransparency.types false in
/-- Region 2 as a segment: entered with every unscoped buffer at the contents before it, left with the region's
    arrays at what its write-backs leave and every other buffer as entered; the generator register passes through
    the region's invariant; nothing is owed; the kernel has no semaphore of its own. -/
def reg2 : Pipeline.RegionSeg (pcfgs (F := F)) adm (pdats H m ρ) () defs₀ 𝒱₀ L lv 2 where
  win := launch2.win.to₀
  block_pos := launch2.block_pos
  stage_whole := launch2.stage_whole
  K := PEmpty
  osem k := k.elim
  ho := Pipeline.OwnSemFacts.none _
  hbody c := (H.hbody2 (V5 H m ρ) c).loose
  hwaits := Pipeline.hwaits_of_owed_zero _ _ _ _ L lv 2 fun c t => H.howed2 (V5 H m ρ) c t
  pre c := iprop(StableHlo.held (c : Thread nD τ) (Pipeline.ucRefs τ sig) (W5 H m ρ c) ∗ R c)
  post c := iprop(Tₙ H m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 H m ρ c)
  hentry c := by
    rw [Pipeline.ownSems0_none]
    have hsplit := Pipeline.arrays_of_unscopedBufs (p := 2) (pcfgs (F := F)) adm (pdats H m ρ) launch2.win launch2.arr_whole c
      ((pdats H m ρ 2 c).share_full fun w => H.hq2 (V5 H m ρ) c w) (V5 H m ρ c) fun w => H.hA2 (V5 H m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 2 c).owed 0 = 0 from H.howed2 (V5 H m ρ) c 0]
      icases HO with ⟨%W, HO⟩; iexists W; isplitr
      · ipureintro
        exact fun x _ => Or.inl (show x ∈ (pdats H m ρ 2 c).recorded 0 from by
          rw [show (pdats H m ρ 2 c).recorded 0 = Set.univ from H.hrec2 (V5 H m ρ) c 0]; trivial)
      iexact HO
    isplitl [Hp]; · iexact Hp
    iexact Hrest
  hin c := by
    refine BIBase.Entails.trans ?_ (H.hin2 (V5 H m ρ) c)
    unfold Pipeline.ΦA
    iintro ⟨Hp, -, Hr⟩
    isplitl [Hr]; · iexact Hr
    iexact Hp
  hout c := by
    rw [Pipeline.ownSems0_none]
    refine BIBase.Entails.trans (H.hout2 (V5 H m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H m ρ) ((pdats H m ρ 2 c).share_full fun w => H.hq2 (V5 H m ρ) c w)
      (V5 H m ρ c) (V6 H m ρ c) ((pdats H m ρ 2 c).arrAt · cfg2.N) (hF2 H m ρ c) (hrest2 H m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats H m ρ 2 c).owed (Fin.last _) = 0 from H.howed2 (V5 H m ρ) c _]
    icases HO with ⟨%W, -, HO⟩; iexists W; iexact HO

/-! ## The arguments end as launched -/

/-- Region 0 reads the node features and the eigenvectors through input windows and writes neither. -/
theorem kept0 (c : Dev nD) (K : Fin 11) :
    W2 H m ρ c (Proc.devRef .tc (argRef K)) = W1 m ρ c (Proc.devRef .tc (argRef K)) := by
  fin_cases K
  · exact (W2_arr H m ρ c 1).trans (((H.dat0 (V1 m ρ) c).arrAt_in 1 rfl _).trans (H.hA0 (V1 m ρ) c 1))
  · exact W2_of_ne H m ρ c main_arg1 (by decide)
  · exact (W2_arr H m ρ c 0).trans (((H.dat0 (V1 m ρ) c).arrAt_in 0 rfl _).trans (H.hA0 (V1 m ρ) c 0))
  · exact W2_of_ne H m ρ c main_arg3 (by decide)
  · exact W2_of_ne H m ρ c main_arg4 (by decide)
  · exact W2_of_ne H m ρ c main_arg5 (by decide)
  · exact W2_of_ne H m ρ c main_arg6 (by decide)
  · exact W2_of_ne H m ρ c main_arg7 (by decide)
  · exact W2_of_ne H m ρ c main_arg8 (by decide)
  · exact W2_of_ne H m ρ c main_arg9 (by decide)
  · exact W2_of_ne H m ρ c main_arg10 (by decide)

/-- Region 1 reads the eigenvectors through an input window and writes no argument. -/
theorem kept1 (c : Dev nD) (K : Fin 11) :
    W4 H m ρ c (Proc.devRef .tc (argRef K)) = W3 H m ρ c (Proc.devRef .tc (argRef K)) := by
  fin_cases K
  · exact W4_of_ne H m ρ c main_arg0 (by decide)
  · exact W4_of_ne H m ρ c main_arg1 (by decide)
  · exact (W4_arr H m ρ c 0).trans (((H.dat1 (V3 H m ρ) c).arrAt_in 0 rfl _).trans (H.hA1 (V3 H m ρ) c 0))
  · exact W4_of_ne H m ρ c main_arg3 (by decide)
  · exact W4_of_ne H m ρ c main_arg4 (by decide)
  · exact W4_of_ne H m ρ c main_arg5 (by decide)
  · exact W4_of_ne H m ρ c main_arg6 (by decide)
  · exact W4_of_ne H m ρ c main_arg7 (by decide)
  · exact W4_of_ne H m ρ c main_arg8 (by decide)
  · exact W4_of_ne H m ρ c main_arg9 (by decide)
  · exact W4_of_ne H m ρ c main_arg10 (by decide)

/-- Region 2 reads the two weight matrices through input windows and writes no argument. -/
theorem kept2 (c : Dev nD) (K : Fin 11) :
    W6 H m ρ c (Proc.devRef .tc (argRef K)) = W5 H m ρ c (Proc.devRef .tc (argRef K)) := by
  fin_cases K
  · exact W6_of_ne H m ρ c main_arg0 (by decide)
  · exact W6_of_ne H m ρ c main_arg1 (by decide)
  · exact W6_of_ne H m ρ c main_arg2 (by decide)
  · exact W6_of_ne H m ρ c main_arg3 (by decide)
  · exact W6_of_ne H m ρ c main_arg4 (by decide)
  · exact (W6_arr H m ρ c 1).trans (((H.dat2 (V5 H m ρ) c).arrAt_in 1 rfl _).trans (H.hA2 (V5 H m ρ) c 1))
  · exact W6_of_ne H m ρ c main_arg6 (by decide)
  · exact (W6_arr H m ρ c 3).trans (((H.dat2 (V5 H m ρ) c).arrAt_in 3 rfl _).trans (H.hA2 (V5 H m ρ) c 3))
  · exact W6_of_ne H m ρ c main_arg8 (by decide)
  · exact W6_of_ne H m ρ c main_arg9 (by decide)
  · exact W6_of_ne H m ρ c main_arg10 (by decide)

/-- No host operation and no region writes an argument: the fold at an argument's buffer walks back to the launch
    memory. -/
theorem W6_arg (c : Dev nD) (K : Fin 11) :
    W6 H m ρ c (Proc.devRef .tc (argRef K)) = m ((c : Thread nD τ).loc (argRef K)) :=
  calc W6 H m ρ c (Proc.devRef .tc (argRef K))
    _ = W5 H m ρ c (Proc.devRef .tc (argRef K)) := kept2 H m ρ c K
    _ = W4 H m ρ c (Proc.devRef .tc (argRef K)) := keeps_hostOps2_argRef _ K
    _ = W3 H m ρ c (Proc.devRef .tc (argRef K)) := kept1 H m ρ c K
    _ = W2 H m ρ c (Proc.devRef .tc (argRef K)) := keeps_hostOps1_argRef _ K
    _ = W1 m ρ c (Proc.devRef .tc (argRef K)) := kept0 H m ρ c K
    _ = Wb m ρ c (Proc.devRef .tc (argRef K)) := keeps_hostOps0_2_argRef _ K
    _ = Wa m ρ c (Proc.devRef .tc (argRef K)) := keeps_hostOps0_1_argRef _ K
    _ = W0 m ρ c (Proc.devRef .tc (argRef K)) := keeps_hostOps0_argRef _ K
    _ = m ((c : Thread nD τ).loc (argRef K)) := rfl

/-- The arguments at region 0's entry are the launch's. -/
theorem W1_arg (c : Dev nD) (K : Fin 11) :
    W1 m ρ c (Proc.devRef .tc (argRef K)) = m ((c : Thread nD τ).loc (argRef K)) :=
  calc W1 m ρ c (Proc.devRef .tc (argRef K))
    _ = Wb m ρ c (Proc.devRef .tc (argRef K)) := keeps_hostOps0_2_argRef _ K
    _ = Wa m ρ c (Proc.devRef .tc (argRef K)) := keeps_hostOps0_1_argRef _ K
    _ = W0 m ρ c (Proc.devRef .tc (argRef K)) := keeps_hostOps0_argRef _ K
    _ = m ((c : Thread nD τ).loc (argRef K)) := rfl

/-- The arguments at region 1's entry are the launch's. -/
theorem W3_arg (c : Dev nD) (K : Fin 11) :
    W3 H m ρ c (Proc.devRef .tc (argRef K)) = m ((c : Thread nD τ).loc (argRef K)) :=
  calc W3 H m ρ c (Proc.devRef .tc (argRef K))
    _ = W2 H m ρ c (Proc.devRef .tc (argRef K)) := keeps_hostOps1_argRef _ K
    _ = W1 m ρ c (Proc.devRef .tc (argRef K)) := kept0 H m ρ c K
    _ = m ((c : Thread nD τ).loc (argRef K)) := W1_arg m ρ c K

/-- The arguments at region 2's entry are the launch's. -/
theorem W5_arg (c : Dev nD) (K : Fin 11) :
    W5 H m ρ c (Proc.devRef .tc (argRef K)) = m ((c : Thread nD τ).loc (argRef K)) :=
  calc W5 H m ρ c (Proc.devRef .tc (argRef K))
    _ = W4 H m ρ c (Proc.devRef .tc (argRef K)) := keeps_hostOps2_argRef _ K
    _ = W3 H m ρ c (Proc.devRef .tc (argRef K)) := kept1 H m ρ c K
    _ = m ((c : Thread nD τ).loc (argRef K)) := W3_arg H m ρ c K

/-! ## @main as segments, and the launch -/

/-- @main's eight segments in order: a host segment per stretch from its boundary's contents, a region per
    pallas_call. -/
abbrev segs : List (Pipeline.Seg (pcfgs (F := F)) adm (pdats H m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 H m ρ),
    .host (hseg hostOps1 hostOps1_sub hostOps1_fresh (W2 H m ρ)),
    .region (reg1 H m ρ),
    .host (hseg hostOps2 hostOps2_sub hostOps2_fresh (W4 H m ρ)),
    .region (reg2 H m ρ) ]

/-- @main is the run of the segments. -/
theorem main_run (c : Dev nD) : main (F := F) c = Pipeline.Seg.run
    (segs H m ρ) :=
  (main_chain c).trans (by chain_rfl)

set_option backward.isDefEq.respectTransparency.types false in
/-- At the compiled mesh, from any memory with zero counters, every weakly fair execution of @main on the TensorCores
    terminates, nothing faulting; the result buffer ends at the last boundary's contents and every argument array as
    launched. -/
theorem run_all : θ_run defs (onTc (τ := τ) (main (F := F))) ⟨m, fun _ => 0, ρ⟩ (fun r => ∀ c : Dev nD,
      r.2.mem ((c.tc : Thread nD τ).loc main_v92) = W6 H m ρ c (Proc.devRef .tc main_v92)
      ∧ ∀ K : Fin 11, r.2.mem ((c.tc : Thread nD τ).loc (argRef K)) = m ((c.tc : Thread nD τ).loc (argRef K))) :=
  Pipeline.θ_run_regions_kit (pcfgs (F := F)) adm (pdats H m ρ) () cellOf_inj emb₁ defs₀ 𝒱₀ L lv m ρ main
    (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 H m ρ c) s')
      isplitl [Hh] <;> iassumption)
    (hQ := fun s h c =>
      ⟨h c _ (mem_uc main_v92 (by decide)),
       fun K => (h c _ (mem_uc (argRef K) (by revert K; decide))).trans
         (W6_arg H m ρ c K)⟩)

include H in
/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 0, (h c).2 1, (h c).2 2, (h c).2 3, (h c).2 4, (h c).2 5, (h c).2 6,
    (h c).2 7, (h c).2 8, (h c).2 9, (h c).2 10⟩) (run_all H m ρ)

end Run

end Cert.Kernel.Hand

end
-- ==== Proof.KRegion0.lean ====
/-
  Region 0 of @main: the spectral reduction, a grid of ten points over the row tiles of the eigenvector
  array and of the signal. The body keeps a running [128,32] accumulator in a scratch buffer that lives
  across the grid: at the first point the accumulator is reset to the zero block, at every point the
  product (tile of eigenvectors)ᵀ · (tile of the signal) is added to it, and the accumulator is copied into
  the output window's one staging buffer, which is written back after the last point. This module states
  that body at a parameter `V` (the TensorCore's buffer contents when the region is entered): the two
  control cases of the body as separation-logic triples, the running accumulator `acc0` by recursion on
  the point, the region's invariant (the scratch holds `acc0` of the point before), and the body
  obligation of the pipeline rule. Everything is generic in the float instance.
-/
import proofs.«145947_j31421980738206_1_alg».proof.Proof.Gen.Kernel.Launch
import proofs.«145947_j31421980738206_1_alg».proof.Proof.Gen.Kernel.Skeleton
import proofs.«145947_j31421980738206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's conditional -/

/-- The condition of the body's conditional (reset the accumulator), from the grid coordinate: the chain of
    scalar comparisons the body computes from the coordinate. -/
abbrev cond0 (i : grid0.Coords) : Prop :=
  (Scalar.cmpi .ne (Scalar.extui (Scalar.cmpi .eq (BitVec.ofNat 32 (i 0).val) 0#32)) 0#32) = 1#1

/-- It holds at the first point and at no other: decided over the ten points. -/
theorem hcond0 : ∀ t : Fin cfg0.N, cond0 (grid0.coords t) ↔ t.val = 0 :=
  (by decide +kernel : ∀ t : Fin grid0.N, cond0 (grid0.coords t) ↔ t.val = 0)

/-! ## The whole-buffer rectangle -/

/-- The offsets of every access of the body: zero on both axes. -/
theorem zero_off : (![0, 0] : Fin 2 → Nat) = fun _ => 0 := funext fun a => by fin_cases a <;> rfl

/-- One store through the whole [128,32] rectangle covers the buffer. -/
theorem cover_whole (p : Vec F S128x32 .f32) (L : List (View.Piece (Elt F) S128x32 .f32)) (y : S128x32.Idx) :
    ∃ pc ∈ ((⟨Rect.unit (s := S128x32) ![0, 0] S128x32.size inb_S128x32_S128x32_0_0, p⟩ : View.Piece (Elt F) S128x32 .f32) :: L),
      y ∈ pc.1.set :=
  ⟨_, List.mem_cons_self, View.mem_set_unit_zero zero_off inb_S128x32_S128x32_0_0 y⟩

/-! ## The body's two triples -/

set_option maxHeartbeats 1000000 in
/-- A LATER POINT (the conditional not taken). On whole memrefs — the two input tiles at `x0`, `x1`, the output's
    staging buffer at anything, the scratch at `s` — the body runs to the continuation holding the inputs as they
    were and both the scratch and the output's buffer at `k0_pay2 x0 x1 s`: the accumulator plus the tiles' product. -/
theorem sound_kernel0_B (c : Dev nD) (E : Set ℕ) (i : grid0.Coords)
    (arg1 : Memref sig .tc .vmem S10000x128 .f32) (harg1 : arg1.IsWhole)
    (arg2 : Memref sig .tc .vmem S10000x32 .f32) (harg2 : arg2.IsWhole)
    (arg3 : Memref sig .tc .vmem S128x32 .f32) (harg3 : arg3.IsWhole)
    (arg4 : Memref sig .tc .vmem S128x32 .f32) (harg4 : arg4.IsWhole)
    (hc : ¬cond0 i)
    (x0 : Vec F S10000x128 .f32) (x1 : Vec F S10000x32 .f32) (s : Vec F S128x32 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k0_pay2 x0 x1 s) ∗ owns (c : Thread nD τ) arg4 fullShare (k0_pay2 x0 x1 s)) -∗ K ⟨⟩))
      ⊢ wp frame (wpE (defs₀ (F := F)) Variants.none c none) E (cc0__spectral_reduce_kernel i arg1 harg1 arg2 harg2 arg3 harg3 arg4 harg4) K := by
  simp only [cc0__spectral_reduce_kernel_eq_skeleton]; unfold cc0__spectral_reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _ []), View.canon_unit_zero zero_off]
    sl_unfold_words
    rw [View.readCov_unit_zero (S := S128x32) _ zero_off]
    simp only [View.readAt_eq_ld, View.ld_unit_zero (S := S10000x128) zero_off, View.ld_unit_zero (S := S10000x32) zero_off,
      View.ld_unit_zero (S := S128x32) zero_off]
  · iexists _; isplitr
    swap; · iexact H3
    ipureintro
    sl_unfold_words
    rw [View.read_writes_eq_canon _ _ _ (cover_whole _ []), View.canon_unit_zero zero_off]
    simp only [View.readAt_eq_ld, View.ld_unit_zero (S := S10000x128) zero_off, View.ld_unit_zero (S := S10000x32) zero_off,
      View.ld_unit_zero (S := S128x32) zero_off]

set_option maxHeartbeats 1000000 in
/-- THE FIRST POINT (the conditional taken). The scratch may hold anything: the body first stores the zero block
    `k0_pay1` into it, and then runs as at a later point from that accumulator. -/
theorem sound_kernel0_A (c : Dev nD) (E : Set ℕ) (i : grid0.Coords)
    (arg1 : Memref sig .tc .vmem S10000x128 .f32) (harg1 : arg1.IsWhole)
    (arg2 : Memref sig .tc .vmem S10000x32 .f32) (harg2 : arg2.IsWhole)
    (arg3 : Memref sig .tc .vmem S128x32 .f32) (harg3 : arg3.IsWhole)
    (arg4 : Memref sig .tc .vmem S128x32 .f32) (harg4 : arg4.IsWhole)
    (hc : cond0 i)
    (x0 : Vec F S10000x128 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay2 x0 x1 (k0_pay1 (F := F)))
            ∗ owns (c : Thread nD τ) arg4 fullShare (k0_pay2 x0 x1 (k0_pay1 (F := F)))) -∗ K ⟨⟩))
      ⊢ wp frame (wpE (defs₀ (F := F)) Variants.none c none) E (cc0__spectral_reduce_kernel i arg1 harg1 arg2 harg2 arg3 harg3 arg4 harg4) K := by
  simp only [cc0__spectral_reduce_kernel_eq_skeleton]; unfold cc0__spectral_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _ []), View.canon_unit_zero zero_off]
    sl_unfold_words
    rw [View.readCov_eq_canon_ld _ _ _ (cover_whole _ _), View.canon_cons_unit_zero (S := S128x32) zero_off,
      View.ld_unit_zero (S := S128x32) zero_off, View.readCov_unit_zero (S := S128x32) _ zero_off]
    simp only [View.readAt_eq_ld, View.ld_unit_zero (S := S10000x128) zero_off, View.ld_unit_zero (S := S10000x32) zero_off]
  · iexists _; isplitr
    swap; · iexact H3
    ipureintro
    sl_unfold_words
    rw [View.read_writes_eq_canon _ _ _ (cover_whole _ _), View.canon_cons_unit_zero (S := S128x32) zero_off,
      View.readCov_unit_zero (S := S128x32) _ zero_off]
    simp only [View.readAt_eq_ld, View.ld_unit_zero (S := S10000x128) zero_off, View.ld_unit_zero (S := S10000x32) zero_off]

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eigenvector window's current staging buffer holds its row tile at every point, for any proof data whose
    array is `V`'s and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the signal's window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running accumulator -/

/-- THE ACCUMULATION. What the scratch (and the output window's staging buffer) holds after the body at point `n`:
    at the first point the zero block plus the first tiles' product, afterwards what the point before left plus this
    point's tiles' product — the body's payload `k0_pay2` over the two tiles and the accumulator it finds. -/
def acc0 (c : Dev nD) : (n : ℕ) → n < cfg0.N → Vec F S128x32 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (acc0 c n (Nat.lt_of_succ_lt hn))

/-- `acc0` at the first point. -/
theorem acc0_first (c : Dev nD) (t : Fin cfg0.N) (h : t.val = 0) :
    acc0 V c t.val t.isLt = k0_pay2 (iblk0 V c 0 t) (iblk0 V c 1 t) (k0_pay1 (F := F)) := by
  obtain ⟨n, hn⟩ := t
  cases n with
  | zero => rfl
  | succ n => exact absurd h (Nat.succ_ne_zero n)

/-- `acc0` at a later point, over what the point before left. -/
theorem acc0_later (c : Dev nD) (t : Fin cfg0.N) (h : t.val ≠ 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd rfl h
  | succ n => rfl

/-! ## The region's invariant -/

/-- The scratch operand: a whole scoped buffer of the kernel's own, passed beside the windows. -/
abbrev scM0 : Memref sig .tc .vmem S128x32 .f32 := Memref.whole cc0_scratch0

/-- A scoped buffer of the core, whole, at some contents. -/
abbrev someAt (c : Dev nD) (b : Ref sig .tc) : sProp 𝕄 :=
  iprop(∃ f : Buf (Elt F) ((c : Thread nD τ).loc b), ((c : Thread nD τ).loc b) ↦{fullShare} f)

/-- The core's scoped buffers that are neither a staging buffer of this region nor its scratch — the staging
    buffers of the two later regions —, each at some contents: the body never touches them. -/
def rest0 (c : Dev nD) : sProp 𝕄 :=
  iprop(someAt (F := F) c cc1_stg0_0 ∗ someAt (F := F) c cc1_stg0_1 ∗ someAt (F := F) c cc1_stg1_0 ∗ someAt (F := F) c cc1_stg2_0
    ∗ someAt (F := F) c cc1_stg2_1 ∗ someAt (F := F) c cc2_stg0_0 ∗ someAt (F := F) c cc2_stg0_1 ∗ someAt (F := F) c cc2_stg1_0
    ∗ someAt (F := F) c cc2_stg2_0 ∗ someAt (F := F) c cc2_stg3_0 ∗ someAt (F := F) c cc2_stg4_0 ∗ someAt (F := F) c cc2_stg5_0
    ∗ someAt (F := F) c cc2_stg5_1)

/-- What the launch hands the region: the scratch at some contents, the other scoped buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; unfold rest0; simp only [scM0, owns_whole]; try rfl

/-- The invariant before position `n`: before the first point what the launch hands over; afterwards the same with
    the scratch at the running accumulator of the point before. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its tile and the output's at the running accumulator; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. At the first point the invariant hands the scratch at anything and the reset case applies;
    at a later point it hands the scratch at the accumulator the point before left and the accumulating case applies.
    Either way the scratch goes back into the invariant at this point's accumulator, which is also what the output's
    staging buffer holds. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases hz : t.val = 0
  · rw [PhiS0_castSucc V c t, PhiS0_zero V c _ _ hz, PhiA0_eq, acc0_first V c t hz]
    iintro ⟨⟨⟨HS, HR⟩, Hg⟩, Ho, ⟨%d0, H0⟩, ⟨%d1, H1⟩, ⟨%d2, H2⟩⟩
    iapply (sound_kernel0_A c Set.univ (grid0.coords t) _ _ _ _ _ _ _ _ ((hcond0 t).mpr hz) (iblk0 V c 0 t) (iblk0 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · rw [PhiS0_castSucc V c t, PhiS0_pos V c _ _ hz, acc0_later V c t hz]
    iintro ⟨⟨⟨HS, HR⟩, Hg⟩, Ho, ⟨%d0, H0⟩, ⟨%d1, H1⟩, ⟨%d2, H2⟩⟩
    iapply (sound_kernel0_B c Set.univ (grid0.coords t) _ _ _ _ _ _ _ _ (fun h => hz ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives that back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitr [Hg]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Cert.Kernel.Hand
end
-- ==== Proof.KRegion1.lean ====
/- Region 1 of @main (the pallas_call of `cc1__spectral_broadcast_kernel`, pipeline 1, a grid of 10 points), at a
   PARAMETER `V`: the TensorCore's buffer contents when the region is entered.

   At grid point `t` the body reads two whole staging buffers — window 0's, a block of 10000 rows of the
   [100000,128] eigenvector array, and window 1's, the whole [128,32] coefficient array, whose block index never
   moves — and overwrites window 2's staging buffer, 10000 rows of the [100000,32] result, with ONE store of the
   whole block.  The stored value is the skeleton's payload `k1_pay1` of the two loads: the product of the row
   block with the coefficients, each row divided by the larger of its Euclidean norm and a literal.  So what the body
   leaves in the output buffer is a closed function `out1_2` of the two input blocks, whatever the buffer held
   before (the body also loads the output buffer before the store; the loaded value is never used).

   Everything here is generic in the float instance `F`. -/
import proofs.«145947_j31421980738206_1_alg».proof.Proof.Gen.Kernel.Launch
import proofs.«145947_j31421980738206_1_alg».proof.Proof.Gen.Kernel.Skeleton
import proofs.«145947_j31421980738206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current staging buffer holds its block at every point although it is fetched at the first point
    only: its block index never moves, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its staging buffer -/

abbrev r1_0 : Rect S10000x128 := Rect.unit (s := S10000x128) ![0, 0] S10000x128.size inb_S10000x128_S10000x128_0_0
abbrev r1_1 : Rect S128x32 := Rect.unit (s := S128x32) ![0, 0] S128x32.size inb_S128x32_S128x32_0_0
abbrev r1_2 : Rect S10000x32 := Rect.unit (s := S10000x32) ![0, 0] S10000x32.size inb_S10000x32_S10000x32_0_0

/-! ## What the body leaves in the output window's buffer -/

/-- Window 2's staging buffer after the body, from the two input blocks: its one store, of the payload of the two
    loads, through the whole buffer. -/
def out1_2 (x0 : Vec F S10000x128 .f32) (x1 : Vec F S128x32 .f32) : Vec F S10000x32 .f32 :=
  View.canon [⟨r1_2, k1_pay1 (View.ld x0 r1_0) (View.ld x1 r1_1)⟩]

/-- The one store is through the whole buffer, so it covers it. -/
theorem cover1_2 (p0 : Vec F S10000x32 .f32) (y : S10000x32.Idx) :
    ∃ pc ∈ ([⟨r1_2, p0⟩] : List (View.Piece (Elt F) S10000x32 .f32)), y ∈ pc.1.set :=
  View.cover_of_tiled [⟨r1_2, p0⟩] S10000x32.size (by rfl) y

/-! ## The body's triple -/

set_option maxHeartbeats 1000000 in
/-- The kernel body on whole staging memrefs, the inputs' at read contents `x0`, `x1` and the output's at anything,
    runs to the continuation holding the inputs' as they were and the output's at `out1_2 x0 x1`. -/
theorem sound_kernel1 (c : Dev nD) (E : Set ℕ) (i : grid1.Coords) (arg1 : Memref sig .tc .vmem S10000x128 .f32) (harg1 : arg1.IsWhole)
    (arg2 : Memref sig .tc .vmem S128x32 .f32) (harg2 : arg2.IsWhole) (arg3 : Memref sig .tc .vmem S10000x32 .f32) (harg3 : arg3.IsWhole)
    (x0 : Vec F S10000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__spectral_broadcast_kernel i arg1 harg1 arg2 harg2 arg3 harg3) K := by
  simp only [cc1__spectral_broadcast_kernel_eq_skeleton]; unfold cc1__spectral_broadcast_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at `out1_2` of the two input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant is the same at every point: entering and leaving the region cost nothing. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«145947_j31421980738206_1_alg».proof.Proof.Gen.Kernel.Launch
import proofs.«145947_j31421980738206_1_alg».proof.Proof.Gen.Kernel.Skeleton
import proofs.«145947_j31421980738206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third region: a two-layer perceptron applied to row tiles

The region walks twenty row tiles of a feature matrix with 100000 rows and 224 columns. At each tile it
holds the tile's 5000 rows, both weight matrices and both bias rows, and leaves in the output tile
`relu (tile · W₁ + b₁) · W₂ + b₂`. Only the feature tile and the output tile change from one tile to the
next; the weights and biases have one block each, which is the whole array.

Everything here is stated at an arbitrary assignment `V` of contents to the buffers at the moment the
region is entered, and at an arbitrary float instance. The file gives, for that `V`: each operand's block at
a tile (`iblk2`), the output tile as a function of the five input blocks (`out2_5`), the statement that the
body run on buffers holding those blocks leaves exactly that (`sound_kernel2`), and the resulting
per-tile obligation of the pipeline (`body_obligation2`).
-/

-- a rectangle with 5000 rows: checking that one store tiles it recurses once per row
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## Blocks -/

/-- Operand `w`'s block at tile `t`: the part of its array, as the region finds it, that the tile's index
    map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input whose array is `V`'s and whose block the body leaves in place is found, at every tile, holding
that tile's block: either it was just fetched, or its block index has not moved since the tile before. This
covers the feature tiles (fetched at every tile) and the weights and biases (fetched once) alike. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes -/

abbrev r2_0 : Rect S5000x224 := Rect.unit (s := S5000x224) ![0, 0] S5000x224.size inb_S5000x224_S5000x224_0_0
abbrev r2_1 : Rect S224x256 := Rect.unit (s := S224x256) ![0, 0] S224x256.size inb_S224x256_S224x256_0_0
abbrev r2_2 : Rect S1x256 := Rect.unit (s := S1x256) ![0, 0] S1x256.size inb_S1x256_S1x256_0_0
abbrev r2_3 : Rect S256x64 := Rect.unit (s := S256x64) ![0, 0] S256x64.size inb_S256x64_S256x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-- The output tile after the body, as a function of the five input blocks: one store of the whole tile,
    whose value is the perceptron applied to what the five loads return. -/
def out2_5 (x0 : Vec F S5000x224 .f32) (x1 : Vec F S224x256 .f32) (x2 : Vec F S1x256 .f32) (x3 : Vec F S256x64 .f32) (x4 : Vec F S1x64 .f32) : Vec F S5000x64 .f32 :=
  View.canon [⟨r2_5, k2_pay1 (View.ld x0 r2_0) (View.ld x1 r2_1) (View.ld x2 r2_2) (View.ld x3 r2_3) (View.ld x4 r2_4)⟩]

/-- That one store covers the output tile. -/
theorem cover2_5 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

/-! ## The body on buffers holding the blocks -/

set_option maxHeartbeats 1000000 in
/-- Run on six whole buffers, the five inputs holding `x0 … x4` and the output holding anything, the body ends
    with the inputs unchanged and the output at `out2_5 x0 … x4`. (The body also loads the output tile before
    storing into it; the loaded value is not used.) -/
theorem sound_kernel2 (c : Dev nD) (E : Set ℕ) (i : grid2.Coords) (arg1 : Memref sig .tc .vmem S5000x224 .f32) (harg1 : arg1.IsWhole) (arg2 : Memref sig .tc .vmem S224x256 .f32) (harg2 : arg2.IsWhole) (arg3 : Memref sig .tc .vmem S1x256 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x224 .f32) (x1 : Vec F S224x256 .f32) (x2 : Vec F S1x256 .f32) (x3 : Vec F S256x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The data the pipeline's soundness theorem is instantiated at: each operand's array is `V`'s; after the
    body at tile `t` every input buffer still holds its block and the output buffer holds `out2_5` of the five
    input blocks; the invariant carried from tile to tile is the region's untouched remainder; nothing is owed;
    every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The data's arrays are the contents at entry. -/
theorem A_eq2 (c : Dev nD) (w : Fin cfg2.W) : (dat2 V c).A w = V c (Pipeline.arrRef spec2 w) := by
  dsimp only [dat2]

/-! What the body leaves, operand by operand. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-! Every input buffer holds its block when the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- The carried invariant is the region's untouched remainder, on the way in -/
theorem hin2 (c : Dev nD) : Pipeline.ΦA spec2 c ⊢ (dat2 V c).Φ 0 := by
  rw [show (dat2 V c).Φ 0 = Pipeline.ΦA spec2 c from rfl]

/-- and on the way out. -/
theorem hout2 (c : Dev nD) : (dat2 V c).Φ (Fin.last cfg2.N) ⊢ Pipeline.ΦA spec2 c := by
  rw [show (dat2 V c).Φ (Fin.last cfg2.N) = Pipeline.ΦA spec2 c from rfl]

/-! ## The obligation at a tile -/

/-- What the body is handed at tile `t`: the invariant, what is owed, and the six current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the input buffers hold their blocks, so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrames.lean ====
/-
  The three pipelines' proof data — the spectral reduction with its accumulator carried across grid points, the
  row-normalised spectral broadcast, and the fused two-layer projection — meet the interface the run of @main is
  stated over; hence the frame of the whole program.
-/
import proofs.«145947_j31421980738206_1_alg».proof.Proof.KRun
import proofs.«145947_j31421980738206_1_alg».proof.Proof.KRegion0
import proofs.«145947_j31421980738206_1_alg».proof.Proof.KRegion1
import proofs.«145947_j31421980738206_1_alg».proof.Proof.KRegion2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-- The proof data of the three pipelines, at any entry contents, as the run takes them. -/
def iface : Iface F where
  dat0 := Cert.Kernel.Hand.dat0
  dat1 := Cert.Kernel.Hand.dat1
  dat2 := Cert.Kernel.Hand.dat2
  hA0 := A_eq0
  hA1 := A_eq1
  hA2 := A_eq2
  hq0 := fun _ _ _ => rfl
  hq1 := fun _ _ _ => rfl
  hq2 := fun _ _ _ => rfl
  howed0 := fun _ _ _ => rfl
  howed1 := fun _ _ _ => rfl
  howed2 := fun _ _ _ => rfl
  hrec0 := fun _ _ _ => rfl
  hrec1 := fun _ _ _ => rfl
  hrec2 := fun _ _ _ => rfl
  hbody0 := body_obligation0
  hbody1 := body_obligation1
  hbody2 := body_obligation2
  hin0 := hin0
  hin1 := hin1
  hin2 := hin2
  hout0 := hout0
  hout1 := hout1
  hout2 := hout2

end Cert.Kernel.Hand

end
-- ==== Proof.Tile0.lean ====
/-
  The arithmetic of region 0's body at an entry, over the extended reals. The body's accumulating payload is
  "accumulator + (tile of eigenvectors)ᵀ · (tile of the signal)": at entry (p, q) of the [128,32] block that is the
  accumulator's entry plus the sum over the tile's 10000 rows r of eigenvector entry (r, p) times signal entry
  (r, q) — the matmul contracts axis 0 of BOTH operands. The changes of float format are the identity on
  extended reals and the matmul accumulates into the zero block, so nothing else is left of the payload.
-/
import proofs.«145947_j31421980738206_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.ValueIdx
open Cert.KernelIdeal.Gen
open scoped BigOperators

/-- The zero block at an entry: the extended real zero. -/
theorem k0_pay1_apply (p : Fin 128) (q : Fin 32) : k0_pay1 (F := Ideal) (ix2 p q) = 0 := by
  unfold k0_pay1
  rw [shapeCast_self]
  exact Ideal.ofBits_zero_f32

/-- Where the matmul reads its operands: the left operand at (contraction index, first output coordinate), the
    right at (contraction index, second output coordinate). -/
theorem lhs_tile_0 (j : S128x32.Idx) (k : dot_S10000x128_S10000x32_S128x32_0_0_1_1_n_n.contr.Idx) :
    (dot_S10000x128_S10000x32_S128x32_0_0_1_1_n_n.lhsIdx j k 0).val = (k ⟨0, by decide⟩).val :=
  dot_S10000x128_S10000x32_S128x32_0_0_1_1_n_n.lhsIdx_val_of_single rfl j k
theorem lhs_tile_1 (j : S128x32.Idx) (k : dot_S10000x128_S10000x32_S128x32_0_0_1_1_n_n.contr.Idx) :
    (dot_S10000x128_S10000x32_S128x32_0_0_1_1_n_n.lhsIdx j k 1).val = (j 0).val := by
  unfold DotDims.lhsIdx
  rw [dif_neg (show ¬(1 : Fin S10000x128.rank) ∈ dot_S10000x128_S10000x32_S128x32_0_0_1_1_n_n.lhsBatch by decide), dif_pos (show (1 : Fin S10000x128.rank) ∈ dot_S10000x128_S10000x32_S128x32_0_0_1_1_n_n.lhsNonContracting by decide)]
  rfl
theorem rhs_tile_0 (j : S128x32.Idx) (k : dot_S10000x128_S10000x32_S128x32_0_0_1_1_n_n.contr.Idx) :
    (dot_S10000x128_S10000x32_S128x32_0_0_1_1_n_n.rhsIdx j k 0).val = (k ⟨0, by decide⟩).val :=
  dot_S10000x128_S10000x32_S128x32_0_0_1_1_n_n.rhsIdx_val_of_single rfl j k
theorem rhs_tile_1 (j : S128x32.Idx) (k : dot_S10000x128_S10000x32_S128x32_0_0_1_1_n_n.contr.Idx) :
    (dot_S10000x128_S10000x32_S128x32_0_0_1_1_n_n.rhsIdx j k 1).val = (j 1).val := by
  unfold DotDims.rhsIdx
  rw [dif_neg (show ¬(1 : Fin S10000x32.rank) ∈ dot_S10000x128_S10000x32_S128x32_0_0_1_1_n_n.rhsBatch by decide), dif_pos (show (1 : Fin S10000x32.rank) ∈ dot_S10000x128_S10000x32_S128x32_0_0_1_1_n_n.rhsNonContracting by decide)]
  rfl

/-- The accumulating payload at an entry (p, q): the accumulator there plus the sum, over the 10000 rows of the
    tile, of eigenvector entry (r, p) times signal entry (r, q) — the product of the transposed tile with the tile. -/
theorem k0_pay2_apply (x0 : Vec Ideal S10000x128 .f32) (x1 : Vec Ideal S10000x32 .f32) (s : Vec Ideal S128x32 .f32)
    (p : Fin 128) (q : Fin 32) :
    k0_pay2 x0 x1 s (ix2 p q) = s (ix2 p q) + ∑ r : Fin 10000, x0 (ix2 r p) * x1 (ix2 r q) := by
  unfold k0_pay2
  rw [shapeCast_self]
  refine (addf_apply _ _ _).trans (congrArg (s (ix2 p q) + ·) ?_)
  refine (Ideal.matmul_constant_zero_apply dot_S10000x128_S10000x32_S128x32_0_0_1_1_n_n none
    (truncf .bf16 x0 bitsLt_bf16_f32) (truncf .bf16 x1 bitsLt_bf16_f32) (ix2 p q)).trans ?_
  rw [← Equiv.sum_comp (contrEquiv1 dot_S10000x128_S10000x32_S128x32_0_0_1_1_n_n 10000 rfl rfl).symm]
  refine Finset.sum_congr rfl fun k _ => ?_
  have hk := contrEquiv1_symm_val dot_S10000x128_S10000x32_S128x32_0_0_1_1_n_n 10000 rfl rfl k
  have el : dot_S10000x128_S10000x32_S128x32_0_0_1_1_n_n.lhsIdx (ix2 p q) ((contrEquiv1 dot_S10000x128_S10000x32_S128x32_0_0_1_1_n_n 10000 rfl rfl).symm k) = ix2 k p := funext fun a => Fin.ext (by
    match a with
    | ⟨0, _⟩ => exact (lhs_tile_0 _ _).trans hk
    | ⟨1, _⟩ => exact lhs_tile_1 _ _)
  have er : dot_S10000x128_S10000x32_S128x32_0_0_1_1_n_n.rhsIdx (ix2 p q) ((contrEquiv1 dot_S10000x128_S10000x32_S128x32_0_0_1_1_n_n 10000 rfl rfl).symm k) = ix2 k q := funext fun a => Fin.ext (by
    match a with
    | ⟨0, _⟩ => exact (rhs_tile_0 _ _).trans hk
    | ⟨1, _⟩ => exact rhs_tile_1 _ _)
  rw [el, er]
  rfl

end Cert.KernelIdeal.Hand
end
-- ==== Proof.Value0.lean ====
/-
  The value of region 0 over the extended reals: the result array main_v6 ends holding, at entry (p, q), the
  sum over ALL 100000 rows k of eigenvector entry (k, p) times signal entry (k, q) (`coefSum`: the product of the
  transposed eigenvector array with the signal). The kernel reaches it tile by tile: after the body at point n the accumulator
  holds 0 + the sum over the rows below (n + 1)·10000 (row r of tile t is row t·10000 + r of the arrays), by
  induction on the point; the only law used is regrouping a finite sum (associativity of + on the extended
  reals), so no finiteness hypothesis enters. The output window's block never moves and is written back after
  the last point, so the array ends at the accumulator of point 9.
-/
import proofs.«145947_j31421980738206_1_alg».proof.Proof.Region0
import proofs.«145947_j31421980738206_1_alg».proof.Proof.Tile0
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal.Gen
open scoped BigOperators

variable (V : (c : Dev nD) → (b : Ref sig .tc) → Buf (Elt Ideal) ((c : Thread nD τ).loc b))

/-! ## Where the windows' blocks sit -/

/-- The eigenvector window's block at point `t` is row tile `t`, all columns. -/
theorem idx0_0 : ∀ t : Fin cfg0.N, win0_0.index t 0 = t.val ∧ win0_0.index t 1 = 0 :=
  (by decide +kernel : ∀ t : Fin grid0.N, win0_0.index t 0 = t.val ∧ win0_0.index t 1 = 0)
/-- The signal's likewise. -/
theorem idx0_1 : ∀ t : Fin cfg0.N, win0_1.index t 0 = t.val ∧ win0_1.index t 1 = 0 :=
  (by decide +kernel : ∀ t : Fin grid0.N, win0_1.index t 0 = t.val ∧ win0_1.index t 1 = 0)
/-- The output's block is the whole array at every point. -/
theorem idx0_2 : ∀ t : Fin cfg0.N, win0_2.index t 0 = 0 ∧ win0_2.index t 1 = 0 :=
  (by decide +kernel : ∀ t : Fin grid0.N, win0_2.index t 0 = 0 ∧ win0_2.index t 1 = 0)

/-- Row `r` of the eigenvector tile at point `n` is row `n·10000 + r` of the array. -/
theorem iblk0_0_apply (c : Dev nD) (n : ℕ) (hn : n < cfg0.N) (r : Fin 10000) (p : Fin 128) (h : n * 10000 + r.val < 100000) :
    (iblk0 V c 0 ⟨n, hn⟩ : Vec Ideal S10000x128 .f32) (ix2 r p)
      = (V c main_arg2 : Vec Ideal S100000x128 .f32) (ix2 ⟨n * 10000 + r.val, h⟩ p) := by
  have hi : win0_0.index ⟨n, hn⟩ 0 = n ∧ win0_0.index ⟨n, hn⟩ 1 = 0 := idx0_0 ⟨n, hn⟩
  unfold iblk0
  rw [View.read_apply]
  show V c main_arg2 _ = V c main_arg2 _
  congr 1
  funext a
  apply Fin.ext
  match a with
  | ⟨0, _⟩ => show win0_0.index ⟨n, hn⟩ 0 * 10000 + 1 * r.val = n * 10000 + r.val; rw [hi.1]; omega
  | ⟨1, _⟩ => show win0_0.index ⟨n, hn⟩ 1 * 128 + 1 * p.val = p.val; rw [hi.2]; omega

/-- Row `r` of the signal's tile at point `n` is row `n·10000 + r` of the array. -/
theorem iblk0_1_apply (c : Dev nD) (n : ℕ) (hn : n < cfg0.N) (r : Fin 10000) (q : Fin 32) (h : n * 10000 + r.val < 100000) :
    (iblk0 V c 1 ⟨n, hn⟩ : Vec Ideal S10000x32 .f32) (ix2 r q)
      = (V c main_arg0 : Vec Ideal S100000x32 .f32) (ix2 ⟨n * 10000 + r.val, h⟩ q) := by
  have hi : win0_1.index ⟨n, hn⟩ 0 = n ∧ win0_1.index ⟨n, hn⟩ 1 = 0 := idx0_1 ⟨n, hn⟩
  unfold iblk0
  rw [View.read_apply]
  show V c main_arg0 _ = V c main_arg0 _
  congr 1
  funext a
  apply Fin.ext
  match a with
  | ⟨0, _⟩ => show win0_1.index ⟨n, hn⟩ 0 * 10000 + 1 * r.val = n * 10000 + r.val; rw [hi.1]; omega
  | ⟨1, _⟩ => show win0_1.index ⟨n, hn⟩ 1 * 32 + 1 * q.val = q.val; rw [hi.2]; omega

/-! ## The sum, row by row -/

/-- The term of the sum at row `k` for the entry (p, q): eigenvector entry (k, p) times signal entry (k, q) — zero
    past the arrays' 100000 rows, which no sum below reaches. -/
def term0 (X2 : Vec Ideal S100000x128 .f32) (X0 : Vec Ideal S100000x32 .f32) (p : Fin 128) (q : Fin 32) (k : ℕ) : EReal :=
  if h : k < 100000 then X2 (ix2 ⟨k, h⟩ p) * X0 (ix2 ⟨k, h⟩ q) else 0

/-- The product of two tiles at an entry, when the tiles are rows `n·10000 … n·10000 + 9999` of the arrays: the terms
    of those rows. -/
theorem tile_sum (X2 : Vec Ideal S100000x128 .f32) (X0 : Vec Ideal S100000x32 .f32)
    (x0 : Vec Ideal S10000x128 .f32) (x1 : Vec Ideal S10000x32 .f32) (n : ℕ) (hN : n < 10)
    (h0 : ∀ (r : Fin 10000) (p : Fin 128) (h : n * 10000 + r.val < 100000), x0 (ix2 r p) = X2 (ix2 ⟨n * 10000 + r.val, h⟩ p))
    (h1 : ∀ (r : Fin 10000) (q : Fin 32) (h : n * 10000 + r.val < 100000), x1 (ix2 r q) = X0 (ix2 ⟨n * 10000 + r.val, h⟩ q))
    (p : Fin 128) (q : Fin 32) :
    ∑ r : Fin 10000, x0 (ix2 r p) * x1 (ix2 r q) = ∑ r ∈ Finset.range 10000, term0 X2 X0 p q (n * 10000 + r) := by
  rw [Finset.sum_range (fun r => term0 X2 X0 p q (n * 10000 + r))]
  refine Finset.sum_congr rfl fun r _ => ?_
  have h : n * 10000 + r.val < 100000 := by have := r.isLt; omega
  rw [h0 r p h, h1 r q h]
  unfold term0; rw [dif_pos h]

/-- THE ACCUMULATOR IN CLOSED FORM: after the body at point `n` its entry (p, q) is zero plus the terms of the rows
    below `(n + 1)·10000` — by induction on the point; each step appends one tile's terms (`Finset.sum_range_add`). -/
theorem acc0_apply (c : Dev nD) (p : Fin 128) (q : Fin 32) : ∀ (n : ℕ) (hn : n < cfg0.N),
    (acc0 V c n hn : Vec Ideal S128x32 .f32) (ix2 p q)
      = 0 + ∑ k ∈ Finset.range ((n + 1) * 10000), term0 (V c main_arg2) (V c main_arg0) p q k
  | 0, hn => by
    refine (k0_pay2_apply (iblk0 V c 0 ⟨0, hn⟩) (iblk0 V c 1 ⟨0, hn⟩) (k0_pay1 (F := Ideal)) p q).trans ?_
    refine (congrArg₂ (· + ·) (k0_pay1_apply p q) (tile_sum (V c main_arg2) (V c main_arg0) (iblk0 V c 0 ⟨0, hn⟩) (iblk0 V c 1 ⟨0, hn⟩) 0
      (by decide) (iblk0_0_apply V c 0 hn) (iblk0_1_apply V c 0 hn) p q)).trans ?_
    simp only [Nat.zero_mul, Nat.zero_add, Nat.one_mul]
  | n + 1, hn => by
    have hN : n + 1 < 10 := lt_of_lt_of_eq hn N_0
    refine (k0_pay2_apply (iblk0 V c 0 ⟨n + 1, hn⟩) (iblk0 V c 1 ⟨n + 1, hn⟩) (acc0 V c n (Nat.lt_of_succ_lt hn)) p q).trans ?_
    refine (congrArg₂ (· + ·) (acc0_apply c p q n (Nat.lt_of_succ_lt hn)) (tile_sum (V c main_arg2) (V c main_arg0)
      (iblk0 V c 0 ⟨n + 1, hn⟩) (iblk0 V c 1 ⟨n + 1, hn⟩) (n + 1) hN (iblk0_0_apply V c (n + 1) hn) (iblk0_1_apply V c (n + 1) hn) p q)).trans ?_
    rw [add_assoc, show (n + 1 + 1) * 10000 = (n + 1) * 10000 + 10000 by ring, Finset.sum_range_add]

/-! ## The result array -/

/-- THE SPECIFICATION: the spectral coefficients — entry (p, q) is the sum over all 100000 rows k of eigenvector
    entry (k, p) times signal entry (k, q). -/
def coefSum (X2 : Vec Ideal S100000x128 .f32) (X0 : Vec Ideal S100000x32 .f32) : Vec Ideal S128x32 .f32 :=
  fun j => ∑ k : Fin 100000, X2 (ix2 k (j 0)) * X0 (ix2 k (j 1))

/-- After the last point the accumulator is the specification: the same 100000 terms, entry by entry. -/
theorem acc0_last (c : Dev nD) (t : Fin cfg0.N) (h9 : t.val = 9) :
    (acc0 V c t.val t.isLt : Vec Ideal S128x32 .f32) = coefSum (V c main_arg2) (V c main_arg0) := by
  obtain ⟨n, hn⟩ := t
  obtain rfl : n = 9 := h9
  funext j
  obtain ⟨p, q, rfl⟩ : ∃ (p : Fin 128) (q : Fin 32), j = ix2 p q := ⟨j 0, j 1, eq_ix2 j⟩
  rw [acc0_apply V c p q 9 hn, zero_add, show (9 + 1) * 10000 = 100000 from rfl, Finset.sum_range]
  unfold coefSum
  refine Finset.sum_congr rfl fun k _ => ?_
  unfold term0
  rw [dif_pos k.isLt]

/-- What the one write-back (after the last point) writes is the whole of that array: the output's block is the array. -/
theorem flushed0_eq (c : Dev nD) (t : Fin cfg0.N) (hf : (cfg0.win 2).flush t = true) :
    (dat0 V c).flushed 2 t
      = ((cfg0.win 2).blk t).view.read (Elt Ideal) (coefSum (V c main_arg2) (V c main_arg0)) := by
  have hN : cfg0.N = 10 := N_0
  have h9 : t.val = 9 := by have := (flush0_2 t).mp hf; have := t.isLt; omega
  show (cfg0.win 2).cut (grid0.coords t) ((dat0 V c).after 2 t) = _
  rw [after0_2, acc0_last V c t h9]
  have hi := idx0_2 t
  have hz' : (fun a => win0_2.index t a * main_v6.ty.shape.size a) = fun _ => 0 := funext fun a => by
    match a with
    | ⟨0, _⟩ => show win0_2.index t 0 * _ = 0; rw [hi.1, Nat.zero_mul]
    | ⟨1, _⟩ => show win0_2.index t 1 * _ = 0; rw [hi.2, Nat.zero_mul]
  exact (Memref.read_access_unit_zero (Elt Ideal) main_v6 hz' (fun a => by rw [congrFun hz' a]; simp) _).symm

/-- REGION 0's RESULT: the array main_v6 ends holding the spectral coefficients of the region-entry contents of the
    eigenvectors (main_arg2) and the signal (main_arg0). -/
theorem final0 (c : Dev nD) :
    (dat0 V c).arrAt 2 cfg0.N = coefSum (V c main_arg2) (V c main_arg0) :=
  (dat0 V c).arrAt_eq_of_cover 2 _ (flushed0_eq V c) fun i =>
    ⟨t0_9, (flush0_2 t0_9).mpr rfl, by
      show i ∈ ((View.whole main_v6).slice (win0_2.rect t0_9)).set
      rw [View.set_slice_whole, Rect.mem_set_unit]
      intro a
      have h0 : (i 0 : Nat) < 128 := (i 0).isLt
      have h1 : (i 1 : Nat) < 32 := (i 1).isLt
      match a with
      | ⟨0, _⟩ => show win0_2.index t0_9 0 * win0_2.size 0 ≤ (i 0 : Nat) ∧ (i 0 : Nat) < win0_2.index t0_9 0 * win0_2.size 0 + win0_2.xsize (grid0.coords t0_9) 0
                  rw [show win0_2.index t0_9 0 * win0_2.size 0 = 0 from by decide +kernel, show win0_2.xsize (grid0.coords t0_9) 0 = 128 from by decide +kernel]; omega
      | ⟨1, _⟩ => show win0_2.index t0_9 1 * win0_2.size 1 ≤ (i 1 : Nat) ∧ (i 1 : Nat) < win0_2.index t0_9 1 * win0_2.size 1 + win0_2.xsize (grid0.coords t0_9) 1
                  rw [show win0_2.index t0_9 1 * win0_2.size 1 = 0 from by decide +kernel, show win0_2.xsize (grid0.coords t0_9) 1 = 32 from by decide +kernel]; omega⟩

end Cert.KernelIdeal.Hand
end
-- ==== Proof.Ref0.lean ====
/-
  The specification of region 0 is the reference's stage: the reference transposes the eigenvector array and takes
  the host dot_general with the signal, which at entry (p, q) is the sum over the 100000 rows k of the transposed
  array's entry (p, k) — eigenvector entry (k, p) — times signal entry (k, q): the same terms as `coefSum`.
-/
import proofs.«145947_j31421980738206_1_alg».proof.Proof.Value0
import proofs.«145947_j31421980738206_1_alg».proof.Proof.RefReadP

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open scoped BigOperators

/-- The spectral coefficients are the reference's `dot_general` of the transposed eigenvectors with the signal. -/
theorem coefSum_eq_ref (X2 : Vec Ideal S100000x128 .f32) (X0 : Vec Ideal S100000x32 .f32) :
    coefSum X2 X0 = Cert.ReferenceIdeal.ReadP.val_main_v3 (F := Ideal) X0 X2 := by
  funext j
  obtain ⟨p, q, rfl⟩ : ∃ (p : Fin 128) (q : Fin 32), j = ix2 p q := ⟨j 0, j 1, eq_ix2 j⟩
  rw [Cert.ReferenceIdeal.ReadP.val_main_v3_apply]
  unfold coefSum
  refine Finset.sum_congr rfl fun k _ => ?_
  rw [Cert.ReferenceIdeal.ReadP.val_main_v2_apply]
  have e1 : Cert.ReferenceIdeal.ReadP.idx_main_v2 (Cert.ReferenceIdeal.ReadP.lidx_main_v3 (ix2 p q) k) = ix2 k p :=
    funext fun a => match a with | ⟨0, _⟩ => rfl | ⟨1, _⟩ => rfl
  have e2 : Cert.ReferenceIdeal.ReadP.ridx_main_v3 (ix2 p q) k = ix2 k q :=
    funext fun a => match a with | ⟨0, _⟩ => rfl | ⟨1, _⟩ => rfl
  rw [e1, e2]

variable (V : (c : Dev nD) → (b : Ref sig .tc) → Buf (Elt Ideal) ((c : Thread nD τ).loc b))

/-- REGION 0's RESULT against the reference: the array main_v6 ends holding the reference's stage `val_main_v3` of
    the region-entry contents of the signal (main_arg0) and the eigenvectors (main_arg2). -/
theorem final0_ref (c : Dev nD) :
    (dat0 V c).arrAt 2 cfg0.N = Cert.ReferenceIdeal.ReadP.val_main_v3 (F := Ideal) (V c main_arg0) (V c main_arg2) :=
  (final0 V c).trans (coefSum_eq_ref (V c main_arg2) (V c main_arg0))

end Cert.KernelIdeal.Hand
end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«145947_j31421980738206_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibRowForms.lean ====
/-
  Rows and columns of a matrix and of a three-axis array, read at an index, for any sizes.

  A vector of row values kept as a column ([a] viewed [a, 1]) and repeated across the columns ([a, 1] to [a, b]); a middle
  unit axis added to a matrix ([a, b] viewed [a, 1, b]) and an array repeated along a unit axis in the middle ([a, 1, c] to
  [a, b, c]), along a leading one ([1, b, c] to [a, b, c]) or along both ([c] viewed [1, 1, c], then [1, 1, c] to [a, b, c]):
  each result entry is one operand entry, named here by coordinates. And, over the exact extended reals, the sum and the
  maximum of a matrix along its rows: at row r the sum over the columns k of the entry (r, k), and the fold of max over them
  from the accumulator's value.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowForms

open Idealize.ShloMosaic Idealize.ShloMosaic.ValueIdx

section Layout
variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array broadcast to `[a, b]` reads, at `(r, c)`, the operand's row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if 1 = 1 then 0 else c.val
    rfl

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if 1 = 1 then 0 else j.val
    rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show 0 = if 1 = 1 then 0 else i.val
    rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` array cast to `[1, 1, c]` reads, at `(u, w, k)`, the operand at `k`. -/
theorem shapeCast_c_11c_apply {c : ℕ} (x : (⟨1, ![c]⟩ : Shape).Idx → α) (h : (⟨1, ![c]⟩ : Shape).ShapeCasts ⟨3, ![1, 1, c]⟩)
    (u w : Fin 1) (k : Fin c) : shapeCast ⟨3, ![1, 1, c]⟩ x h (ix3 u w k) = x (ix1 k) :=
  shapeCast_apply x h _ _ (by
    have hu : u.val = 0 := by omega
    have hw : w.val = 0 := by omega
    rw [Shape.rowMajor_val_three, Shape.rowMajor_val_one]
    show k.val = (u.val * 1 + w.val) * c + k.val
    rw [hu, hw]
    simp)

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show 0 = if 1 = 1 then 0 else i.val
    rfl
  | ⟨1, _⟩ =>
    show 0 = if 1 = 1 then 0 else j.val
    rfl
  | ⟨2, _⟩ =>
    show k.val = if c = 1 then 0 else k.val
    split
    · have := k.isLt; omega
    · rfl

end Layout

section Reductions
variable {φ : FTy} {a b : ℕ}

/-- Reducing a matrix along its rows, the index of row `r` with column `k` put back is `(r, k)`. -/
theorem lift_row (h : (⟨2, ![a, b]⟩ : Shape).Reduces [(1 : Fin 2)] ⟨1, ![a]⟩) (r : Fin a) (k : Fin b) :
    h.lift (ix1 r) k = ix2 r k :=
  funext fun c => Fin.ext (by
    match c with
    | ⟨0, _⟩ => rfl
    | ⟨1, _⟩ => rfl)

/-- The sum of a matrix along its rows, over the exact extended reals: at row `r`, the sum over the columns. -/
theorem multiReduction_add_row (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single src acc h hφ hacc (ix1 r)]
  exact Finset.sum_congr rfl fun k _ => congrArg src (lift_row h r k)

/-- The maximum of a matrix along its rows, over the exact extended reals: at row `r`, the fold of `max` over the columns
    from the accumulator's value. -/
theorem multiReduction_max_row (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ)
    (r : Fin a) :
    multiReduction .maximumf [(1 : Fin 2)] ⟨1, ![a]⟩ src acc h hφ hacc (ix1 r)
      = (Finset.univ : Finset (Fin b)).fold max (Ideal.ofBits φ acc) fun k => src (ix2 r k) := by
  rw [Ideal.multiReduction_maximumf_single src acc h hφ hacc (ix1 r)]
  exact congrArg (Finset.fold max (Ideal.ofBits φ acc) · (Finset.univ : Finset (Fin b))) (funext fun k => congrArg src (lift_row h r k))

end Reductions

end Cert.LibRowForms

end
-- ==== Proof.Value1.lean ====
/- Region 1's result array as one function of its two operand arrays.

   Entry (i, c) of the result is y(i, c) / max(sqrt(Σ_j y(i, j)²), ε) with y = E · C, E the [100000,128] eigenvector
   array, C the [128,32] coefficient array and ε the literal with word 0x2B8CBCCC.  A row of the result depends on the
   same row of E only, so the block of 10000 rows that grid point t writes back — the body's payload of rows
   10000·t … 10000·t + 9999 of E and of the whole of C — is that block of rows of the one function, and the ten
   blocks tile the array: row r is in block r / 10000.  On the reference's side the same entry is read off the
   stages of the reference program, its product a sum over the same 128 terms and its sum of squares over the same 32. -/
import proofs.«145947_j31421980738206_1_alg».proof.Proof.Region1
import proofs.«145947_j31421980738206_1_alg».proof.Proof.LibPlainDot
import proofs.«145947_j31421980738206_1_alg».proof.Proof.LibRowForms
import proofs.«145947_j31421980738206_1_alg».proof.Proof.RefReadP
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal.Gen
open Idealize.ShloMosaic Idealize.ShloMosaic.TcCoe Idealize.ShloMosaic.ValueIdx Idealize.SL.Sem
open Idealize.ShloMosaic.Pipeline (Dat)

/-! ## The specification -/

/-- Entry (p, c) of the product of an [n,128] matrix with a [128,32] matrix. -/
def rowDot {n : ℕ} (E : (⟨2, ![n, 128]⟩ : Shape).Idx → EReal) (C : (⟨2, ![128, 32]⟩ : Shape).Idx → EReal) (p : Fin n) (c : Fin 32) : EReal :=
  ∑ k : Fin 128, E (ix2 p k) * C (ix2 k c)

/-- Entry (p, c) of the product with each row divided by the larger of the row's Euclidean norm and the literal with
    word 0x2B8CBCCC; the sum of squares starts from the zero word. -/
def rowNormed {n : ℕ} (E : (⟨2, ![n, 128]⟩ : Shape).Idx → EReal) (C : (⟨2, ![128, 32]⟩ : Shape).Idx → EReal) (p : Fin n) (c : Fin 32) : EReal :=
  Ideal.div (rowDot E C p c)
    (max (Ideal.sqrt (Ideal.ofBits .f32 0x00000000#32 + ∑ j : Fin 32, rowDot E C p j * rowDot E C p j)) (Ideal.ofBits .f32 0x2B8CBCCC#32))

/-- Region 1's result array, index by index, from the eigenvector array `E` and the coefficient array `C`. -/
def X1 (E : (⟨2, ![100000, 128]⟩ : Shape).Idx → EReal) (C : (⟨2, ![128, 32]⟩ : Shape).Idx → EReal) :
    (⟨2, ![100000, 32]⟩ : Shape).Idx → EReal :=
  fun i => rowNormed E C ⟨(i 0).val, idx2_lt0 i⟩ ⟨(i 1).val, idx2_lt1 i⟩

/-! ## The body's payload at an entry -/

/-- The product at an entry: the matrix-unit product into the zero accumulator is the sum over the 128 inner
    coordinates; the format changes and the identity cast of the second operand change nothing. -/
theorem prod_apply (v0 : Vec Ideal S10000x128 .f32) (v2 : Vec Ideal S128x32 .f32) (p : Fin 10000) (c : Fin 32) :
    matmul dot_S10000x128_S128x32_S10000x32_1_0_0_1_n_n none (truncf .bf16 v0 bitsLt_bf16_f32)
        (truncf .bf16 (shapeCast S128x32 v2 shapeCasts_S128x32_S128x32) bitsLt_bf16_f32)
        (constant (F := Ideal) S10000x32 .f32 0x00000000#32) (ix2 p c)
      = rowDot v0 v2 p c := by
  refine (Cert.LibPlainDot.matmul_zero_apply dot_S10000x128_S128x32_S10000x32_1_0_0_1_n_n rfl none _ _ p c).trans ?_
  unfold rowDot
  refine Finset.sum_congr rfl fun k _ => ?_
  show v0 (ix2 p k) * shapeCast S128x32 v2 shapeCasts_S128x32_S128x32 (ix2 k c) = _
  rw [shapeCast_self]

/-- The body's payload at entry (p, q) of the block: the quotient is pointwise, the divisor is the column of row
    values repeated across the 32 columns, a row's value the larger of the literal and the square root of the row's
    sum of squares, which the lane reduction takes from its neutral accumulator. -/
theorem pay1_apply (v0 : Vec Ideal S10000x128 .f32) (v2 : Vec Ideal S128x32 .f32) (p : Fin 10000) (q : Fin 32) :
    k1_pay1 (F := Ideal) v0 v2 (ix2 p q) = rowNormed v0 v2 p q := by
  unfold k1_pay1 rowNormed
  dsimp only
  refine (divf_apply _ _ _).trans ?_
  refine congrArg₂ Ideal.div (prod_apply v0 v2 p q) ?_
  refine (Cert.LibRowForms.broadcastTo_a1_ab_apply _ _ p q).trans ?_
  refine (maximumf_apply _ _ _).trans ?_
  refine congrArg₂ max (congrArg Ideal.sqrt ?_) rfl
  refine (Cert.LibRowForms.shapeCast_a_a1_apply _ _ p 0).trans ?_
  refine (Cert.LibRowForms.multiReduction_add_row _ _ _ _ _ p).trans ?_
  rw [Ideal.ofBits_zero_f32, zero_add]
  exact Finset.sum_congr rfl fun j _ => congrArg₂ (· * ·) (prod_apply v0 v2 p j) (prod_apply v0 v2 p j)

/-! ## A block of rows of the specification -/

/-- If `b0` is rows 10000·T … of `A` and `b1` is `C`, row p of the block's product is row 10000·T + p of the array's. -/
theorem rowDot_block (A : (⟨2, ![100000, 128]⟩ : Shape).Idx → EReal) (C : (⟨2, ![128, 32]⟩ : Shape).Idx → EReal)
    (b0 : (⟨2, ![10000, 128]⟩ : Shape).Idx → EReal) (b1 : (⟨2, ![128, 32]⟩ : Shape).Idx → EReal) (p : Fin 10000) (P : Fin 100000)
    (h0 : ∀ k : Fin 128, b0 (ix2 p k) = A (ix2 P k)) (h1 : ∀ (k : Fin 128) (j : Fin 32), b1 (ix2 k j) = C (ix2 k j)) (j : Fin 32) :
    rowDot b0 b1 p j = rowDot A C P j := by
  unfold rowDot
  exact Finset.sum_congr rfl fun k _ => by rw [h0 k, h1 k j]

/-- and so is the normalized row. -/
theorem rowNormed_block (A : (⟨2, ![100000, 128]⟩ : Shape).Idx → EReal) (C : (⟨2, ![128, 32]⟩ : Shape).Idx → EReal)
    (b0 : (⟨2, ![10000, 128]⟩ : Shape).Idx → EReal) (b1 : (⟨2, ![128, 32]⟩ : Shape).Idx → EReal) (p : Fin 10000) (P : Fin 100000)
    (h0 : ∀ k : Fin 128, b0 (ix2 p k) = A (ix2 P k)) (h1 : ∀ (k : Fin 128) (j : Fin 32), b1 (ix2 k j) = C (ix2 k j)) (q : Fin 32) :
    rowNormed b0 b1 p q = rowNormed A C P q := by
  have e : ∀ j, rowDot b0 b1 p j = rowDot A C P j := rowDot_block A C b0 b1 p P h0 h1
  unfold rowNormed
  rw [e q]
  simp only [e]

/-- The payload of a block at a block entry is the specification at the array entry it is written to. -/
theorem pay1_block (A : (⟨2, ![100000, 128]⟩ : Shape).Idx → EReal) (C : (⟨2, ![128, 32]⟩ : Shape).Idx → EReal)
    (b0 : Vec Ideal S10000x128 .f32) (b1 : Vec Ideal S128x32 .f32) (T : ℕ)
    (h0 : ∀ (x : S10000x128.Idx) (k : S100000x128.Idx), (k 0).val = T * 10000 + (x 0).val → (k 1).val = (x 1).val → b0 x = A k)
    (h1 : ∀ x : S128x32.Idx, b1 x = C x)
    (y : S10000x32.Idx) (i : S100000x32.Idx) (hi0 : (i 0).val = T * 10000 + (y 0).val) (hi1 : (i 1).val = (y 1).val) :
    k1_pay1 (F := Ideal) b0 b1 y = X1 A C i := by
  obtain ⟨p, q, rfl⟩ : ∃ (p : Fin 10000) (q : Fin 32), y = ix2 p q := ⟨y 0, y 1, eq_ix2 y⟩
  rw [pay1_apply]
  unfold X1
  have hq : (⟨(i 1).val, idx2_lt1 i⟩ : Fin 32) = q := Fin.ext hi1
  rw [hq]
  exact rowNormed_block A C b0 b1 p ⟨(i 0).val, idx2_lt0 i⟩ (fun k => h0 (ix2 p k) (ix2 ⟨(i 0).val, idx2_lt0 i⟩ k) hi0 rfl)
    (fun k j => h1 (ix2 k j)) q

/-! ## From the blocks to the array -/

section Blocks

variable (V : (c : Dev nD) → (b : Ref sig .tc) → Buf (Elt Ideal) ((c : Thread nD τ).loc b))

theorem hz1 : (![0, 0] : Fin 2 → Nat) = fun _ => 0 := funext fun a => by fin_cases a <;> rfl

/-- The one store through the whole buffer leaves its payload, and the two loads through the whole buffers read them. -/
theorem out1_2_eq (x0 : Vec Ideal S10000x128 .f32) (x1 : Vec Ideal S128x32 .f32) : out1_2 x0 x1 = k1_pay1 x0 x1 := by
  unfold out1_2
  rw [View.canon_unit_zero hz1]
  simp only [View.ld_unit_zero (S := S10000x128) hz1, View.ld_unit_zero (S := S128x32) hz1]

/-- The printed index maps, decided over the grid: the two row-block windows are at block (t, 0), the coefficient
    window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point `t` is rows 10000·t … 10000·t + 9999 of the eigenvector array. -/
theorem iblk1_0_apply (c : Dev nD) (t : Fin cfg1.N) (x : S10000x128.Idx) (k : S100000x128.Idx)
    (hk0 : (k 0).val = t.val * 10000 + (x 0).val) (hk1 : (k 1).val = (x 1).val) :
    (iblk1 V c 0 t : Vec Ideal S10000x128 .f32) x = (V c main_arg2 : S100000x128.Idx → Elt Ideal .f32) k := by
  obtain ⟨e0, e1, -, -, -, -⟩ := idx_facts1 t
  unfold iblk1
  rw [View.read_apply]
  show V c main_arg2 _ = V c main_arg2 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 128 + 1 * (x 1).val = (k 1).val; rw [e1, hk1]; omega

/-- Window 1's block at every point is the whole coefficient array. -/
theorem iblk1_1_apply (c : Dev nD) (t : Fin cfg1.N) (x : S128x32.Idx) :
    (iblk1 V c 1 t : Vec Ideal S128x32 .f32) x = (V c main_v9 : S128x32.Idx → Elt Ideal .f32) x := by
  obtain ⟨-, -, e0, e1, -, -⟩ := idx_facts1 t
  unfold iblk1
  rw [View.read_apply]
  show V c main_v9 _ = V c main_v9 _
  congr 1
  funext a
  apply Fin.ext
  match a with
  | ⟨0, _⟩ => show win1_1.index t (0 : Fin 2) * 128 + 1 * (x 0).val = (x 0).val; rw [e0]; omega
  | ⟨1, _⟩ => show win1_1.index t (1 : Fin 2) * 32 + 1 * (x 1).val = (x 1).val; rw [e1]; omega

/-- What point `t` writes back is block `t` of the specification of the arrays as the region finds them. -/
theorem flushed1_eq (c : Dev nD) (t : Fin cfg1.N) :
    (dat1 V c).flushed 2 t = ((cfg1.win 2).blk t).view.read (Elt Ideal) (X1 (V c main_arg2) (V c main_v9)) := by
  obtain ⟨-, -, -, -, e0, e1⟩ := idx_facts1 t
  show (cfg1.win 2).cut (grid1.coords t) ((dat1 V c).after 2 t) = _
  rw [after1_2, out1_2_eq]
  funext y
  rw [View.read_apply]
  show k1_pay1 (F := Ideal) (iblk1 V c 0 t) (iblk1 V c 1 t) y = X1 (V c main_arg2) (V c main_v9) (((cfg1.win 2).blk t).view.emb y)
  refine pay1_block (V c main_arg2) (V c main_v9) (iblk1 V c 0 t) (iblk1 V c 1 t) t.val
    (fun x k hk0 hk1 => iblk1_0_apply V c t x k hk0 hk1) (fun x => iblk1_1_apply V c t x) y (((cfg1.win 2).blk t).view.emb y) ?_ ?_
  · show win1_2.index t (0 : Fin 2) * 10000 + 1 * (y 0).val = t.val * 10000 + (y 0).val; rw [e0]; omega
  · show win1_2.index t (1 : Fin 2) * 32 + 1 * (y 1).val = (y 1).val; rw [e1]; omega

/-- An index of the result array is in point `t`'s block iff each coordinate is in the block's range on its axis. -/
theorem mem_blk1_2 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v10).slice (win1_2.rect t)).set ↔ _
  rw [View.set_slice_whole, Rect.mem_set_unit]
  exact Iff.rfl

/-- The ten blocks tile the result array: row r is in block r / 10000. -/
theorem cover1_2_arr (i : S100000x32.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 32 := (i 1).isLt
  let t : Fin cfg1.N := ⟨(i 0).val / 10000, by rw [hN]; omega⟩
  obtain ⟨-, -, -, -, e0, e1⟩ := idx_facts1 t
  have ht : t.val = (i 0).val / 10000 := rfl
  refine ⟨t, flush1_2 t, ?_⟩
  rw [mem_blk1_2]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 32 ≤ (i 1).val ∧ (i 1).val < win1_2.index t (1 : Fin 2) * 32 + 32; rw [e1]; omega

/-- THE RESULT ARRAY after region 1: the specification of the two operand arrays as the region finds them. -/
theorem final1 (c : Dev nD) : (dat1 V c).arrAt 2 cfg1.N = X1 (V c main_arg2) (V c main_v9) :=
  (dat1 V c).arrAt_eq_of_cover 2 (X1 (V c main_arg2) (V c main_v9)) (fun t _ => flushed1_eq V c t) cover1_2_arr

end Blocks

/-! ## The reference's stages are the specification -/

section Reference

open Cert.ReferenceIdeal.ReadP

/-- The reference's product at an entry is the specification's: its `dot_general` is the sum over the same 128 terms. -/
theorem ref_prod (x0 : (⟨Cert.ReferenceIdeal.S100000x32, .f32⟩ : BufTy).Contents (Elt Ideal)) (x1 : (⟨Cert.ReferenceIdeal.S128, .f32⟩ : BufTy).Contents (Elt Ideal))
    (x2 : (⟨Cert.ReferenceIdeal.S100000x128, .f32⟩ : BufTy).Contents (Elt Ideal)) (x3 : (⟨Cert.ReferenceIdeal.S1, .f32⟩ : BufTy).Contents (Elt Ideal))
    (i : Cert.ReferenceIdeal.S100000x32.Idx) :
    val_main_v11 (F := Ideal) x0 x1 x2 x3 i
      = rowDot x2 (val_main_v10 (F := Ideal) x0 x1 x2 x3) ⟨(i 0).val, idx2_lt0 i⟩ ⟨(i 1).val, idx2_lt1 i⟩ := by
  rw [val_main_v11_apply]
  unfold rowDot
  refine Finset.sum_congr rfl fun k _ => ?_
  have el : lidx_main_v11 i k = ix2 ⟨(i 0).val, idx2_lt0 i⟩ k := funext fun a => by
    match a with
    | ⟨0, _⟩ => rfl
    | ⟨1, _⟩ => rfl
  have er : ridx_main_v11 i k = ix2 k ⟨(i 1).val, idx2_lt1 i⟩ := funext fun a => by
    match a with
    | ⟨0, _⟩ => rfl
    | ⟨1, _⟩ => rfl
  rw [el, er]

/-- The reference's normalized product (its stage 16, from the coefficient stage 10 and the eigenvector argument)
    is the specification: the same quotient, the same maximum against the same literal, the same square root of
    the zero word plus the same 32 squares. -/
theorem X1_ref (x0 : (⟨Cert.ReferenceIdeal.S100000x32, .f32⟩ : BufTy).Contents (Elt Ideal)) (x1 : (⟨Cert.ReferenceIdeal.S128, .f32⟩ : BufTy).Contents (Elt Ideal))
    (x2 : (⟨Cert.ReferenceIdeal.S100000x128, .f32⟩ : BufTy).Contents (Elt Ideal)) (x3 : (⟨Cert.ReferenceIdeal.S1, .f32⟩ : BufTy).Contents (Elt Ideal)) :
    X1 x2 (val_main_v10 (F := Ideal) x0 x1 x2 x3) = val_main_v16 (F := Ideal) x0 x1 x2 x3 := by
  funext i
  rw [val_main_v16_apply, val_main_v15_apply, val_main_v14_apply, val_main_v13_apply, val_main_cst_apply, val_main_v12_apply,
    val_main_call1_v2_apply, val_main_call1_v1_apply, val_main_call1_cst_apply]
  simp only [val_main_call1_v0_apply, ref_prod]
  rfl

end Reference

end Cert.KernelIdeal.Hand

end
-- ==== Proof.Mlp2.lean ====
import proofs.«145947_j31421980738206_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The perceptron, entry by entry

Over the extended reals, with exact operations, the third region's body computes for a feature tile `A`,
weights `W₁`, `W₂` and bias rows `b₁`, `b₂` the matrix whose entry `(p, q)` is

  `(∑ h, max ((∑ k, A p k * W₁ k h) + b₁ h) 0 * W₂ h q) + b₂ q`.

Entry `(p, q)` reads row `p` of `A` only. That is why computing tile by tile gives the same matrix as
computing on all rows at once; `mlpRow` is stated for any number of rows so that both uses are one definition.
The changes of float format in the body are the identity here, and the two products accumulate into zero.
-/

noncomputable section

namespace Cert.KernelIdeal.Hand

open Cert.KernelIdeal.Gen
open Idealize.ShloMosaic Idealize.ShloMosaic.TcCoe Idealize.ShloMosaic.ValueIdx

/-- Entry `(p, q)` of `relu (A · W₁ + b₁) · W₂ + b₂` for a feature array with `n` rows. The zero that `relu`
    compares against is kept as the zero word's value, as both programs spell it. -/
def mlpRow {n : Nat} (A : (⟨2, ![n, 224]⟩ : Shape).Idx → EReal) (W1 : S224x256.Idx → EReal) (b1 : S1x256.Idx → EReal)
    (W2 : S256x64.Idx → EReal) (b2 : S1x64.Idx → EReal) (p : Fin n) (q : Fin 64) : EReal :=
  (∑ h : Fin 256, max ((∑ k : Fin 224, A (ix2 p k) * W1 (ix2 k h)) + b1 (ix2 (0 : Fin 1) h)) (Ideal.ofBits .f32 0x00000000#32)
      * W2 (ix2 h q)) + b2 (ix2 (0 : Fin 1) q)

/-- The whole result on 100000 rows, index by index. -/
def X2 (A : S100000x224.Idx → EReal) (W1 : S224x256.Idx → EReal) (b1 : S1x256.Idx → EReal)
    (W2 : S256x64.Idx → EReal) (b2 : S1x64.Idx → EReal) : S100000x64.Idx → EReal :=
  fun i => mlpRow (n := 100000) A W1 b1 W2 b2 (i 0) (i 1)

theorem X2_ix2 (A : S100000x224.Idx → EReal) (W1 : S224x256.Idx → EReal) (b1 : S1x256.Idx → EReal)
    (W2 : S256x64.Idx → EReal) (b2 : S1x64.Idx → EReal) (p : Fin 100000) (q : Fin 64) :
    X2 A W1 b1 W2 b2 (ix2 p q) = mlpRow (n := 100000) A W1 b1 W2 b2 p q := rfl

/-- Two feature arrays that agree on a row give the same entries on that row. -/
theorem mlpRow_congr {n n' : Nat} (A : (⟨2, ![n, 224]⟩ : Shape).Idx → EReal) (A' : (⟨2, ![n', 224]⟩ : Shape).Idx → EReal)
    (W1 W1' : S224x256.Idx → EReal) (b1 b1' : S1x256.Idx → EReal) (W2 W2' : S256x64.Idx → EReal) (b2 b2' : S1x64.Idx → EReal)
    (p : Fin n) (p' : Fin n') (q : Fin 64)
    (hA : ∀ k : Fin 224, A (ix2 p k) = A' (ix2 p' k)) (hW1 : ∀ (k : Fin 224) (h : Fin 256), W1 (ix2 k h) = W1' (ix2 k h))
    (hb1 : ∀ h : Fin 256, b1 (ix2 (0 : Fin 1) h) = b1' (ix2 (0 : Fin 1) h))
    (hW2 : ∀ (h : Fin 256), W2 (ix2 h q) = W2' (ix2 h q)) (hb2 : b2 (ix2 (0 : Fin 1) q) = b2' (ix2 (0 : Fin 1) q)) :
    mlpRow A W1 b1 W2 b2 p q = mlpRow A' W1' b1' W2' b2' p' q := by
  unfold mlpRow
  rw [hb2]
  refine congrArg (· + b2' (ix2 (0 : Fin 1) q)) (Finset.sum_congr rfl fun h _ => ?_)
  rw [hW2 h, hb1 h]
  refine congrArg (fun s => max (s + b1' (ix2 (0 : Fin 1) h)) (Ideal.ofBits .f32 0x00000000#32) * W2' (ix2 h q)) ?_
  exact Finset.sum_congr rfl fun k _ => by rw [hA k, hW1 k h]

/-! ## The two products of the body -/

theorem mm1_lhs0 (i : S5000x256.Idx) (q : dot_S5000x224_S224x256_S5000x256_1_0_0_1_n_n.contr.Idx) : (dot_S5000x224_S224x256_S5000x256_1_0_0_1_n_n.lhsIdx i q 0).val = (i 0).val := by
  unfold DotDims.lhsIdx
  rw [dif_neg (show ¬(0 : Fin S5000x224.rank) ∈ dot_S5000x224_S224x256_S5000x256_1_0_0_1_n_n.lhsBatch by decide), dif_pos (show (0 : Fin S5000x224.rank) ∈ dot_S5000x224_S224x256_S5000x256_1_0_0_1_n_n.lhsNonContracting by decide)]
  rfl
theorem mm1_lhs1 (i : S5000x256.Idx) (q : dot_S5000x224_S224x256_S5000x256_1_0_0_1_n_n.contr.Idx) : (dot_S5000x224_S224x256_S5000x256_1_0_0_1_n_n.lhsIdx i q 1).val = (q ⟨0, by decide⟩).val :=
  dot_S5000x224_S224x256_S5000x256_1_0_0_1_n_n.lhsIdx_val_of_single rfl i q
theorem mm1_rhs0 (i : S5000x256.Idx) (q : dot_S5000x224_S224x256_S5000x256_1_0_0_1_n_n.contr.Idx) : (dot_S5000x224_S224x256_S5000x256_1_0_0_1_n_n.rhsIdx i q 0).val = (q ⟨0, by decide⟩).val :=
  dot_S5000x224_S224x256_S5000x256_1_0_0_1_n_n.rhsIdx_val_of_single rfl i q
theorem mm1_rhs1 (i : S5000x256.Idx) (q : dot_S5000x224_S224x256_S5000x256_1_0_0_1_n_n.contr.Idx) : (dot_S5000x224_S224x256_S5000x256_1_0_0_1_n_n.rhsIdx i q 1).val = (i 1).val := by
  unfold DotDims.rhsIdx
  rw [dif_neg (show ¬(1 : Fin S224x256.rank) ∈ dot_S5000x224_S224x256_S5000x256_1_0_0_1_n_n.rhsBatch by decide), dif_pos (show (1 : Fin S224x256.rank) ∈ dot_S5000x224_S224x256_S5000x256_1_0_0_1_n_n.rhsNonContracting by decide)]
  rfl

/-- Entry `(p, c)` of the product into a zero accumulator is row `p` of the left factor against column `c` of
    the right one. -/
theorem mm1_apply (l : FVec Ideal S5000x224 .bf16) (r : FVec Ideal S224x256 .bf16) (p : Fin 5000) (c : Fin 256) :
    matmul dot_S5000x224_S224x256_S5000x256_1_0_0_1_n_n none l r (constant S5000x256 .f32 0x00000000#32) (ix2 p c) = ∑ k : Fin 224, l (ix2 p k) * r (ix2 k c) := by
  refine (Ideal.matmul_constant_zero_apply dot_S5000x224_S224x256_S5000x256_1_0_0_1_n_n none l r (ix2 p c)).trans ?_
  rw [← Equiv.sum_comp (contrEquiv1 dot_S5000x224_S224x256_S5000x256_1_0_0_1_n_n 224 rfl rfl).symm]
  refine Finset.sum_congr rfl fun k _ => ?_
  have hk := contrEquiv1_symm_val dot_S5000x224_S224x256_S5000x256_1_0_0_1_n_n 224 rfl rfl k
  have el : dot_S5000x224_S224x256_S5000x256_1_0_0_1_n_n.lhsIdx (ix2 p c) ((contrEquiv1 dot_S5000x224_S224x256_S5000x256_1_0_0_1_n_n 224 rfl rfl).symm k) = ix2 p k := funext fun a => Fin.ext (by
    match a with
    | ⟨0, _⟩ => exact mm1_lhs0 _ _
    | ⟨1, _⟩ => exact (mm1_lhs1 _ _).trans hk)
  have er : dot_S5000x224_S224x256_S5000x256_1_0_0_1_n_n.rhsIdx (ix2 p c) ((contrEquiv1 dot_S5000x224_S224x256_S5000x256_1_0_0_1_n_n 224 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem mm2_lhs1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem mm2_rhs0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
theorem mm2_rhs1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry `(p, c)` of the product into a zero accumulator is row `p` of the left factor against column `c` of
    the right one. -/
theorem mm2_apply (l : FVec Ideal S5000x256 .bf16) (r : FVec Ideal S256x64 .bf16) (p : Fin 5000) (c : Fin 64) :
    matmul dot_S5000x256_S256x64_S5000x64_1_0_0_1_n_n none l r (constant S5000x64 .f32 0x00000000#32) (ix2 p c) = ∑ k : Fin 256, l (ix2 p k) * r (ix2 k c) := by
  refine (Ideal.matmul_constant_zero_apply dot_S5000x256_S256x64_S5000x64_1_0_0_1_n_n none l r (ix2 p c)).trans ?_
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p c) ((contrEquiv1 dot_S5000x256_S256x64_S5000x64_1_0_0_1_n_n 256 rfl rfl).symm k) = ix2 p k := funext fun a => Fin.ext (by
    match a with
    | ⟨0, _⟩ => exact mm2_lhs0 _ _
    | ⟨1, _⟩ => exact (mm2_lhs1 _ _).trans hk)
  have er : dot_S5000x256_S256x64_S5000x64_1_0_0_1_n_n.rhsIdx (ix2 p c) ((contrEquiv1 dot_S5000x256_S256x64_S5000x64_1_0_0_1_n_n 256 rfl rfl).symm k) = ix2 k c := funext fun a => Fin.ext (by
    match a with
    | ⟨0, _⟩ => exact (mm2_rhs0 _ _).trans hk
    | ⟨1, _⟩ => exact mm2_rhs1 _ _)
  rw [el, er]

/-! ## The body's stored value at an entry -/

/-- The value the body stores, read at `(p, q)`: the perceptron's entry computed from the five loaded blocks. -/
theorem k2_pay1_apply (v0 : Vec Ideal S5000x224 .f32) (v3 : Vec Ideal S224x256 .f32) (v6 : Vec Ideal S1x256 .f32)
    (v13 : Vec Ideal S256x64 .f32) (v16 : Vec Ideal S1x64 .f32) (p : Fin 5000) (q : Fin 64) :
    k2_pay1 (F := Ideal) v0 v3 v6 v13 v16 (ix2 p q) = mlpRow (n := 5000) v0 v3 v6 v13 v16 p q := by
  have e0 : shapeCast S5000x224 v0 shapeCasts_S5000x224_S5000x224 = v0 := shapeCast_self _ _
  have e6 : shapeCast S1x256 v6 shapeCasts_S1x256_S1x256 = v6 := shapeCast_self _ _
  have e16 : shapeCast S1x64 v16 shapeCasts_S1x64_S1x64 = v16 := shapeCast_self _ _
  unfold k2_pay1 mlpRow
  rw [e0, e6, e16]
  refine congrArg₂ (· + ·) ((mm2_apply _ _ p q).trans (Finset.sum_congr rfl fun h _ => ?_))
    (broadcastTo_1b_ab_apply v16 broadcasts_S1x64_S5000x64 p q)
  refine congrArg (· * v13 (ix2 h q)) ?_
  refine congrArg (max · (Ideal.ofBits .f32 0x00000000#32)) ?_
  exact congrArg₂ (· + ·) (mm1_apply _ _ p h) (broadcastTo_1b_ab_apply v6 broadcasts_S1x256_S5000x256 p h)

/-- A tile's stored entry is the whole result's entry on the row the tile's row comes from: if row `p` of the
    feature block is row `r` of the feature array, and the weight and bias blocks are the weight and bias arrays,
    then the stored value at `(p, q)` is the result at `(r, q)`. -/
theorem tile_entry (A : S100000x224.Idx → EReal) (W1 : S224x256.Idx → EReal) (b1 : S1x256.Idx → EReal)
    (W2 : S256x64.Idx → EReal) (b2 : S1x64.Idx → EReal)
    (x0 : Vec Ideal S5000x224 .f32) (x1 : Vec Ideal S224x256 .f32) (x2 : Vec Ideal S1x256 .f32)
    (x3 : Vec Ideal S256x64 .f32) (x4 : Vec Ideal S1x64 .f32) (r : Fin 100000) (p : Fin 5000) (q : Fin 64)
    (h0 : ∀ k : Fin 224, x0 (ix2 p k) = A (ix2 r k)) (h1 : ∀ (k : Fin 224) (h : Fin 256), x1 (ix2 k h) = W1 (ix2 k h))
    (h2 : ∀ h : Fin 256, x2 (ix2 (0 : Fin 1) h) = b1 (ix2 (0 : Fin 1) h))
    (h3 : ∀ h : Fin 256, x3 (ix2 h q) = W2 (ix2 h q)) (h4 : x4 (ix2 (0 : Fin 1) q) = b2 (ix2 (0 : Fin 1) q)) :
    k2_pay1 (F := Ideal) x0 x1 x2 x3 x4 (ix2 p q) = X2 A W1 b1 W2 b2 (ix2 r q) :=
  (k2_pay1_apply x0 x1 x2 x3 x4 p q).trans
    ((mlpRow_congr (n := 5000) (n' := 100000) x0 A x1 W1 x2 b1 x3 W2 x4 b2 p r q h0 h1 h2 h3 h4).trans
      (X2_ix2 A W1 b1 W2 b2 r q).symm)

end Cert.KernelIdeal.Hand

end
-- ==== Proof.Value2.lean ====
import proofs.«145947_j31421980738206_1_alg».proof.Proof.Region2
import proofs.«145947_j31421980738206_1_alg».proof.Proof.Mlp2

/-!
# What the third region leaves in its output array

At exact arithmetic, after the region has walked its twenty tiles the output array holds the perceptron of the
feature array, entry by entry (`final2`). Tile `t` writes rows `5000 t … 5000 t + 4999`; its feature block is
those rows of the feature array and every other operand's block is its whole array, so what the tile writes is
the restriction of the one whole-array function `X2` to the tile's rows; and every row lies in exactly the tile
numbered `row / 5000`.
-/

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the twenty tiles: the feature and output operands are on block `t` of their rows, every
    other operand stays on its one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The input blocks, read at an entry -/

/-- Row `p` of the feature block at tile `t` is row `5000 t + p` of the feature array. -/
theorem iblk2_0_apply (c : Dev nD) (t : Fin cfg2.N) (p : Fin 5000) (k : Fin 224) (r : Fin 100000)
    (hr : r.val = t.val * 5000 + p.val) :
    (iblk2 V c 0 t : Vec Ideal S5000x224 .f32) (ix2 p k) = (V c main_v89 : S100000x224.Idx → EReal) (ix2 r k) := by
  obtain ⟨e0, e1, -⟩ := idx2 t
  unfold iblk2
  rw [View.read_apply]
  show (V c main_v89 : S100000x224.Idx → EReal) _ = _
  refine congrArg (V c main_v89 : S100000x224.Idx → EReal) (funext fun d => Fin.ext ?_)
  match d with
  | ⟨0, _⟩ => show win2_0.index t (0 : Fin 2) * 5000 + 1 * p.val = r.val; rw [e0, hr]; omega
  | ⟨1, _⟩ => show win2_0.index t (1 : Fin 2) * 224 + 1 * k.val = k.val; rw [e1]; omega

/-- Operand 1 has one block, which is its whole array. -/
theorem iblk2_1_apply (c : Dev nD) (t : Fin cfg2.N) (a : Fin 224) (b : Fin 256) :
    (iblk2 V c 1 t : Vec Ideal S224x256 .f32) (ix2 a b) = (V c main_arg5 : S224x256.Idx → EReal) (ix2 a b) := by
  obtain ⟨-, -, e0, e1, -, -, -, -, -, -, -, -⟩ := idx2 t
  unfold iblk2
  rw [View.read_apply]
  show (V c main_arg5 : S224x256.Idx → EReal) _ = _
  refine congrArg (V c main_arg5 : S224x256.Idx → EReal) (funext fun d => Fin.ext ?_)
  match d with
  | ⟨0, _⟩ => show win2_1.index t (0 : Fin 2) * 224 + 1 * a.val = a.val; rw [e0]; omega
  | ⟨1, _⟩ => show win2_1.index t (1 : Fin 2) * 256 + 1 * b.val = b.val; rw [e1]; omega

/-- Operand 2 has one block, which is its whole array. -/
theorem iblk2_2_apply (c : Dev nD) (t : Fin cfg2.N) (a : Fin 1) (b : Fin 256) :
    (iblk2 V c 2 t : Vec Ideal S1x256 .f32) (ix2 a b) = (V c main_v90 : S1x256.Idx → EReal) (ix2 a b) := by
  obtain ⟨-, -, -, -, e0, e1, -, -, -, -, -, -⟩ := idx2 t
  unfold iblk2
  rw [View.read_apply]
  show (V c main_v90 : S1x256.Idx → EReal) _ = _
  refine congrArg (V c main_v90 : S1x256.Idx → EReal) (funext fun d => Fin.ext ?_)
  match d with
  | ⟨0, _⟩ => show win2_2.index t (0 : Fin 2) * 1 + 1 * a.val = a.val; rw [e0]; omega
  | ⟨1, _⟩ => show win2_2.index t (1 : Fin 2) * 256 + 1 * b.val = b.val; rw [e1]; omega

/-- Operand 3 has one block, which is its whole array. -/
theorem iblk2_3_apply (c : Dev nD) (t : Fin cfg2.N) (a : Fin 256) (b : Fin 64) :
    (iblk2 V c 3 t : Vec Ideal S256x64 .f32) (ix2 a b) = (V c main_arg7 : S256x64.Idx → EReal) (ix2 a b) := by
  obtain ⟨-, -, -, -, -, -, e0, e1, -, -, -, -⟩ := idx2 t
  unfold iblk2
  rw [View.read_apply]
  show (V c main_arg7 : S256x64.Idx → EReal) _ = _
  refine congrArg (V c main_arg7 : S256x64.Idx → EReal) (funext fun d => Fin.ext ?_)
  match d with
  | ⟨0, _⟩ => show win2_3.index t (0 : Fin 2) * 256 + 1 * a.val = a.val; rw [e0]; omega
  | ⟨1, _⟩ => show win2_3.index t (1 : Fin 2) * 64 + 1 * b.val = b.val; rw [e1]; omega

/-- Operand 4 has one block, which is its whole array. -/
theorem iblk2_4_apply (c : Dev nD) (t : Fin cfg2.N) (a : Fin 1) (b : Fin 64) :
    (iblk2 V c 4 t : Vec Ideal S1x64 .f32) (ix2 a b) = (V c main_v91 : S1x64.Idx → EReal) (ix2 a b) := by
  obtain ⟨-, -, -, -, -, -, -, -, e0, e1, -, -⟩ := idx2 t
  unfold iblk2
  rw [View.read_apply]
  show (V c main_v91 : S1x64.Idx → EReal) _ = _
  refine congrArg (V c main_v91 : S1x64.Idx → EReal) (funext fun d => Fin.ext ?_)
  match d with
  | ⟨0, _⟩ => show win2_4.index t (0 : Fin 2) * 1 + 1 * a.val = a.val; rw [e0]; omega
  | ⟨1, _⟩ => show win2_4.index t (1 : Fin 2) * 64 + 1 * b.val = b.val; rw [e1]; omega

/-! ## What a tile writes back -/

/-- Tile `t` writes back the restriction of `X2` of the five arrays to its rows. -/
theorem flushed2_eq (c : Dev nD) (t : Fin cfg2.N) :
    (dat2 V c).flushed 5 t = ((cfg2.win 5).blk t).view.read (Elt Ideal)
      (X2 (V c main_v89) (V c main_arg5) (V c main_v90) (V c main_arg7) (V c main_v91)) := by
  show (cfg2.win 5).cut (grid2.coords t) ((dat2 V c).after 5 t) = _
  rw [after2_5]
  unfold out2_5
  rw [View.canon_unit_zero hz2]
  simp only [View.ld_unit_zero (S := S5000x224) hz2, View.ld_unit_zero (S := S224x256) hz2, View.ld_unit_zero (S := S1x256) hz2,
    View.ld_unit_zero (S := S256x64) hz2, View.ld_unit_zero (S := S1x64) hz2]
  funext j
  obtain ⟨p, q, rfl⟩ : ∃ (p : Fin 5000) (q : Fin 64), j = ix2 p q := ⟨j 0, j 1, eq_ix2 j⟩
  have hN : cfg2.N = 20 := N_2
  have hr : t.val * 5000 + p.val < 100000 := by have := t.isLt; have := p.isLt; omega
  obtain ⟨-, -, -, -, -, -, -, -, -, -, e0, e1⟩ := idx2 t
  have he : ((cfg2.win 5).blk t).view.emb (ix2 p q) = ix2 (⟨t.val * 5000 + p.val, hr⟩ : Fin 100000) q :=
    funext fun d => Fin.ext (by
      match d with
      | ⟨0, _⟩ => show win2_5.index t (0 : Fin 2) * 5000 + 1 * p.val = t.val * 5000 + p.val; rw [e0]; omega
      | ⟨1, _⟩ => show win2_5.index t (1 : Fin 2) * 64 + 1 * q.val = q.val; rw [e1]; omega)
  show k2_pay1 (F := Ideal) (iblk2 V c 0 t) (iblk2 V c 1 t) (iblk2 V c 2 t) (iblk2 V c 3 t) (iblk2 V c 4 t) (ix2 p q)
    = X2 (V c main_v89) (V c main_arg5) (V c main_v90) (V c main_arg7) (V c main_v91) (((cfg2.win 5).blk t).view.emb (ix2 p q))
  rw [he]
  exact tile_entry (V c main_v89) (V c main_arg5) (V c main_v90) (V c main_arg7) (V c main_v91)
    (iblk2 V c 0 t) (iblk2 V c 1 t) (iblk2 V c 2 t) (iblk2 V c 3 t) (iblk2 V c 4 t) ⟨t.val * 5000 + p.val, hr⟩ p q
    (fun k => iblk2_0_apply V c t p k ⟨t.val * 5000 + p.val, hr⟩ rfl)
    (fun k h => iblk2_1_apply V c t k h) (fun h => iblk2_2_apply V c t 0 h)
    (fun h => iblk2_3_apply V c t h q) (iblk2_4_apply V c t 0 q)

/-! ## Every row is in one tile -/

/-- An entry is in tile `t`'s block exactly when each coordinate is in the block's range. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v92).slice (win2_5.rect t)).set ↔ _
  rw [View.set_slice_whole, Rect.mem_set_unit]
  exact Iff.rfl

/-- The output array after the region: the perceptron of the five arrays as the region found them. -/
theorem final2 (c : Dev nD) : (dat2 V c).arrAt 5 cfg2.N
    = X2 (V c main_v89) (V c main_arg5) (V c main_v90) (V c main_arg7) (V c main_v91) :=
  (dat2 V c).arrAt_eq_of_cover 5 (X2 (V c main_v89) (V c main_arg5) (V c main_v90) (V c main_arg7) (V c main_v91))
    (fun t _ => flushed2_eq V c t) fun i => by
      have hi0 : (i 0).val < 100000 := (i 0).isLt
      have hi1 : (i 1).val < 64 := (i 1).isLt
      have hN : cfg2.N = 20 := N_2
      refine ⟨⟨(i 0).val / 5000, by rw [hN]; omega⟩, flush2_5 _, ?_⟩
      rw [mem_blk2]
      obtain ⟨-, -, -, -, -, -, -, -, -, -, e0, e1⟩ := idx2 (⟨(i 0).val / 5000, by rw [hN]; omega⟩ : Fin cfg2.N)
      intro a
      match a with
      | ⟨0, _⟩ =>
        show win2_5.index _ (0 : Fin 2) * 5000 ≤ (i 0).val ∧ (i 0).val < win2_5.index _ (0 : Fin 2) * 5000 + 5000
        rw [e0]; show (i 0).val / 5000 * 5000 ≤ (i 0).val ∧ (i 0).val < (i 0).val / 5000 * 5000 + 5000; omega
      | ⟨1, _⟩ =>
        show win2_5.index _ (1 : Fin 2) * 64 ≤ (i 1).val ∧ (i 1).val < win2_5.index _ (1 : Fin 2) * 64 + 64
        rw [e1]; omega

end Cert.KernelIdeal.Hand

end
-- ==== Proof.Ref2.lean ====
import proofs.«145947_j31421980738206_1_alg».proof.Proof.Mlp2
import proofs.«145947_j31421980738206_1_alg».proof.Proof.RefReadP

/-!
# The reference computes the same perceptron

The reference applies the two dense layers to all 100000 rows at once: a product with `W₁`, the bias `b₁`
broadcast down the rows, a maximum with a broadcast zero, a product with `W₂`, the bias `b₂` broadcast down the
rows. Read at an entry `(p, q)` that is, term for term, the entry `X2` names; the only difference is that the
reference's biases are vectors where the region's are one-row matrices, which the two hypotheses bridge.
-/

noncomputable section

namespace Cert.KernelIdeal.Hand

open Idealize.ShloMosaic Idealize.ShloMosaic.TcCoe Idealize.ShloMosaic.ValueIdx

/-! The reference's index maps at an entry, in coordinates. -/
theorem lidx101_ix2 (p : Fin 100000) (q : Fin 64) (h : Fin 256) : Cert.ReferenceIdeal.ReadP.lidx_main_v101 (ix2 p q) h = ix2 p h := funext fun a => Fin.ext (by match a with | ⟨0, _⟩ => rfl | ⟨1, _⟩ => rfl)
theorem ridx101_ix2 (p : Fin 100000) (q : Fin 64) (h : Fin 256) : Cert.ReferenceIdeal.ReadP.ridx_main_v101 (ix2 p q) h = ix2 h q := funext fun a => Fin.ext (by match a with | ⟨0, _⟩ => rfl | ⟨1, _⟩ => rfl)
theorem idx103_ix2 (p : Fin 100000) (q : Fin 64) : Cert.ReferenceIdeal.ReadP.idx_main_v103 (ix2 p q) = ix2 (0 : Fin 1) q := funext fun a => Fin.ext (by match a with | ⟨0, _⟩ => rfl | ⟨1, _⟩ => rfl)
theorem idx102_ix2 (q : Fin 64) : Cert.ReferenceIdeal.ReadP.idx_main_v102 (ix2 (0 : Fin 1) q) = ix1 q := funext fun a => Fin.ext (by match a with | ⟨0, _⟩ => rfl)
theorem lidx96_ix2 (p : Fin 100000) (h : Fin 256) (k : Fin 224) : Cert.ReferenceIdeal.ReadP.lidx_main_v96 (ix2 p h) k = ix2 p k := funext fun a => Fin.ext (by match a with | ⟨0, _⟩ => rfl | ⟨1, _⟩ => rfl)
theorem ridx96_ix2 (p : Fin 100000) (h : Fin 256) (k : Fin 224) : Cert.ReferenceIdeal.ReadP.ridx_main_v96 (ix2 p h) k = ix2 k h := funext fun a => Fin.ext (by match a with | ⟨0, _⟩ => rfl | ⟨1, _⟩ => rfl)
theorem idx98_ix2 (p : Fin 100000) (h : Fin 256) : Cert.ReferenceIdeal.ReadP.idx_main_v98 (ix2 p h) = ix2 (0 : Fin 1) h := funext fun a => Fin.ext (by match a with | ⟨0, _⟩ => rfl | ⟨1, _⟩ => rfl)
theorem idx97_ix2 (h : Fin 256) : Cert.ReferenceIdeal.ReadP.idx_main_v97 (ix2 (0 : Fin 1) h) = ix1 h := funext fun a => Fin.ext (by match a with | ⟨0, _⟩ => rfl)

/-- The perceptron of the reference's feature stage, its weights, and one-row copies `b1'`, `b2'` of its bias
    vectors is the reference's result. -/
theorem X2_ref (x0 : (⟨Cert.ReferenceIdeal.S100000x32, .f32⟩ : BufTy).Contents (Elt Ideal)) (x1 : (⟨Cert.ReferenceIdeal.S128, .f32⟩ : BufTy).Contents (Elt Ideal)) (x2 : (⟨Cert.ReferenceIdeal.S100000x128, .f32⟩ : BufTy).Contents (Elt Ideal)) (x3 : (⟨Cert.ReferenceIdeal.S1, .f32⟩ : BufTy).Contents (Elt Ideal)) (x4 : (⟨Cert.ReferenceIdeal.S2x1600000, .f32⟩ : BufTy).Contents (Elt Ideal)) (x5 : (⟨Cert.ReferenceIdeal.S224x256, .f32⟩ : BufTy).Contents (Elt Ideal)) (x6 : (⟨Cert.ReferenceIdeal.S256, .f32⟩ : BufTy).Contents (Elt Ideal)) (x7 : (⟨Cert.ReferenceIdeal.S256x64, .f32⟩ : BufTy).Contents (Elt Ideal)) (x8 : (⟨Cert.ReferenceIdeal.S64, .f32⟩ : BufTy).Contents (Elt Ideal)) (x9 x10 : (⟨Cert.ReferenceIdeal.S2x1600000, .i32⟩ : BufTy).Contents (Elt Ideal))
    (b1' : S1x256.Idx → EReal) (b2' : S1x64.Idx → EReal)
    (hb1 : ∀ j : Fin 256, b1' (ix2 (0 : Fin 1) j) = x6 (ix1 j)) (hb2 : ∀ j : Fin 64, b2' (ix2 (0 : Fin 1) j) = x8 (ix1 j)) :
    X2 (Cert.ReferenceIdeal.ReadP.val_main_v95 (F := Ideal) x0 x1 x2 x3 x4 x9 x10) x5 b1' x7 b2'
      = Cert.ReferenceIdeal.ReadP.val_main_v104 (F := Ideal) x0 x1 x2 x3 x4 x5 x6 x7 x8 x9 x10 := by
  funext i
  obtain ⟨p, q, rfl⟩ : ∃ (p : Fin 100000) (q : Fin 64), i = ix2 p q := ⟨i 0, i 1, eq_ix2 i⟩
  rw [X2_ix2, Cert.ReferenceIdeal.ReadP.val_main_v104_apply, Cert.ReferenceIdeal.ReadP.val_main_v101_apply, Cert.ReferenceIdeal.ReadP.val_main_v103_apply, Cert.ReferenceIdeal.ReadP.val_main_v102_apply]
  unfold mlpRow
  simp only [lidx101_ix2, ridx101_ix2, idx103_ix2, idx102_ix2, Cert.ReferenceIdeal.ReadP.val_main_v100_apply, Cert.ReferenceIdeal.ReadP.val_main_v99_apply,
    Cert.ReferenceIdeal.ReadP.val_main_v96_apply, Cert.ReferenceIdeal.ReadP.val_main_v98_apply, Cert.ReferenceIdeal.ReadP.val_main_v97_apply, Cert.ReferenceIdeal.ReadP.val_main_call2_v0_apply,
    Cert.ReferenceIdeal.ReadP.val_main_call2_cst_apply, lidx96_ix2, ridx96_ix2, idx98_ix2, idx97_ix2, hb1, hb2,
    Ideal.addf_def, Ideal.maximumf_def, Ideal.ofBits_def]

end Cert.KernelIdeal.Hand

end
-- ==== Proof.LibNary.lean ====
/-
  A host operation over a literal family of three or of five buffers, read at its result.

  An operation of several operands (a concatenation) is printed over a family `![a, b, …]` of references, and its result
  is its function of the family `fun k => F (xs k)` of the operands' contents.  Under that binder the reference
  `![a, b, …] k` is no literal, so nothing more can be said of the contents there.  For a literal family the same result
  is the function of the contents listed one by one, each AT ITS OWN reference, where the contents of each operand can be
  read further.  The library states this for four operands; here are three and five, in the same words.
-/
import Idealize.ShloMosaic.Lib.StableHlo.Run

namespace Cert.LibNary

open Idealize.ShloMosaic Idealize.ShloMosaic.TcCoe Idealize.SL.Sem Idealize.ShloMosaic.StableHlo

variable {τ : Topo} {sig : RefSig} {Val : EltTy → Type}
variable {x a b c d y : Ref sig .tc}

/-- The result of an operation over three literal references, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The result of an operation over five literal references, each operand's contents at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Cert.LibNary

/-- The contents of one buffer after a literal line of host operations, in one pass: every operation's result at its own
    result buffer is its function of its operands' contents, and at any other buffer what was there; an operation over
    three, four or five literal references is read operand by operand. -/
macro "after_results_each" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- What the one pass leaves unread — contents standing inside a pair of a concatenation's list, where a rewriting pass
    does not enter —, read by rewriting: each operation's result at its own result buffer to its function's value, at
    any other buffer to what was there, until none applies. -/
macro "after_results_rest" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))
-- ==== Proof.LibReadLine.lean ====
/-
  Reading one buffer after a straight line of host operations, when the line concatenates.

  A concatenation of two arrays is printed over a two-element list of (shape, array) pairs.  Written instead as a
  function cat2 of its two arrays, it is a term whose pieces stand as plain arguments, so that a single pass which reads
  every operation's result at its own buffer also reads the buffers the two pieces came from.
-/
import Idealize.ShloMosaic.Lib.StableHlo.Run
import proofs.«145947_j31421980738206_1_alg».proof.Proof.LibNary

namespace Cert.ReadLine

open Idealize.ShloMosaic

/-- The concatenation of two arrays along axis a, as a function of the two arrays. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

end Cert.ReadLine

/-- The contents of one buffer after a literal line of host operations, in one pass, two-piece concatenations folded
    into cat2 so that the pass goes on into their pieces. -/
macro "read_line" : tactic =>
  `(tactic| (simp (disch := decide) only [Idealize.ShloMosaic.StableHlo.after_cons, Idealize.ShloMosaic.StableHlo.after_nil,
      Cert.ReadLine.cat2_eq,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.HostRead.lean ====
/-
  What the host stretches around the second and third kernel regions compute, read off the program's own lines.

  After the first region the program scales the spectral coefficients row by row; after the second it runs two rounds
  of message passing over the edge list and joins the results column-wise into the features of the last region.
  One round sends, along every edge, the source node's feature row times the edge's weight, and adds what arrives at
  each destination node into a zero array; it does so once for each of the two rows of the edge arrays.  The first
  round works on the 32 normalised features, the second on the 64 columns the first round produced.  The features
  of the last region are the 32, the 64 and the 128 columns side by side.  The two bias vectors are re-laid as
  one-row matrices.

  Each theorem reads one buffer after a stretch as a function of the buffers the stretch reads, whatever contents
  the stretch is entered with.  Nothing here opens a gather, a scatter or a concatenation.
-/
import proofs.«145947_j31421980738206_1_alg».proof.Proof.Gen.KernelIdeal.Launch
import proofs.«145947_j31421980738206_1_alg».proof.Proof.LibReadLine
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe
open Idealize.SL.Sem
open Cert.KernelIdeal Cert.KernelIdeal.Gen

/-- An array of the given shape and element type, at the exact operations. -/
abbrev Arr (s : Shape) (e : EltTy) : Type := (⟨s, e⟩ : BufTy).Contents (Elt Ideal)

/-! ## Reading a buffer after a line of host operations -/

/-- Three arrays of 32, 64 and 128 columns side by side. -/
def join3 (x : Arr S100000x32 .f32) (y : Arr S100000x64 .f32) (z : Arr S100000x128 .f32) : Arr S100000x224 .f32 :=
  concatenate S100000x224 1 [⟨S100000x32, x⟩, ⟨S100000x64, y⟩, ⟨S100000x128, z⟩]
    concatenates_S100000x32_S100000x64_S100000x128_S100000x224_d1

/-- The program's three-operand join writes `join3` of its operands' contents, each read at its own buffer. -/
theorem join3_result (hxs hy) (V : Valuation τ sig (Elt Ideal)) :
    (StableHlo.nary (τ := τ) ![main_v10, main_v49, main_v88] main_v89
        (fun u => concatenate S100000x224 1 [⟨S100000x32, u 0⟩, ⟨S100000x64, u 1⟩, ⟨S100000x128, u 2⟩]
          concatenates_S100000x32_S100000x64_S100000x128_S100000x224_d1) hxs hy).result V
        (no_index (Proc.devRef .tc main_v89))
      = join3 (V (Proc.devRef .tc main_v10)) (V (Proc.devRef .tc main_v49)) (V (Proc.devRef .tc main_v88)) := by
  rw [StableHlo.nary_result]; rfl

/-- One pass reading a buffer after a literal line of host operations: each operation's result at its own buffer
    is its function of its operands' contents, and at any other buffer what was there; a join of two arrays is
    folded into a function of the two, and the join of three is read by the lemma above, so that the pass goes on
    into the joined pieces. -/
local macro "read_host" : tactic =>
  `(tactic| (simp (disch := decide) only [StableHlo.after_cons, StableHlo.after_nil, Cert.ReadLine.cat2_eq, join3_result,
      StableHlo.nullary_result', StableHlo.unary_result', StableHlo.binary_result', StableHlo.ternary_result',
      StableHlo.reshape_result',
      StableHlo.nullary_result_ne', StableHlo.unary_result_ne', StableHlo.binary_result_ne', StableHlo.ternary_result_ne',
      StableHlo.reshape_result_ne', StableHlo.nary_result_ne']))

/-! ## Before the first region: the scale factors -/

/-- The softplus of a scalar, as the program computes it: the larger of `t` and zero plus `log (1 + exp (−|t|))`,
    and `t` itself where `t` is not a number. -/
def softplus (t : Arr S_ .f32) : Arr S_ .f32 :=
  select (cmpf (F := Ideal) (φ := .f32) .une (subf (F := Ideal) (φ := .f32) t (constant (F := Ideal) S_ .f32 0x00000000#32))
      (subf (F := Ideal) (φ := .f32) t (constant (F := Ideal) S_ .f32 0x00000000#32)))
    (addf (F := Ideal) (φ := .f32) t (constant (F := Ideal) S_ .f32 0x00000000#32))
    (addf (F := Ideal) (φ := .f32) (maximumf (F := Ideal) (φ := .f32) t (constant (F := Ideal) S_ .f32 0x00000000#32))
      (Host.log1p (F := Ideal) (φ := .f32) (Host.exp (F := Ideal) (φ := .f32) (Host.negf (F := Ideal) (φ := .f32)
        (Host.absf (F := Ideal) (φ := .f32) (subf (F := Ideal) (φ := .f32) t (constant (F := Ideal) S_ .f32 0x00000000#32)))))))

/-- The scale factors: entry `k` is `exp (−softplus τ · λₖ)`, `τ` the one entry of `x3` and `λ` the vector `x1`. -/
def spectralScale (x1 : Arr S128 .f32) (x3 : Arr S1 .f32) : Arr S128 .f32 :=
  Host.exp (F := Ideal) (φ := .f32) (mulf (F := Ideal) (φ := .f32)
    (broadcastInDim S128 ![] bcast_S_S128 (Host.negf (F := Ideal) (φ := .f32) (softplus (shapeCast S_ x3 shapeCasts_S1_S_)))) x1)

theorem v5_read (U : Valuation τ sig (Elt Ideal)) :
    StableHlo.after (hostOps0_2 : List (HloOp τ sig (Elt Ideal)))
        (StableHlo.after (hostOps0_1 : List (HloOp τ sig (Elt Ideal)))
          (StableHlo.after (hostOps0 : List (HloOp τ sig (Elt Ideal))) U)) (Proc.devRef .tc main_v5)
      = spectralScale (U (Proc.devRef .tc main_arg1)) (U (Proc.devRef .tc main_arg3)) := by
  simp only [hostOps0, hostOps0_1, hostOps0_2]
  read_host
  rfl

/-! ## After the first region: the coefficients scaled -/

/-- The spectral coefficients, row `k` multiplied by the `k`-th scale factor. -/
def scaled (s : Arr S128 .f32) (coef : Arr S128x32 .f32) : Arr S128x32 .f32 :=
  mulf (F := Ideal) (φ := .f32) (broadcastInDim S128x32 ![0, 1] bcast_S128x1_S128x32_0_1 (broadcastInDim S128x1 ![0] bcast_S128_S128x1_0 s)) coef

theorem v9_read (U : Valuation τ sig (Elt Ideal)) :
    StableHlo.after (hostOps1 : List (HloOp τ sig (Elt Ideal))) U (Proc.devRef .tc main_v9)
      = scaled (U (Proc.devRef .tc main_v5)) (U (Proc.devRef .tc main_v6)) := by
  simp only [hostOps1]
  read_host
  rfl

/-! ## After the second region: message passing -/

/-- One row of a two-row edge array, as a vector over the edges. -/
def edgeRow {e : EltTy} (o : Fin 2 → Nat) (h : S2x1600000.Slices o S1x1600000) (x : Arr S2x1600000 e) : Arr S1600000 e :=
  shapeCast S1600000 (extractStridedSlice S1x1600000 o x h) shapeCasts_S1x1600000_S1600000

/-- The edges' weights, as a column. -/
def edgeWeight (o : Fin 2 → Nat) (h : S2x1600000.Slices o S1x1600000) (x4 : Arr S2x1600000 .f32) : Arr S1600000x1 .f32 :=
  broadcastInDim S1600000x1 ![0] bcast_S1600000_S1600000x1_0 (edgeRow o h x4)

/-- The edges' source nodes, a negative number counted from the end, as a column. -/
def edgeSource (o : Fin 2 → Nat) (h : S2x1600000.Slices o S1x1600000) (x10 : Arr S2x1600000 .i32) : Arr S1600000x1 .i32 :=
  broadcastInDim S1600000x1 ![0] bcast_S1600000_S1600000x1_0
    (select (cmpi .slt (edgeRow o h x10) (broadcastInDim S1600000 ![] bcast_S_S1600000 (constantI S_ 32 0#32)))
      (addi (edgeRow o h x10) (broadcastInDim S1600000 ![] bcast_S_S1600000 (constantI S_ 32 100000#32)))
      (edgeRow o h x10))

/-- The edges' destination nodes, as a column. -/
def edgeDest (o : Fin 2 → Nat) (h : S2x1600000.Slices o S1x1600000) (x9 : Arr S2x1600000 .i32) : Arr S1600000x1 .i32 :=
  broadcastInDim S1600000x1 ![0] bcast_S1600000_S1600000x1_0 (edgeRow o h x9)

/-- One pass over the edges on 32 columns: each edge's weight times its source's row, added into its destination's row. -/
def pass32 (o : Fin 2 → Nat) (h : S2x1600000.Slices o S1x1600000) (x : Arr S100000x32 .f32)
    (x4 : Arr S2x1600000 .f32) (x9 x10 : Arr S2x1600000 .i32) : Arr S100000x32 .f32 :=
  Host.scatterAdd (F := Ideal) (φ := .f32) scatter_S100000x32_S1600000x1_S1600000x32_1_0_0_1
    (broadcastInDim S100000x32 ![] bcast_S_S100000x32 (constant (F := Ideal) S_ .f32 0x00000000#32))
    (edgeDest o h x9)
    (mulf (F := Ideal) (φ := .f32) (broadcastInDim S1600000x32 ![0, 1] bcast_S1600000x1_S1600000x32_0_1 (edgeWeight o h x4))
      (Host.gather gather_S100000x32_S1600000x1_S1600000x32_1_0_n_n_0_1_132 x (edgeSource o h x10)))

/-- The same pass on 64 columns. -/
def pass64 (o : Fin 2 → Nat) (h : S2x1600000.Slices o S1x1600000) (x : Arr S100000x64 .f32)
    (x4 : Arr S2x1600000 .f32) (x9 x10 : Arr S2x1600000 .i32) : Arr S100000x64 .f32 :=
  Host.scatterAdd (F := Ideal) (φ := .f32) scatter_S100000x64_S1600000x1_S1600000x64_1_0_0_1
    (broadcastInDim S100000x64 ![] bcast_S_S100000x64 (constant (F := Ideal) S_ .f32 0x00000000#32))
    (edgeDest o h x9)
    (mulf (F := Ideal) (φ := .f32) (broadcastInDim S1600000x64 ![0, 1] bcast_S1600000x1_S1600000x64_0_1 (edgeWeight o h x4))
      (Host.gather gather_S100000x64_S1600000x1_S1600000x64_1_0_n_n_0_1_164 x (edgeSource o h x10)))

/-- The first round: the passes over the two rows of the edge arrays, side by side. -/
def round1 (x : Arr S100000x32 .f32) (x4 : Arr S2x1600000 .f32) (x9 x10 : Arr S2x1600000 .i32) : Arr S100000x64 .f32 :=
  concatenate S100000x64 1
    [⟨S100000x32, pass32 ![0, 0] slices_S2x1600000_S1x1600000_0_0 x x4 x9 x10⟩,
     ⟨S100000x32, pass32 ![1, 0] slices_S2x1600000_S1x1600000_1_0 x x4 x9 x10⟩]
    concatenates_S100000x32_S100000x32_S100000x64_d1

/-- The second round, on the first round's 64 columns. -/
def round2 (y : Arr S100000x64 .f32) (x4 : Arr S2x1600000 .f32) (x9 x10 : Arr S2x1600000 .i32) : Arr S100000x128 .f32 :=
  concatenate S100000x128 1
    [⟨S100000x64, pass64 ![0, 0] slices_S2x1600000_S1x1600000_0_0 y x4 x9 x10⟩,
     ⟨S100000x64, pass64 ![1, 0] slices_S2x1600000_S1x1600000_1_0 y x4 x9 x10⟩]
    concatenates_S100000x64_S100000x64_S100000x128_d1

/-- The features of the last region: the normalised features, the first round and the second round, side by side. -/
def msgPass (x : Arr S100000x32 .f32) (x4 : Arr S2x1600000 .f32) (x9 x10 : Arr S2x1600000 .i32) : Arr S100000x224 .f32 :=
  concatenate S100000x224 1
    [⟨S100000x32, x⟩, ⟨S100000x64, round1 x x4 x9 x10⟩, ⟨S100000x128, round2 (round1 x x4 x9 x10) x4 x9 x10⟩]
    concatenates_S100000x32_S100000x64_S100000x128_S100000x224_d1

/-! ### The program's lines compute these -/

set_option maxHeartbeats 4000000 in
theorem v49_read (U : Valuation τ sig (Elt Ideal)) :
    StableHlo.after (hostOps2 : List (HloOp τ sig (Elt Ideal))) U (Proc.devRef .tc main_v49)
      = round1 (U (Proc.devRef .tc main_v10)) (U (Proc.devRef .tc main_arg4))
          (U (Proc.devRef .tc main_arg9)) (U (Proc.devRef .tc main_arg10)) := by
  simp only [hostOps2]
  read_host
  rfl

set_option maxHeartbeats 4000000 in
theorem v89_read (U : Valuation τ sig (Elt Ideal)) :
    StableHlo.after (hostOps2 : List (HloOp τ sig (Elt Ideal))) U (Proc.devRef .tc main_v89)
      = msgPass (U (Proc.devRef .tc main_v10)) (U (Proc.devRef .tc main_arg4))
          (U (Proc.devRef .tc main_arg9)) (U (Proc.devRef .tc main_arg10)) := by
  simp only [hostOps2]
  read_host
  rfl

/-! ## The bias vectors as one-row matrices -/

theorem v90_read (U : Valuation τ sig (Elt Ideal)) :
    StableHlo.after (hostOps2 : List (HloOp τ sig (Elt Ideal))) U (Proc.devRef .tc main_v90)
      = shapeCast S1x256 (U (Proc.devRef .tc main_arg6)) shapeCasts_S256_S1x256 := by
  simp only [hostOps2]
  read_host
  rfl

theorem v91_read (U : Valuation τ sig (Elt Ideal)) :
    StableHlo.after (hostOps2 : List (HloOp τ sig (Elt Ideal))) U (Proc.devRef .tc main_v91)
      = shapeCast S1x64 (U (Proc.devRef .tc main_arg8)) shapeCasts_S64_S1x64 := by
  simp only [hostOps2]
  read_host
  rfl

/-- Entry `j` of the one row is entry `j` of the vector. -/
theorem v90_apply (U : Valuation τ sig (Elt Ideal)) (j : Fin 256) :
    StableHlo.after (hostOps2 : List (HloOp τ sig (Elt Ideal))) U (Proc.devRef .tc main_v90) (ValueIdx.ix2 (0 : Fin 1) j)
      = U (Proc.devRef .tc main_arg6) (ValueIdx.ix1 j) := by
  rw [v90_read]
  refine shapeCast_apply _ _ _ _ ?_
  show (S256.rowMajor (ValueIdx.ix1 j)).val = (S1x256.rowMajor (ValueIdx.ix2 (0 : Fin 1) j)).val
  rw [Shape.rowMajor_val_two, Shape.rowMajor_val_one]
  show j.val = (0 : Fin 1).val * 256 + j.val
  simp

theorem v91_apply (U : Valuation τ sig (Elt Ideal)) (j : Fin 64) :
    StableHlo.after (hostOps2 : List (HloOp τ sig (Elt Ideal))) U (Proc.devRef .tc main_v91) (ValueIdx.ix2 (0 : Fin 1) j)
      = U (Proc.devRef .tc main_arg8) (ValueIdx.ix1 j) := by
  rw [v91_read]
  refine shapeCast_apply _ _ _ _ ?_
  show (S64.rowMajor (ValueIdx.ix1 j)).val = (S1x64.rowMajor (ValueIdx.ix2 (0 : Fin 1) j)).val
  rw [Shape.rowMajor_val_two, Shape.rowMajor_val_one]
  show j.val = (0 : Fin 1).val * 64 + j.val
  simp

end Cert.KernelIdeal.HandValue

end
-- ==== Proof.HostValue.lean ====
/-
  The host stretches of the kernel's program compute the reference's stages.

  Between its kernel regions the program applies, in a slightly different order of independent lines, the very
  operations the reference applies: the softplus of the temperature and the exponential scale factors, the
  row-wise scaling of the spectral coefficients, and the two rounds of message passing with the final join.
  So each buffer a region reads, as a function of the buffers the stretch before it reads, is the reference's
  stage applied to the same values.  No algebraic law is used: the two sides are the same operations applied to
  the same operands, and the proofs only compare them piece by piece, never opening a gather, a scatter or a join.
-/
import proofs.«145947_j31421980738206_1_alg».proof.Proof.HostRead
import proofs.«145947_j31421980738206_1_alg».proof.Proof.RefReadP

set_option maxRecDepth 16384

noncomputable section

namespace Cert.KernelIdeal.HandValue

open Idealize.ShloMosaic Idealize.ShloMosaic.TcCoe
open Idealize.SL.Sem
open Cert.KernelIdeal Cert.KernelIdeal.Gen

/-! ## The scale factors -/

/-- The program's softplus of the reshaped temperature is the reference's. -/
theorem softplus_eq (x3 : Arr S1 .f32) :
    softplus (shapeCast S_ x3 shapeCasts_S1_S_) = Cert.ReferenceIdeal.ReadP.val_main_v1 (F := Ideal) x3 := rfl

/-- The scale factors are the reference's `exp (−softplus τ · λ)`. -/
theorem spectralScale_eq (x1 : Arr S128 .f32) (x3 : Arr S1 .f32) :
    spectralScale x1 x3 = Cert.ReferenceIdeal.ReadP.val_main_v7 (F := Ideal) x1 x3 := by
  unfold spectralScale
  rw [softplus_eq]
  rfl

theorem v5_eq (U : Valuation τ sig (Elt Ideal)) :
    StableHlo.after (hostOps0_2 : List (HloOp τ sig (Elt Ideal)))
        (StableHlo.after (hostOps0_1 : List (HloOp τ sig (Elt Ideal)))
          (StableHlo.after (hostOps0 : List (HloOp τ sig (Elt Ideal))) U)) (Proc.devRef .tc main_v5)
      = Cert.ReferenceIdeal.ReadP.val_main_v7 (F := Ideal) (U (Proc.devRef .tc main_arg1)) (U (Proc.devRef .tc main_arg3)) :=
  (v5_read U).trans (spectralScale_eq _ _)

/-! ## The scaled coefficients -/

theorem scaled_eq (x0 : Arr S100000x32 .f32) (x1 : Arr S128 .f32) (x2 : Arr S100000x128 .f32) (x3 : Arr S1 .f32) :
    scaled (Cert.ReferenceIdeal.ReadP.val_main_v7 (F := Ideal) x1 x3) (Cert.ReferenceIdeal.ReadP.val_main_v3 (F := Ideal) x0 x2)
      = Cert.ReferenceIdeal.ReadP.val_main_v10 (F := Ideal) x0 x1 x2 x3 := rfl

theorem v9_eq (U : Valuation τ sig (Elt Ideal))
    (x0 : Arr S100000x32 .f32) (x1 : Arr S128 .f32) (x2 : Arr S100000x128 .f32) (x3 : Arr S1 .f32)
    (h5 : U (Proc.devRef .tc main_v5) = Cert.ReferenceIdeal.ReadP.val_main_v7 (F := Ideal) x1 x3)
    (h6 : U (Proc.devRef .tc main_v6) = Cert.ReferenceIdeal.ReadP.val_main_v3 (F := Ideal) x0 x2) :
    StableHlo.after (hostOps1 : List (HloOp τ sig (Elt Ideal))) U (Proc.devRef .tc main_v9)
      = Cert.ReferenceIdeal.ReadP.val_main_v10 (F := Ideal) x0 x1 x2 x3 := by
  rw [v9_read, h5, h6, scaled_eq]

/-! ## Message passing -/

section Pieces

variable (x4 : Arr S2x1600000 .f32) (x9 x10 : Arr S2x1600000 .i32)

/-- The edge columns of either row, in either round, are the reference's. -/
theorem weight0_eq : Cert.ReferenceIdeal.ReadP.val_main_v23 (F := Ideal) x4 = edgeWeight ![0, 0] slices_S2x1600000_S1x1600000_0_0 x4 := rfl
theorem weight1_eq : Cert.ReferenceIdeal.ReadP.val_main_v42 (F := Ideal) x4 = edgeWeight ![1, 0] slices_S2x1600000_S1x1600000_1_0 x4 := rfl
theorem weight0'_eq : Cert.ReferenceIdeal.ReadP.val_main_v62 (F := Ideal) x4 = edgeWeight ![0, 0] slices_S2x1600000_S1x1600000_0_0 x4 := rfl
theorem weight1'_eq : Cert.ReferenceIdeal.ReadP.val_main_v81 (F := Ideal) x4 = edgeWeight ![1, 0] slices_S2x1600000_S1x1600000_1_0 x4 := rfl
theorem source0_eq : Cert.ReferenceIdeal.ReadP.val_main_v29 (F := Ideal) x10 = edgeSource ![0, 0] slices_S2x1600000_S1x1600000_0_0 x10 := rfl
theorem source1_eq : Cert.ReferenceIdeal.ReadP.val_main_v48 (F := Ideal) x10 = edgeSource ![1, 0] slices_S2x1600000_S1x1600000_1_0 x10 := rfl
theorem source0'_eq : Cert.ReferenceIdeal.ReadP.val_main_v68 (F := Ideal) x10 = edgeSource ![0, 0] slices_S2x1600000_S1x1600000_0_0 x10 := rfl
theorem source1'_eq : Cert.ReferenceIdeal.ReadP.val_main_v87 (F := Ideal) x10 = edgeSource ![1, 0] slices_S2x1600000_S1x1600000_1_0 x10 := rfl
theorem dest0_eq : Cert.ReferenceIdeal.ReadP.val_main_v34 (F := Ideal) x9 = edgeDest ![0, 0] slices_S2x1600000_S1x1600000_0_0 x9 := rfl
theorem dest1_eq : Cert.ReferenceIdeal.ReadP.val_main_v53 (F := Ideal) x9 = edgeDest ![1, 0] slices_S2x1600000_S1x1600000_1_0 x9 := rfl
theorem dest0'_eq : Cert.ReferenceIdeal.ReadP.val_main_v73 (F := Ideal) x9 = edgeDest ![0, 0] slices_S2x1600000_S1x1600000_0_0 x9 := rfl
theorem dest1'_eq : Cert.ReferenceIdeal.ReadP.val_main_v92 (F := Ideal) x9 = edgeDest ![1, 0] slices_S2x1600000_S1x1600000_1_0 x9 := rfl

variable (x0 : Arr S100000x32 .f32) (x1 : Arr S128 .f32) (x2 : Arr S100000x128 .f32) (x3 : Arr S1 .f32)

/-- The reference's four passes are the program's, on the same operands. -/
theorem v35_eq : Cert.ReferenceIdeal.ReadP.val_main_v35 (F := Ideal) x0 x1 x2 x3 x4 x9 x10
    = pass32 ![0, 0] slices_S2x1600000_S1x1600000_0_0 (Cert.ReferenceIdeal.ReadP.val_main_v16 (F := Ideal) x0 x1 x2 x3) x4 x9 x10 := by
  unfold Cert.ReferenceIdeal.ReadP.val_main_v35 Cert.ReferenceIdeal.ReadP.val_main_v32 Cert.ReferenceIdeal.ReadP.val_main_v31 Cert.ReferenceIdeal.ReadP.val_main_v30
  rw [weight0_eq, source0_eq, dest0_eq]
  rfl

theorem v54_eq : Cert.ReferenceIdeal.ReadP.val_main_v54 (F := Ideal) x0 x1 x2 x3 x4 x9 x10
    = pass32 ![1, 0] slices_S2x1600000_S1x1600000_1_0 (Cert.ReferenceIdeal.ReadP.val_main_v16 (F := Ideal) x0 x1 x2 x3) x4 x9 x10 := by
  unfold Cert.ReferenceIdeal.ReadP.val_main_v54 Cert.ReferenceIdeal.ReadP.val_main_v51 Cert.ReferenceIdeal.ReadP.val_main_v50 Cert.ReferenceIdeal.ReadP.val_main_v49
  rw [weight1_eq, source1_eq, dest1_eq]
  rfl

theorem v55_eq : Cert.ReferenceIdeal.ReadP.val_main_v55 (F := Ideal) x0 x1 x2 x3 x4 x9 x10
    = round1 (Cert.ReferenceIdeal.ReadP.val_main_v16 (F := Ideal) x0 x1 x2 x3) x4 x9 x10 := by
  unfold Cert.ReferenceIdeal.ReadP.val_main_v55
  rw [v35_eq, v54_eq]
  rfl

theorem v74_eq : Cert.ReferenceIdeal.ReadP.val_main_v74 (F := Ideal) x0 x1 x2 x3 x4 x9 x10
    = pass64 ![0, 0] slices_S2x1600000_S1x1600000_0_0 (Cert.ReferenceIdeal.ReadP.val_main_v55 (F := Ideal) x0 x1 x2 x3 x4 x9 x10) x4 x9 x10 := by
  unfold Cert.ReferenceIdeal.ReadP.val_main_v74 Cert.ReferenceIdeal.ReadP.val_main_v71 Cert.ReferenceIdeal.ReadP.val_main_v70 Cert.ReferenceIdeal.ReadP.val_main_v69
  rw [weight0'_eq, source0'_eq, dest0'_eq]
  rfl

theorem v93_eq : Cert.ReferenceIdeal.ReadP.val_main_v93 (F := Ideal) x0 x1 x2 x3 x4 x9 x10
    = pass64 ![1, 0] slices_S2x1600000_S1x1600000_1_0 (Cert.ReferenceIdeal.ReadP.val_main_v55 (F := Ideal) x0 x1 x2 x3 x4 x9 x10) x4 x9 x10 := by
  unfold Cert.ReferenceIdeal.ReadP.val_main_v93 Cert.ReferenceIdeal.ReadP.val_main_v90 Cert.ReferenceIdeal.ReadP.val_main_v89 Cert.ReferenceIdeal.ReadP.val_main_v88
  rw [weight1'_eq, source1'_eq, dest1'_eq]
  rfl

theorem v94_eq : Cert.ReferenceIdeal.ReadP.val_main_v94 (F := Ideal) x0 x1 x2 x3 x4 x9 x10
    = round2 (round1 (Cert.ReferenceIdeal.ReadP.val_main_v16 (F := Ideal) x0 x1 x2 x3) x4 x9 x10) x4 x9 x10 := by
  unfold Cert.ReferenceIdeal.ReadP.val_main_v94
  rw [v74_eq, v93_eq, v55_eq]
  rfl

/-- The features of the last region are the reference's joined array. -/
theorem msgPass_eq : msgPass (Cert.ReferenceIdeal.ReadP.val_main_v16 (F := Ideal) x0 x1 x2 x3) x4 x9 x10
    = Cert.ReferenceIdeal.ReadP.val_main_v95 (F := Ideal) x0 x1 x2 x3 x4 x9 x10 := by
  unfold Cert.ReferenceIdeal.ReadP.val_main_v95
  rw [v94_eq, v55_eq]
  rfl

end Pieces

theorem v89_eq (U : Valuation τ sig (Elt Ideal))
    (x0 : Arr S100000x32 .f32) (x1 : Arr S128 .f32) (x2 : Arr S100000x128 .f32) (x3 : Arr S1 .f32)
    (h10 : U (Proc.devRef .tc main_v10) = Cert.ReferenceIdeal.ReadP.val_main_v16 (F := Ideal) x0 x1 x2 x3) :
    StableHlo.after (hostOps2 : List (HloOp τ sig (Elt Ideal))) U (Proc.devRef .tc main_v89)
      = Cert.ReferenceIdeal.ReadP.val_main_v95 (F := Ideal) x0 x1 x2 x3 (U (Proc.devRef .tc main_arg4))
          (U (Proc.devRef .tc main_arg9)) (U (Proc.devRef .tc main_arg10)) := by
  rw [v89_read, h10, msgPass_eq]

end Cert.KernelIdeal.HandValue

end
-- ==== Proof.Algebraic.lean ====
/-
  At the extended reals the kernel's result array is the reference's last stage of the same arguments.

  Walking the run's boundaries: the accumulated reduction is the one contraction Φᵀx (the reference's stage 3); the
  host scaling gives stage 10; the row-normalised broadcast of it is stage 16; the message passing, being the
  reference's own operations applied to an equal array, gives stage 95; and the fused projection of that is stage 104.
  Every argument a stage reads is found at its launch contents, since nothing writes an argument.
-/
import proofs.«145947_j31421980738206_1_alg».proof.Defs
import proofs.«145947_j31421980738206_1_alg».proof.Proof.Gen.Pre_finite_inputs
import proofs.«145947_j31421980738206_1_alg».proof.Proof.Frames
import proofs.«145947_j31421980738206_1_alg».proof.Proof.Value0
import proofs.«145947_j31421980738206_1_alg».proof.Proof.Ref0
import proofs.«145947_j31421980738206_1_alg».proof.Proof.Value1
import proofs.«145947_j31421980738206_1_alg».proof.Proof.Value2
import proofs.«145947_j31421980738206_1_alg».proof.Proof.Ref2
import proofs.«145947_j31421980738206_1_alg».proof.Proof.HostRead
import proofs.«145947_j31421980738206_1_alg».proof.Proof.HostValue
import proofs.«145947_j31421980738206_1_alg».proof.Proof.RefRunP
import proofs.«145947_j31421980738206_1_alg».proof.Proof.RefReadP

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal.ReadP (val_main_v3 val_main_v7 val_main_v10 val_main_v16 val_main_v95 val_main_v104)

variable (m : (ℓ : Loc nD τ sig) → Buf (Elt Ideal) ℓ) (ρ : Dev nD → PrngReg)

/-- The three pipelines' proof data at the extended reals. -/
abbrev HI : Iface Ideal := iface (F := Ideal)

/-- The arguments at region 1's exit are the launch's. -/
theorem W4_arg (c : Dev nD) (K : Fin 11) :
    W4 HI m ρ c (Proc.devRef .tc (argRef K)) = m ((c : Thread nD τ).loc (argRef K)) :=
  (kept1 HI m ρ c K).trans (W3_arg HI m ρ c K)

/-- Region 0 leaves Φᵀx in the coefficient buffer. -/
theorem v6_at (c : Dev nD) :
    W2 HI m ρ c (Proc.devRef .tc main_v6) = val_main_v3 (F := Ideal) (m ((c.tc : Thread nD τ).loc main_arg0)) (m ((c.tc : Thread nD τ).loc main_arg2)) :=
  (W2_arr HI m ρ c 2).trans ((final0 (V1 m ρ) c).trans
    ((congrArg₂ coefSum (W1_arg m ρ c 2) (W1_arg m ρ c 0)).trans (coefSum_eq_ref _ _)))

/-- The scale vector exp(-softplus(τ)·λ), computed before region 0 and untouched by it. -/
theorem v5_at (c : Dev nD) :
    W2 HI m ρ c (Proc.devRef .tc main_v5) = val_main_v7 (F := Ideal) (m ((c.tc : Thread nD τ).loc main_arg1)) (m ((c.tc : Thread nD τ).loc main_arg3)) :=
  (W2_of_ne HI m ρ c main_v5 (by decide)).trans (v5_eq (W0 m ρ c))

/-- The scaled coefficients entering region 1. -/
theorem v9_at (c : Dev nD) :
    W3 HI m ρ c (Proc.devRef .tc main_v9) = val_main_v10 (F := Ideal) (m ((c.tc : Thread nD τ).loc main_arg0)) (m ((c.tc : Thread nD τ).loc main_arg1)) (m ((c.tc : Thread nD τ).loc main_arg2)) (m ((c.tc : Thread nD τ).loc main_arg3)) :=
  v9_eq (W2 HI m ρ c) _ _ _ _ (v5_at m ρ c) (v6_at m ρ c)

/-- Region 1 leaves the row-normalised diffused features. -/
theorem v10_at (c : Dev nD) :
    W4 HI m ρ c (Proc.devRef .tc main_v10) = val_main_v16 (F := Ideal) (m ((c.tc : Thread nD τ).loc main_arg0)) (m ((c.tc : Thread nD τ).loc main_arg1)) (m ((c.tc : Thread nD τ).loc main_arg2)) (m ((c.tc : Thread nD τ).loc main_arg3)) :=
  (W4_arr HI m ρ c 2).trans ((final1 (V3 HI m ρ) c).trans
    ((congrArg₂ X1 (W3_arg HI m ρ c 2) (v9_at m ρ c)).trans (X1_ref _ _ _ _)))

/-- The concatenated features entering region 2. -/
theorem v89_at (c : Dev nD) :
    W5 HI m ρ c (Proc.devRef .tc main_v89) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) :=
  by
    have h := v89_eq (W4 HI m ρ c) _ _ _ _ (v10_at m ρ c)
    rw [show W4 HI m ρ c (Proc.devRef .tc main_arg4) = (m ((c.tc : Thread nD τ).loc main_arg4)) from W4_arg m ρ c 4,
      show W4 HI m ρ c (Proc.devRef .tc main_arg9) = (m ((c.tc : Thread nD τ).loc main_arg9)) from W4_arg m ρ c 9,
      show W4 HI m ρ c (Proc.devRef .tc main_arg10) = (m ((c.tc : Thread nD τ).loc main_arg10)) from W4_arg m ρ c 10] at h
    exact h

/-- The kernel's result is the reference's last stage. -/
theorem result_eq (c : Dev nD) :
    W6 HI m ρ c (Proc.devRef .tc main_v92)
      = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W6_arr HI m ρ c 5).trans ((final2 (V5 HI m ρ) c).trans (by
    rw [show V5 HI m ρ c main_v89 = _ from v89_at m ρ c,
      show V5 HI m ρ c main_arg5 = _ from W5_arg HI m ρ c 5,
      show V5 HI m ρ c main_arg7 = _ from W5_arg HI m ρ c 7]
    exact X2_ref _ _ _ _ _ _ _ _ _ _ _ (V5 HI m ρ c main_v90) (V5 HI m ρ c main_v91)
      (fun j => (v90_apply (W4 HI m ρ c) j).trans (congrFun (W4_arg m ρ c 6) _))
      (fun j => (v91_apply (W4 HI m ρ c) j).trans (congrFun (W4_arg m ρ c 8) _))))

/-- The two idealized programs, run from memories agreeing on the arguments, end with equal results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => W6 HI m ρ c (Proc.devRef .tc main_v92), ?_, ?_⟩
  · exact (θ_run defs _ _).mono (fun _ h c => ⟨(h c).1, (h c).2 0, (h c).2 1, (h c).2 2, (h c).2 3, (h c).2 4, (h c).2 5,
      (h c).2 6, (h c).2 7, (h c).2 8, (h c).2 9, (h c).2 10⟩) (run_all HI m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v104_eq, h0, h1, h2, h3, h4, h5, h6, h7, h8, h9, h10]
    exact (result_eq m ρ c).symm

end Cert.KernelIdeal.HandValue

end
-- ==== Proof.lean ====
/-
  The claim's five conjuncts, assembled.

  The kernel's @main is three pallas_calls among host operations: a spectral reduction coef = Φᵀ x accumulated over
  ten row tiles in a scratch buffer carried across the grid; the scaling of coef by exp(-softplus(τ)·λ) on the host;
  a spectral broadcast Φ·coef whose rows are divided by max(‖row‖₂, 1e-12); two rounds of gather / multiply /
  scatter-add message passing and their concatenation on the host; and a fused projection relu(feat·W₁ + b₁)·W₂ + b₂
  over row tiles. The reference computes the same stages with whole-array host operations.

  Frames: the run of @main over its eight segments (five host stretches, three regions) with every boundary's buffer
  contents named; no operation and no region writes an argument. The word-level program and its idealization are one
  text, so their frames are the same proof at the two float instances. The reference's frame is its generated run.
  Preserves: the ideal pass rewrote nothing. Algebraic: at the extended reals each region's result is the reference's
  stage — the accumulated tiles regroup the one long contraction (addition on the extended reals is commutative and
  associative, so no finiteness is needed), the row-wise matrix products and the row normalisation are read row by
  row through the blocks, and the host stretches between them are the reference's own operations.
-/
import proofs.«145947_j31421980738206_1_alg».proof.Defs
import proofs.«145947_j31421980738206_1_alg».proof.Proof.Gen.Kernel
import proofs.«145947_j31421980738206_1_alg».proof.Proof.Gen.KernelIdeal
import proofs.«145947_j31421980738206_1_alg».proof.Proof.Gen.ReferenceIdeal
import proofs.«145947_j31421980738206_1_alg».proof.Proof.RefRunP
import proofs.«145947_j31421980738206_1_alg».proof.Proof.RefReadP
import proofs.«145947_j31421980738206_1_alg».proof.Proof.Gen.Pre_finite_inputs
import proofs.«145947_j31421980738206_1_alg».proof.Proof.Frames
import proofs.«145947_j31421980738206_1_alg».proof.Proof.KFrames
import proofs.«145947_j31421980738206_1_alg».proof.Proof.Algebraic
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Hand.frame (Cert.Kernel.Hand.iface (F := Bits)) m ρ

theorem frame_kernelIdeal : @Cert.frame_KernelIdeal Cert.KernelIdeal.Gen.facts Cert.Pre_finite_inputs.Gen.facts :=
  fun m ρ _ => Cert.KernelIdeal.Hand.frame (Cert.KernelIdeal.Hand.iface (F := Ideal)) m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.KernelIdeal.HandValue.algebraic⟩

end Cert.Proof

end
